-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S524288 : Shape := ⟨1, ![524288]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel

variable [Facts]

def fn {F : FTy → Type} [FloatOps F] (main_arg0 : FVec F S524288x64 .f32) (main_arg1 : IVec S524288 32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  main_v3
-- ==== Kernel.lean ====
abbrev S524288x64 : Shape := ⟨2, ![524288, 64]⟩
abbrev S524288 : Shape := ⟨1, ![524288]⟩
abbrev S120 : Shape := ⟨1, ![120]⟩
abbrev S4096x128 : Shape := ⟨2, ![4096, 128]⟩
abbrev S2x16x64x64 : Shape := ⟨4, ![2, 16, 64, 64]⟩
abbrev S2x16x64 : Shape := ⟨3, ![2, 16, 64]⟩
abbrev S2x1x16 : Shape := ⟨3, ![2, 1, 16]⟩
abbrev S4096x64 : Shape := ⟨2, ![4096, 64]⟩
abbrev S32x128 : Shape := ⟨2, ![32, 128]⟩
abbrev S1x16x64x64 : Shape := ⟨4, ![1, 16, 64, 64]⟩
abbrev S1x16x64 : Shape := ⟨3, ![1, 16, 64]⟩
abbrev S1x1x16 : Shape := ⟨3, ![1, 1, 16]⟩
abbrev S4096x1024 : Shape := ⟨2, ![4096, 1024]⟩
abbrev S1024x64 : Shape := ⟨2, ![1024, 64]⟩
abbrev S16x64 : Shape := ⟨2, ![16, 64]⟩
abbrev S1x16 : Shape := ⟨2, ![1, 16]⟩
abbrev S4096x1 : Shape := ⟨2, ![4096, 1]⟩
abbrev S4096x16 : Shape := ⟨2, ![4096, 16]⟩
abbrev S16 : Shape := ⟨1, ![16]⟩
abbrev S16x64x64 : Shape := ⟨3, ![16, 64, 64]⟩
abbrev S_ : Shape := ⟨0, ![]⟩
abbrev S16x1 : Shape := ⟨2, ![16, 1]⟩
abbrev S16x1x1 : Shape := ⟨3, ![16, 1, 1]⟩
abbrev S16x64x1 : Shape := ⟨3, ![16, 64, 1]⟩
abbrev S16x1x64 : Shape := ⟨3, ![16, 1, 64]⟩
abbrev S64x64 : Shape := ⟨2, ![64, 64]⟩
abbrev S1x64x64 : Shape := ⟨3, ![1, 64, 64]⟩
abbrev S16x1x64x64 : Shape := ⟨4, ![16, 1, 64, 64]⟩
abbrev S16x16x64x64 : Shape := ⟨4, ![16, 16, 64, 64]⟩
abbrev S16x16 : Shape := ⟨2, ![16, 16]⟩
abbrev S120x1 : Shape := ⟨2, ![120, 1]⟩
abbrev S120x2 : Shape := ⟨2, ![120, 2]⟩

abbrev nBuf : Space → Nat
  | .hbm => 113
  | .vmem => 14
  | .smem => 0
  | _ => 0

abbrev bufTy : (tb : Table) → Fin (tcTables nBuf tb) → BufTy
  | .hbm, ⟨0, _⟩ => ⟨S524288x64, .f32⟩
  | .hbm, ⟨1, _⟩ => ⟨S524288, .i32⟩
  | .hbm, ⟨2, _⟩ => ⟨S120, .i32⟩
  | .hbm, ⟨3, _⟩ => ⟨S120, .i1⟩
  | .hbm, ⟨4, _⟩ => ⟨S120, .i32⟩
  | .hbm, ⟨5, _⟩ => ⟨S120, .i1⟩
  | .hbm, ⟨6, _⟩ => ⟨S120, .i1⟩
  | .hbm, ⟨7, _⟩ => ⟨S120, .i1⟩
  | .hbm, ⟨8, _⟩ => ⟨S4096x128, .i32⟩
  | .hbm, ⟨9, _⟩ => ⟨S2x16x64x64, .f32⟩
  | .hbm, ⟨10, _⟩ => ⟨S2x16x64, .f32⟩
  | .hbm, ⟨11, _⟩ => ⟨S2x1x16, .f32⟩
  | .hbm, ⟨12, _⟩ => ⟨S_, .f32⟩
  | .hbm, ⟨13, _⟩ => ⟨S16x64x64, .f32⟩
  | .hbm, ⟨14, _⟩ => ⟨S_, .f32⟩
  | .hbm, ⟨15, _⟩ => ⟨S16x64, .f32⟩
  | .hbm, ⟨16, _⟩ => ⟨S_, .f32⟩
  | .hbm, ⟨17, _⟩ => ⟨S1x16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16x1, .f32⟩
  | .hbm, ⟨23, _⟩ => ⟨S16x64, .f32⟩
  | .hbm, ⟨24, _⟩ => ⟨S16x64, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x1x1, .f32⟩
  | .hbm, ⟨32, _⟩ => ⟨S16x1x1, .f32⟩
  | .hbm, ⟨33, _⟩ => ⟨S16x64x1, .f32⟩
  | .hbm, ⟨34, _⟩ => ⟨S16x64x1, .f32⟩
  | .hbm, ⟨35, _⟩ => ⟨S16x64x1, .f32⟩
  | .hbm, ⟨36, _⟩ => ⟨S16x1x64, .f32⟩
  | .hbm, ⟨37, _⟩ => ⟨S16x64x64, .f32⟩
  | .hbm, ⟨38, _⟩ => ⟨S16x64x64, .f32⟩
  | .hbm, ⟨39, _⟩ => ⟨S16x64x64, .f32⟩
  | .hbm, ⟨40, _⟩ => ⟨S16x64x64, .f32⟩
  | .hbm, ⟨41, _⟩ => ⟨S16x64x64, .f32⟩
  | .hbm, ⟨42, _⟩ => ⟨S16x64x64, .f32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S1x64x64, .f32⟩
  | .hbm, ⟨54, _⟩ => ⟨S16x64x64, .f32⟩
  | .hbm, ⟨55, _⟩ => ⟨S16x64x64, .f32⟩
  | .hbm, ⟨56, _⟩ => ⟨S16x1x64x64, .f32⟩
  | .hbm, ⟨57, _⟩ => ⟨S1x16x64x64, .f32⟩
  | .hbm, ⟨58, _⟩ => ⟨S16x16x64x64, .f32⟩
  | .hbm, ⟨59, _⟩ => ⟨S16x16x64x64, .f32⟩
  | .hbm, ⟨60, _⟩ => ⟨S16x16x64x64, .f32⟩
  | .hbm, ⟨61, _⟩ => ⟨S16x16x64x64, .f32⟩
  | .hbm, ⟨62, _⟩ => ⟨S_, .f32⟩
  | .hbm, ⟨63, _⟩ => ⟨S16x16, .f32⟩
  | .hbm, ⟨64, _⟩ => ⟨S_, .f32⟩
  | .hbm, ⟨65, _⟩ => ⟨S16, .f32⟩
  | .hbm, ⟨66, _⟩ => ⟨S16, .i1⟩
  | .hbm, ⟨67, _⟩ => ⟨S_, .i32⟩
  | .hbm, ⟨68, _⟩ => ⟨S120, .i32⟩
  | .hbm, ⟨69, _⟩ => ⟨S120, .i32⟩
  | .hbm, ⟨70, _⟩ => ⟨S120, .i32⟩
  | .hbm, ⟨71, _⟩ => ⟨S120x1, .i32⟩
  | .hbm, ⟨72, _⟩ => ⟨S120, .i1⟩
  | .hbm, ⟨73, _⟩ => ⟨S_, .i32⟩
  | .hbm, ⟨74, _⟩ => ⟨S120, .i32⟩
  | .hbm, ⟨75, _⟩ => ⟨S120, .i32⟩
  | .hbm, ⟨76, _⟩ => ⟨S120, .i32⟩
  | .hbm, ⟨77, _⟩ => ⟨S120x1, .i32⟩
  | .hbm, ⟨78, _⟩ => ⟨S120, .i1⟩
  | .hbm, ⟨79, _⟩ => ⟨S120, .i1⟩
  | .hbm, ⟨80, _⟩ => ⟨S_, .i32⟩
  | .hbm, ⟨81, _⟩ => ⟨S120, .i32⟩
  | .hbm, ⟨82, _⟩ => ⟨S120, .i32⟩
  | .hbm, ⟨83, _⟩ => ⟨S120, .i32⟩
  | .hbm, ⟨84, _⟩ => ⟨S_, .i32⟩
  | .hbm, ⟨85, _⟩ => ⟨S120, .i32⟩
  | .hbm, ⟨86, _⟩ => ⟨S120, .i32⟩
  | .hbm, ⟨87, _⟩ => ⟨S120, .i32⟩
  | .hbm, ⟨88, _⟩ => ⟨S120x1, .i32⟩
  | .hbm, ⟨89, _⟩ => ⟨S120x1, .i32⟩
  | .hbm, ⟨90, _⟩ => ⟨S120x2, .i32⟩
  | .hbm, ⟨91, _⟩ => ⟨S120, .f32⟩
  | .hbm, ⟨92, _⟩ => ⟨S_, .f32⟩
  | .hbm, ⟨93, _⟩ => ⟨S_, .f32⟩
  | .hbm, ⟨94, _⟩ => ⟨S120, .f32⟩
  | .hbm, ⟨95, _⟩ => ⟨S120, .f32⟩
  | .hbm, ⟨96, _⟩ => ⟨S120, .f32⟩
  | .hbm, ⟨97, _⟩ => ⟨S_, .f32⟩
  | .hbm, ⟨98, _⟩ => ⟨S_, .f32⟩
  | .hbm, ⟨99, _⟩ => ⟨S120, .f32⟩
  | .hbm, ⟨100, _⟩ => ⟨S120, .f32⟩
  | .hbm, ⟨101, _⟩ => ⟨S_, .f32⟩
  | .hbm, ⟨102, _⟩ => ⟨S_, .f32⟩
  | .hbm, ⟨103, _⟩ => ⟨S120, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S32x128, .i32⟩
  | .local _ .vmem, ⟨3, _⟩ => ⟨S32x128, .i32⟩
  | .local _ .vmem, ⟨4, _⟩ => ⟨S1x16x64x64, .f32⟩
  | .local _ .vmem, ⟨5, _⟩ => ⟨S1x16x64x64, .f32⟩
  | .local _ .vmem, ⟨6, _⟩ => ⟨S1x16x64, .f32⟩
  | .local _ .vmem, ⟨7, _⟩ => ⟨S1x16x64, .f32⟩
  | .local _ .vmem, ⟨8, _⟩ => ⟨S1x1x16, .f32⟩
  | .local _ .vmem, ⟨9, _⟩ => ⟨S1x1x16, .f32⟩
  | .local _ .vmem, ⟨10, _⟩ => ⟨S4096x1024, .bf16⟩
  | .local _ .vmem, ⟨11, _⟩ => ⟨S1024x64, .f32⟩
  | .local _ .vmem, ⟨12, _⟩ => ⟨S16x64, .f32⟩
  | .local _ .vmem, ⟨13, _⟩ => ⟨S1x16, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_cst : Ref sig .tc := ⟨.hbm, 12, rfl⟩
abbrev main_v2 : Ref sig .tc := ⟨.hbm, 13, rfl⟩
abbrev main_cst_5 : Ref sig .tc := ⟨.hbm, 14, rfl⟩
abbrev main_v3 : Ref sig .tc := ⟨.hbm, 15, rfl⟩
abbrev main_cst_6 : Ref sig .tc := ⟨.hbm, 16, rfl⟩
abbrev main_v4 : Ref sig .tc := ⟨.hbm, 17, rfl⟩
abbrev main_v5 : Ref sig .tc := ⟨.hbm, 18, rfl⟩
abbrev main_cst_7 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_8 : Ref sig .tc := ⟨.hbm, 25, rfl⟩
abbrev main_v11 : Ref sig .tc := ⟨.hbm, 26, rfl⟩
abbrev main_v12 : Ref sig .tc := ⟨.hbm, 27, rfl⟩
abbrev main_cst_9 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_c_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_18 : Ref sig .tc := ⟨.hbm, 92, rfl⟩
abbrev main_call0_v0 : Ref sig .tc := ⟨.hbm, 93, rfl⟩
abbrev main_call0_v1 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_call1_v0 : Ref sig .tc := ⟨.hbm, 98, rfl⟩
abbrev main_call1_v1 : Ref sig .tc := ⟨.hbm, 99, rfl⟩
abbrev main_v70 : Ref sig .tc := ⟨.hbm, 100, rfl⟩
abbrev main_cst_20 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_cst_23 : Ref sig .tc := ⟨.hbm, 108, rfl⟩
abbrev main_v75 : Ref sig .tc := ⟨.hbm, 109, rfl⟩
abbrev main_v76 : Ref sig .tc := ⟨.hbm, 110, rfl⟩
abbrev main_cst_24 : Ref sig .tc := ⟨.hbm, 111, rfl⟩
abbrev main_v77 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v132 : BitVec 1 := Scalar.cmpi .eq arg1 c63_i32
  let v133 : BitVec 32 := Scalar.extui v132
  let c0_i32_37 : BitVec 32 := 0#32
  let v134 : BitVec 1 := Scalar.cmpi .ne v133 c0_i32_37
  v134

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S524288_S4096x128 : S524288.ShapeCasts S4096x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S4096x1 : S32x128.ShapeCasts S4096x1
  iota_S1x16_d1_w32 : S1x16.Iotas .tc 32 [1]
  broadcasts_S4096x1_S4096x16 : S4096x1.Broadcasts S4096x16
  broadcasts_S1x16_S4096x16 : S1x16.Broadcasts S4096x16
  natLt_1_32 : 1 < 32
  reduces_S4096x16_S16 : S4096x16.Reduces [0] S16
  shapeCasts_S16_S1x16 : S16.ShapeCasts S1x16
  slices_S4096x16_o0_0_S4096x1 : S4096x16.Slices ![0, 0] S4096x1
  broadcasts_S4096x1_S4096x64 : S4096x1.Broadcasts S4096x64
  inb_S4096x1024_S4096x64_0_0 : ∀ a, (![0, 0] : Fin 2 → Nat) a + S4096x64.size a ≤ S4096x1024.size a
  shapeCasts_S4096x64_S4096x64 : S4096x64.ShapeCasts S4096x64
  packedbf16_S4096x1024_S4096x64_0_0 : (Rect.unit (s := S4096x1024) ![0, 0] S4096x64.size inb_S4096x1024_S4096x64_0_0).PackedRows (EltTy.packing .bf16)
  slices_S4096x16_o0_1_S4096x1 : S4096x16.Slices ![0, 1] S4096x1
  inb_S4096x1024_S4096x64_0_64 : ∀ a, (![0, 64] : Fin 2 → Nat) a + S4096x64.size a ≤ S4096x1024.size a
  packedbf16_S4096x1024_S4096x64_0_64 : (Rect.unit (s := S4096x1024) ![0, 64] S4096x64.size inb_S4096x1024_S4096x64_0_64).PackedRows (EltTy.packing .bf16)
  slices_S4096x16_o0_2_S4096x1 : S4096x16.Slices ![0, 2] S4096x1
  inb_S4096x1024_S4096x64_0_128 : ∀ a, (![0, 128] : Fin 2 → Nat) a + S4096x64.size a ≤ S4096x1024.size a
  packedbf16_S4096x1024_S4096x64_0_128 : (Rect.unit (s := S4096x1024) ![0, 128] S4096x64.size inb_S4096x1024_S4096x64_0_128).PackedRows (EltTy.packing .bf16)
  slices_S4096x16_o0_3_S4096x1 : S4096x16.Slices ![0, 3] S4096x1
  inb_S4096x1024_S4096x64_0_192 : ∀ a, (![0, 192] : Fin 2 → Nat) a + S4096x64.size a ≤ S4096x1024.size a
  packedbf16_S4096x1024_S4096x64_0_192 : (Rect.unit (s := S4096x1024) ![0, 192] S4096x64.size inb_S4096x1024_S4096x64_0_192).PackedRows (EltTy.packing .bf16)
  slices_S4096x16_o0_4_S4096x1 : S4096x16.Slices ![0, 4] S4096x1
  inb_S4096x1024_S4096x64_0_256 : ∀ a, (![0, 256] : Fin 2 → Nat) a + S4096x64.size a ≤ S4096x1024.size a
  packedbf16_S4096x1024_S4096x64_0_256 : (Rect.unit (s := S4096x1024) ![0, 256] S4096x64.size inb_S4096x1024_S4096x64_0_256).PackedRows (EltTy.packing .bf16)
  slices_S4096x16_o0_5_S4096x1 : S4096x16.Slices ![0, 5] S4096x1
  inb_S4096x1024_S4096x64_0_320 : ∀ a, (![0, 320] : Fin 2 → Nat) a + S4096x64.size a ≤ S4096x1024.size a
  packedbf16_S4096x1024_S4096x64_0_320 : (Rect.unit (s := S4096x1024) ![0, 320] S4096x64.size inb_S4096x1024_S4096x64_0_320).PackedRows (EltTy.packing .bf16)
  slices_S4096x16_o0_6_S4096x1 : S4096x16.Slices ![0, 6] S4096x1
  inb_S4096x1024_S4096x64_0_384 : ∀ a, (![0, 384] : Fin 2 → Nat) a + S4096x64.size a ≤ S4096x1024.size a
  packedbf16_S4096x1024_S4096x64_0_384 : (Rect.unit (s := S4096x1024) ![0, 384] S4096x64.size inb_S4096x1024_S4096x64_0_384).PackedRows (EltTy.packing .bf16)
  slices_S4096x16_o0_7_S4096x1 : S4096x16.Slices ![0, 7] S4096x1
  inb_S4096x1024_S4096x64_0_448 : ∀ a, (![0, 448] : Fin 2 → Nat) a + S4096x64.size a ≤ S4096x1024.size a
  packedbf16_S4096x1024_S4096x64_0_448 : (Rect.unit (s := S4096x1024) ![0, 448] S4096x64.size inb_S4096x1024_S4096x64_0_448).PackedRows (EltTy.packing .bf16)
  slices_S4096x16_o0_8_S4096x1 : S4096x16.Slices ![0, 8] S4096x1
  inb_S4096x1024_S4096x64_0_512 : ∀ a, (![0, 512] : Fin 2 → Nat) a + S4096x64.size a ≤ S4096x1024.size a
  packedbf16_S4096x1024_S4096x64_0_512 : (Rect.unit (s := S4096x1024) ![0, 512] S4096x64.size inb_S4096x1024_S4096x64_0_512).PackedRows (EltTy.packing .bf16)
  slices_S4096x16_o0_9_S4096x1 : S4096x16.Slices ![0, 9] S4096x1
  inb_S4096x1024_S4096x64_0_576 : ∀ a, (![0, 576] : Fin 2 → Nat) a + S4096x64.size a ≤ S4096x1024.size a
  packedbf16_S4096x1024_S4096x64_0_576 : (Rect.unit (s := S4096x1024) ![0, 576] S4096x64.size inb_S4096x1024_S4096x64_0_576).PackedRows (EltTy.packing .bf16)
  slices_S4096x16_o0_10_S4096x1 : S4096x16.Slices ![0, 10] S4096x1
  inb_S4096x1024_S4096x64_0_640 : ∀ a, (![0, 640] : Fin 2 → Nat) a + S4096x64.size a ≤ S4096x1024.size a
  packedbf16_S4096x1024_S4096x64_0_640 : (Rect.unit (s := S4096x1024) ![0, 640] S4096x64.size inb_S4096x1024_S4096x64_0_640).PackedRows (EltTy.packing .bf16)
  slices_S4096x16_o0_11_S4096x1 : S4096x16.Slices ![0, 11] S4096x1
  inb_S4096x1024_S4096x64_0_704 : ∀ a, (![0, 704] : Fin 2 → Nat) a + S4096x64.size a ≤ S4096x1024.size a
  packedbf16_S4096x1024_S4096x64_0_704 : (Rect.unit (s := S4096x1024) ![0, 704] S4096x64.size inb_S4096x1024_S4096x64_0_704).PackedRows (EltTy.packing .bf16)
  slices_S4096x16_o0_12_S4096x1 : S4096x16.Slices ![0, 12] S4096x1
  inb_S4096x1024_S4096x64_0_768 : ∀ a, (![0, 768] : Fin 2 → Nat) a + S4096x64.size a ≤ S4096x1024.size a
  packedbf16_S4096x1024_S4096x64_0_768 : (Rect.unit (s := S4096x1024) ![0, 768] S4096x64.size inb_S4096x1024_S4096x64_0_768).PackedRows (EltTy.packing .bf16)
  slices_S4096x16_o0_13_S4096x1 : S4096x16.Slices ![0, 13] S4096x1
  inb_S4096x1024_S4096x64_0_832 : ∀ a, (![0, 832] : Fin 2 → Nat) a + S4096x64.size a ≤ S4096x1024.size a
  packedbf16_S4096x1024_S4096x64_0_832 : (Rect.unit (s := S4096x1024) ![0, 832] S4096x64.size inb_S4096x1024_S4096x64_0_832).PackedRows (EltTy.packing .bf16)
  slices_S4096x16_o0_14_S4096x1 : S4096x16.Slices ![0, 14] S4096x1
  inb_S4096x1024_S4096x64_0_896 : ∀ a, (![0, 896] : Fin 2 → Nat) a + S4096x64.size a ≤ S4096x1024.size a
  packedbf16_S4096x1024_S4096x64_0_896 : (Rect.unit (s := S4096x1024) ![0, 896] S4096x64.size inb_S4096x1024_S4096x64_0_896).PackedRows (EltTy.packing .bf16)
  slices_S4096x16_o0_15_S4096x1 : S4096x16.Slices ![0, 15] S4096x1
  inb_S4096x1024_S4096x64_0_960 : ∀ a, (![0, 960] : Fin 2 → Nat) a + S4096x64.size a ≤ S4096x1024.size a
  packedbf16_S4096x1024_S4096x64_0_960 : (Rect.unit (s := S4096x1024) ![0, 960] S4096x64.size inb_S4096x1024_S4096x64_0_960).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S1024x64_S16x64x64 : S1024x64.ShapeCasts S16x64x64
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  shapeCasts_S16x64_S1x16x64 : S16x64.ShapeCasts S1x16x64
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  reducesTo_S2x16x64x64_S16x64x64_d0 : S2x16x64x64.ReducesTo [0] S16x64x64
  h_S_ : 0 < S_.numel
  reducesTo_S2x16x64_S16x64_d0 : S2x16x64.ReducesTo [0] S16x64
  reducesTo_S2x1x16_S1x16_d0 : S2x1x16.ReducesTo [0] S1x16
  shapeCasts_S1x16_S16 : S1x16.ShapeCasts S16
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  bcast_S16_S16x1x1_0 : S16.BroadcastsInDim S16x1x1 (![0] : Fin 1 → Fin S16x1x1.rank)
  bcast_S16x64_S16x64x1_0_1 : S16x64.BroadcastsInDim S16x64x1 (![0, 1] : Fin 2 → Fin S16x64x1.rank)
  bcast_S16x1x1_S16x64x1_0_1_2 : S16x1x1.BroadcastsInDim S16x64x1 (![0, 1, 2] : Fin 3 → Fin S16x64x1.rank)
  bcast_S16x64_S16x1x64_0_2 : S16x64.BroadcastsInDim S16x1x64 (![0, 2] : Fin 2 → Fin S16x1x64.rank)
  bcast_S16x64x1_S16x64x64_0_1_2 : S16x64x1.BroadcastsInDim S16x64x64 (![0, 1, 2] : Fin 3 → Fin S16x64x64.rank)
  bcast_S16x1x64_S16x64x64_0_1_2 : S16x1x64.BroadcastsInDim S16x64x64 (![0, 1, 2] : Fin 3 → Fin S16x64x64.rank)
  bcast_S16x1x1_S16x64x64_0_1_2 : S16x1x1.BroadcastsInDim S16x64x64 (![0, 1, 2] : Fin 3 → Fin S16x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  bcast_S16x64x64_S16x1x64x64_0_2_3 : S16x64x64.BroadcastsInDim S16x1x64x64 (![0, 2, 3] : Fin 3 → Fin S16x1x64x64.rank)
  bcast_S16x64x64_S1x16x64x64_1_2_3 : S16x64x64.BroadcastsInDim S1x16x64x64 (![1, 2, 3] : Fin 3 → Fin S1x16x64x64.rank)
  bcast_S16x1x64x64_S16x16x64x64_0_1_2_3 : S16x1x64x64.BroadcastsInDim S16x16x64x64 (![0, 1, 2, 3] : Fin 4 → Fin S16x16x64x64.rank)
  bcast_S1x16x64x64_S16x16x64x64_0_1_2_3 : S1x16x64x64.BroadcastsInDim S16x16x64x64 (![0, 1, 2, 3] : Fin 4 → Fin S16x16x64x64.rank)
  reducesTo_S16x16x64x64_S16x16_d2_3 : S16x16x64x64.ReducesTo [2, 3] S16x16
  bcast_S_S120 : S_.BroadcastsInDim S120 (![] : Fin 0 → Fin S120.rank)
  bcast_S120_S120x1_0 : S120.BroadcastsInDim S120x1 (![0] : Fin 1 → Fin S120x1.rank)
  concatenates_S120x1_S120x1_S120x2_d1 : Shape.Concatenates [S120x1, S120x1] S120x2 1
  reducesTo_S120_S_d0 : S120.ReducesTo [0] S_
  dot_S4096x16_S4096x64_S16x64_0_0_1_1_n_n_wf : DotDims.WF S4096x16 S4096x64 S16x64 [0] [0] [1] [1] [] []
  dot_S4096x1024_S4096x64_S1024x64_0_0_1_1_n_n_wf : DotDims.WF S4096x1024 S4096x64 S1024x64 [0] [0] [1] [1] [] []
  gather_S16_S120x1_S120_n_0_n_n_0_1_1_wf : GatherDims.WF S16 S120x1 S120 [] [0] [] [0] [] 1 ![1]
  gather_S16x16_S120x2_S120_n_01_n_n_01_1_11_wf : GatherDims.WF S16x16 S120x2 S120 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S4096x128.size a
  hwx0_1 : ∀ i : grid0.Coords, EltTy.bits .i32 = 32 ∨ (Rect.block (s := S4096x128) S32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64x64.size a ≤ S2x16x64x64.size a
  hwx0_2 : ∀ i : grid0.Coords, EltTy.bits .f32 = 32 ∨ (Rect.block (s := S2x16x64x64) S1x16x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x64.size a ≤ S2x16x64.size a
  hwx0_3 : ∀ i : grid0.Coords, EltTy.bits .f32 = 32 ∨ (Rect.block (s := S2x16x64) S1x16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S2x1x16.size a
  hwx0_4 : ∀ i : grid0.Coords, EltTy.bits .f32 = 32 ∨ (Rect.block (s := S2x1x16) S1x1x16.size (cc0_transform_4 i) (hinb0_4 i)).WholeWords (EltTy.packing .f32)

variable [Facts₀]

def dot_S4096x16_S4096x64_S16x64_0_0_1_1_n_n : DotDims S4096x16 S4096x64 S16x64 where
  lhsContracting := [0]
  rhsContracting := [0]
  lhsNonContracting := [1]
  rhsNonContracting := [1]
  lhsBatch := []
  rhsBatch := []
  wf := dot_S4096x16_S4096x64_S16x64_0_0_1_1_n_n_wf
def dot_S4096x1024_S4096x64_S1024x64_0_0_1_1_n_n : DotDims S4096x1024 S4096x64 S1024x64 where
  lhsContracting := [0]
  rhsContracting := [0]
  lhsNonContracting := [1]
  rhsNonContracting := [1]
  lhsBatch := []
  rhsBatch := []
  wf := dot_S4096x1024_S4096x64_S1024x64_0_0_1_1_n_n_wf
def gather_S16_S120x1_S120_n_0_n_n_0_1_1 : GatherDims S16 S120x1 S120 where
  offsetDims := []
  collapsedSliceDims := [0]
  operandBatchingDims := []
  startIndicesBatchingDims := []
  startIndexMap := [0]
  indexVectorDim := 1
  sliceSizes := ![1]
  wf := gather_S16_S120x1_S120_n_0_n_n_0_1_1_wf
def gather_S16x16_S120x2_S120_n_01_n_n_01_1_11 : GatherDims S16x16 S120x2 S120 where
  offsetDims := []
  collapsedSliceDims := [0, 1]
  operandBatchingDims := []
  startIndicesBatchingDims := []
  startIndexMap := [0, 1]
  indexVectorDim := 1
  sliceSizes := ![1, 1]
  wf := gather_S16x16_S120x2_S120_n_01_n_n_01_1_11_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x16x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S524288x64 : Shape := ⟨2, ![524288, 64]⟩
abbrev S524288 : Shape := ⟨1, ![524288]⟩
abbrev S120 : Shape := ⟨1, ![120]⟩
abbrev S524288x1 : Shape := ⟨2, ![524288, 1]⟩
abbrev S16 : Shape := ⟨1, ![16]⟩
abbrev S1x16 : Shape := ⟨2, ![1, 16]⟩
abbrev S524288x16 : Shape := ⟨2, ![524288, 16]⟩
abbrev S_ : Shape := ⟨0, ![]⟩
abbrev S16x524288 : Shape := ⟨2, ![16, 524288]⟩
abbrev S16x64 : Shape := ⟨2, ![16, 64]⟩
abbrev S16x1 : Shape := ⟨2, ![16, 1]⟩
abbrev S64x524288 : Shape := ⟨2, ![64, 524288]⟩
abbrev S64x64 : Shape := ⟨2, ![64, 64]⟩
abbrev S1x64x64 : Shape := ⟨3, ![1, 64, 64]⟩
abbrev S16x64x64 : Shape := ⟨3, ![16, 64, 64]⟩
abbrev S16x1x1 : Shape := ⟨3, ![16, 1, 1]⟩
abbrev S16x64x1 : Shape := ⟨3, ![16, 64, 1]⟩
abbrev S16x1x64 : Shape := ⟨3, ![16, 1, 64]⟩
abbrev S16x1x64x64 : Shape := ⟨4, ![16, 1, 64, 64]⟩
abbrev S1x16x64x64 : Shape := ⟨4, ![1, 16, 64, 64]⟩
abbrev S16x16x64x64 : Shape := ⟨4, ![16, 16, 64, 64]⟩
abbrev S16x16 : Shape := ⟨2, ![16, 16]⟩
abbrev S120x1 : Shape := ⟨2, ![120, 1]⟩
abbrev S120x2 : Shape := ⟨2, ![120, 2]⟩

abbrev nBuf : Space → Nat
  | .hbm => 210
  | .vmem => 0
  | .smem => 0
  | _ => 0

abbrev hbmTy0_0 (i : Nat) : BufTy := match i % 128 with
  | 0 => ⟨S524288x64, .f32⟩
  | 1 => ⟨S524288, .i32⟩
  | 2 => ⟨S120, .i32⟩
  | 3 => ⟨S120, .i1⟩
  | 4 => ⟨S120, .i32⟩
  | 5 => ⟨S120, .i1⟩
  | 6 => ⟨S120, .i1⟩
  | 7 => ⟨S120, .i1⟩
  | 8 => ⟨S524288x1, .i32⟩
  | 9 => ⟨S16, .i32⟩
  | 10 => ⟨S1x16, .i32⟩
  | 11 => ⟨S524288x16, .i32⟩
  | 12 => ⟨S524288x16, .i32⟩
  | 13 => ⟨S524288x16, .i1⟩
  | 14 => ⟨S524288x16, .f32⟩
  | 15 => ⟨S_, .f32⟩
  | 16 => ⟨S16, .f32⟩
  | 17 => ⟨S16x524288, .f32⟩
  | 18 => ⟨S16x64, .f32⟩
  | 19 => ⟨S_, .f32⟩
  | 20 => ⟨S16, .f32⟩
  | 21 => ⟨S16, .f32⟩
  | 22 => ⟨S16x1, .f32⟩
  | 23 => ⟨S16x64, .f32⟩
  | 24 => ⟨S16x64, .f32⟩
  | 25 => ⟨S64x524288, .f32⟩
  | 26 => ⟨S524288x1, .f32⟩
  | 27 => ⟨S524288x64, .f32⟩
  | 28 => ⟨S524288x64, .f32⟩
  | 29 => ⟨S64x64, .f32⟩
  | 30 => ⟨S64x524288, .f32⟩
  | 31 => ⟨S524288x1, .f32⟩
  | 32 => ⟨S524288x64, .f32⟩
  | 33 => ⟨S524288x64, .f32⟩
  | 34 => ⟨S64x64, .f32⟩
  | 35 => ⟨S64x524288, .f32⟩
  | 36 => ⟨S524288x1, .f32⟩
  | 37 => ⟨S524288x64, .f32⟩
  | 38 => ⟨S524288x64, .f32⟩
  | 39 => ⟨S64x64, .f32⟩
  | 40 => ⟨S64x524288, .f32⟩
  | 41 => ⟨S524288x1, .f32⟩
  | 42 => ⟨S524288x64, .f32⟩
  | 43 => ⟨S524288x64, .f32⟩
  | 44 => ⟨S64x64, .f32⟩
  | 45 => ⟨S64x524288, .f32⟩
  | 46 => ⟨S524288x1, .f32⟩
  | 47 => ⟨S524288x64, .f32⟩
  | 48 => ⟨S524288x64, .f32⟩
  | 49 => ⟨S64x64, .f32⟩
  | 50 => ⟨S64x524288, .f32⟩
  | 51 => ⟨S524288x1, .f32⟩
  | 52 => ⟨S524288x64, .f32⟩
  | 53 => ⟨S524288x64, .f32⟩
  | 54 => ⟨S64x64, .f32⟩
  | 55 => ⟨S64x524288, .f32⟩
  | 56 => ⟨S524288x1, .f32⟩
  | 57 => ⟨S524288x64, .f32⟩
  | 58 => ⟨S524288x64, .f32⟩
  | 59 => ⟨S64x64, .f32⟩
  | 60 => ⟨S64x524288, .f32⟩
  | 61 => ⟨S524288x1, .f32⟩
  | 62 => ⟨S524288x64, .f32⟩
  | 63 => ⟨S524288x64, .f32⟩
  | 64 => ⟨S64x64, .f32⟩
  | 65 => ⟨S64x524288, .f32⟩
  | 66 => ⟨S524288x1, .f32⟩
  | 67 => ⟨S524288x64, .f32⟩
  | 68 => ⟨S524288x64, .f32⟩
  | 69 => ⟨S64x64, .f32⟩
  | 70 => ⟨S64x524288, .f32⟩
  | 71 => ⟨S524288x1, .f32⟩
  | 72 => ⟨S524288x64, .f32⟩
  | 73 => ⟨S524288x64, .f32⟩
  | 74 => ⟨S64x64, .f32⟩
  | 75 => ⟨S64x524288, .f32⟩
  | 76 => ⟨S524288x1, .f32⟩
  | 77 => ⟨S524288x64, .f32⟩
  | 78 => ⟨S524288x64, .f32⟩
  | 79 => ⟨S64x64, .f32⟩
  | 80 => ⟨S64x524288, .f32⟩
  | 81 => ⟨S524288x1, .f32⟩
  | 82 => ⟨S524288x64, .f32⟩
  | 83 => ⟨S524288x64, .f32⟩
  | 84 => ⟨S64x64, .f32⟩
  | 85 => ⟨S64x524288, .f32⟩
  | 86 => ⟨S524288x1, .f32⟩
  | 87 => ⟨S524288x64, .f32⟩
  | 88 => ⟨S524288x64, .f32⟩
  | 89 => ⟨S64x64, .f32⟩
  | 90 => ⟨S64x524288, .f32⟩
  | 91 => ⟨S524288x1, .f32⟩
  | 92 => ⟨S524288x64, .f32⟩
  | 93 => ⟨S524288x64, .f32⟩
  | 94 => ⟨S64x64, .f32⟩
  | 95 => ⟨S64x524288, .f32⟩
  | 96 => ⟨S524288x1, .f32⟩
  | 97 => ⟨S524288x64, .f32⟩
  | 98 => ⟨S524288x64, .f32⟩
  | 99 => ⟨S64x64, .f32⟩
  | 100 => ⟨S64x524288, .f32⟩
  | 101 => ⟨S524288x1, .f32⟩
  | 102 => ⟨S524288x64, .f32⟩
  | 103 => ⟨S524288x64, .f32⟩
  | 104 => ⟨S64x64, .f32⟩
  | 105 => ⟨S1x64x64, .f32⟩
  | 106 => ⟨S1x64x64, .f32⟩
  | 107 => ⟨S1x64x64, .f32⟩
  | 108 => ⟨S1x64x64, .f32⟩
  | 109 => ⟨S1x64x64, .f32⟩
  | 110 => ⟨S1x64x64, .f32⟩
  | 111 => ⟨S1x64x64, .f32⟩
  | 112 => ⟨S1x64x64, .f32⟩
  | 113 => ⟨S1x64x64, .f32⟩
  | 114 => ⟨S1x64x64, .f32⟩
  | 115 => ⟨S1x64x64, .f32⟩
  | 116 => ⟨S1x64x64, .f32⟩
  | 117 => ⟨S1x64x64, .f32⟩
  | 118 => ⟨S1x64x64, .f32⟩
  | 119 => ⟨S1x64x64, .f32⟩
  | 120 => ⟨S1x64x64, .f32⟩
  | 121 => ⟨S16x64x64, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S524288x64, .f32⟩

abbrev hbmTy0_1 (i : Nat) : BufTy := match i % 128 with
  | 0 => ⟨S16x1x1, .f32⟩
  | 1 => ⟨S16x1x1, .f32⟩
  | 2 => ⟨S16x64x1, .f32⟩
  | 3 => ⟨S16x64x1, .f32⟩
  | 4 => ⟨S16x64x1, .f32⟩
  | 5 => ⟨S16x1x64, .f32⟩
  | 6 => ⟨S16x64x64, .f32⟩
  | 7 => ⟨S16x64x64, .f32⟩
  | 8 => ⟨S16x64x64, .f32⟩
  | 9 => ⟨S16x64x64, .f32⟩
  | 10 => ⟨S16x64x64, .f32⟩
  | 11 => ⟨S16x64x64, .f32⟩
  | 12 => ⟨S64x64, .i32⟩
  | 13 => ⟨S64x64, .i32⟩
  | 14 => ⟨S_, .i32⟩
  | 15 => ⟨S64x64, .i32⟩
  | 16 => ⟨S64x64, .i32⟩
  | 17 => ⟨S64x64, .i1⟩
  | 18 => ⟨S64x64, .f32⟩
  | 19 => ⟨S_, .f32⟩
  | 20 => ⟨S64x64, .f32⟩
  | 21 => ⟨S64x64, .f32⟩
  | 22 => ⟨S1x64x64, .f32⟩
  | 23 => ⟨S16x64x64, .f32⟩
  | 24 => ⟨S16x64x64, .f32⟩
  | 25 => ⟨S16x1x64x64, .f32⟩
  | 26 => ⟨S1x16x64x64, .f32⟩
  | 27 => ⟨S16x16x64x64, .f32⟩
  | 28 => ⟨S16x16x64x64, .f32⟩
  | 29 => ⟨S16x16x64x64, .f32⟩
  | 30 => ⟨S16x16x64x64, .f32⟩
  | 31 => ⟨S_, .f32⟩
  | 32 => ⟨S16x16, .f32⟩
  | 33 => ⟨S_, .f32⟩
  | 34 => ⟨S16, .f32⟩
  | 35 => ⟨S16, .i1⟩
  | 36 => ⟨S_, .i32⟩
  | 37 => ⟨S120, .i32⟩
  | 38 => ⟨S120, .i32⟩
  | 39 => ⟨S120, .i32⟩
  | 40 => ⟨S120x1, .i32⟩
  | 41 => ⟨S120, .i1⟩
  | 42 => ⟨S_, .i32⟩
  | 43 => ⟨S120, .i32⟩
  | 44 => ⟨S120, .i32⟩
  | 45 => ⟨S120, .i32⟩
  | 46 => ⟨S120x1, .i32⟩
  | 47 => ⟨S120, .i1⟩
  | 48 => ⟨S120, .i1⟩
  | 49 => ⟨S_, .i32⟩
  | 50 => ⟨S120, .i32⟩
  | 51 => ⟨S120, .i32⟩
  | 52 => ⟨S120, .i32⟩
  | 53 => ⟨S_, .i32⟩
  | 54 => ⟨S120, .i32⟩
  | 55 => ⟨S120, .i32⟩
  | 56 => ⟨S120, .i32⟩
  | 57 => ⟨S120x1, .i32⟩
  | 58 => ⟨S120x1, .i32⟩
  | 59 => ⟨S120x2, .i32⟩
  | 60 => ⟨S120, .f32⟩
  | 61 => ⟨S_, .f32⟩
  | 62 => ⟨S_, .f32⟩
  | 63 => ⟨S120, .f32⟩
  | 64 => ⟨S120, .f32⟩
  | 65 => ⟨S120, .f32⟩
  | 66 => ⟨S_, .f32⟩
  | 67 => ⟨S_, .f32⟩
  | 68 => ⟨S120, .f32⟩
  | 69 => ⟨S120, .f32⟩
  | 70 => ⟨S_, .f32⟩
  | 71 => ⟨S_, .f32⟩
  | 72 => ⟨S120, .f32⟩
  | 73 => ⟨S_, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S_, .f32⟩
  | _ => ⟨S524288x64, .f32⟩

abbrev hbmTy (i : Nat) : BufTy := match i / 128 with
  | 0 => hbmTy0_0 i
  | 1 => hbmTy0_1 i
  | _ => ⟨S524288x64, .f32⟩

abbrev bufTy : (tb : Table) → Fin (tcTables nBuf tb) → BufTy
  | .hbm, ⟨i, _⟩ => hbmTy i
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_cst_6 : Ref sig .tc := ⟨.hbm, 122, rfl⟩
abbrev main_v112 : Ref sig .tc := ⟨.hbm, 123, rfl⟩
abbrev main_v113 : Ref sig .tc := ⟨.hbm, 124, rfl⟩
abbrev main_cst_7 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_c_8 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_cst_9 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_cst_10 : Ref sig .tc := ⟨.hbm, 159, rfl⟩
abbrev main_v145 : Ref sig .tc := ⟨.hbm, 160, rfl⟩
abbrev main_cst_11 : Ref sig .tc := ⟨.hbm, 161, rfl⟩
abbrev main_v146 : Ref sig .tc := ⟨.hbm, 162, rfl⟩
abbrev main_v147 : Ref sig .tc := ⟨.hbm, 163, rfl⟩
abbrev main_c_12 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_c_13 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_c_14 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_c_15 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_cst_16 : Ref sig .tc := ⟨.hbm, 189, rfl⟩
abbrev main_call0_v0 : Ref sig .tc := ⟨.hbm, 190, rfl⟩
abbrev main_call0_v1 : Ref sig .tc := ⟨.hbm, 191, rfl⟩
abbrev main_v169 : Ref sig .tc := ⟨.hbm, 192, rfl⟩
abbrev main_v170 : Ref sig .tc := ⟨.hbm, 193, rfl⟩
abbrev main_cst_17 : Ref sig .tc := ⟨.hbm, 194, rfl⟩
abbrev main_call1_v0 : Ref sig .tc := ⟨.hbm, 195, rfl⟩
abbrev main_call1_v1 : Ref sig .tc := ⟨.hbm, 196, rfl⟩
abbrev main_v171 : Ref sig .tc := ⟨.hbm, 197, rfl⟩
abbrev main_cst_18 : Ref sig .tc := ⟨.hbm, 198, rfl⟩
abbrev main_v172 : Ref sig .tc := ⟨.hbm, 199, rfl⟩
abbrev main_v173 : Ref sig .tc := ⟨.hbm, 200, rfl⟩
abbrev main_cst_19 : Ref sig .tc := ⟨.hbm, 201, rfl⟩
abbrev main_v174 : Ref sig .tc := ⟨.hbm, 202, rfl⟩
abbrev main_cst_20 : Ref sig .tc := ⟨.hbm, 203, rfl⟩
abbrev main_v175 : Ref sig .tc := ⟨.hbm, 204, rfl⟩
abbrev main_cst_21 : Ref sig .tc := ⟨.hbm, 205, rfl⟩
abbrev main_v176 : Ref sig .tc := ⟨.hbm, 206, rfl⟩
abbrev main_v177 : Ref sig .tc := ⟨.hbm, 207, rfl⟩
abbrev main_cst_22 : Ref sig .tc := ⟨.hbm, 208, rfl⟩
abbrev main_v178 : Ref sig .tc := ⟨.hbm, 209, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S16_S1x16_1 : S16.BroadcastsInDim S1x16 (![1] : Fin 1 → Fin S1x16.rank)
  bcast_S524288x1_S524288x16_0_1 : S524288x1.BroadcastsInDim S524288x16 (![0, 1] : Fin 2 → Fin S524288x16.rank)
  bcast_S1x16_S524288x16_0_1 : S1x16.BroadcastsInDim S524288x16 (![0, 1] : Fin 2 → Fin S524288x16.rank)
  reducesTo_S524288x16_S16_d0 : S524288x16.ReducesTo [0] S16
  h_S_ : 0 < S_.numel
  transposes_S524288x16_S16x524288_1_0 : S524288x16.Transposes [1, 0] S16x524288
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S524288x64_S64x524288_1_0 : S524288x64.Transposes [1, 0] S64x524288
  slices_S524288x16_S524288x1_0_0 : S524288x16.Slices ![0, 0] S524288x1
  bcast_S524288x1_S524288x64_0_1 : S524288x1.BroadcastsInDim S524288x64 (![0, 1] : Fin 2 → Fin S524288x64.rank)
  slices_S524288x16_S524288x1_0_1 : S524288x16.Slices ![0, 1] S524288x1
  slices_S524288x16_S524288x1_0_2 : S524288x16.Slices ![0, 2] S524288x1
  slices_S524288x16_S524288x1_0_3 : S524288x16.Slices ![0, 3] S524288x1
  slices_S524288x16_S524288x1_0_4 : S524288x16.Slices ![0, 4] S524288x1
  slices_S524288x16_S524288x1_0_5 : S524288x16.Slices ![0, 5] S524288x1
  slices_S524288x16_S524288x1_0_6 : S524288x16.Slices ![0, 6] S524288x1
  slices_S524288x16_S524288x1_0_7 : S524288x16.Slices ![0, 7] S524288x1
  slices_S524288x16_S524288x1_0_8 : S524288x16.Slices ![0, 8] S524288x1
  slices_S524288x16_S524288x1_0_9 : S524288x16.Slices ![0, 9] S524288x1
  slices_S524288x16_S524288x1_0_10 : S524288x16.Slices ![0, 10] S524288x1
  slices_S524288x16_S524288x1_0_11 : S524288x16.Slices ![0, 11] S524288x1
  slices_S524288x16_S524288x1_0_12 : S524288x16.Slices ![0, 12] S524288x1
  slices_S524288x16_S524288x1_0_13 : S524288x16.Slices ![0, 13] S524288x1
  slices_S524288x16_S524288x1_0_14 : S524288x16.Slices ![0, 14] S524288x1
  slices_S524288x16_S524288x1_0_15 : S524288x16.Slices ![0, 15] S524288x1
  bcast_S64x64_S1x64x64_1_2 : S64x64.BroadcastsInDim S1x64x64 (![1, 2] : Fin 2 → Fin S1x64x64.rank)
  concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 : Shape.Concatenates [S1x64x64, S1x64x64, S1x64x64, S1x64x64, S1x64x64, S1x64x64, S1x64x64, S1x64x64, S1x64x64, S1x64x64, S1x64x64, S1x64x64, S1x64x64, S1x64x64, S1x64x64, S1x64x64] S16x64x64 0
  bcast_S16_S16x1x1_0 : S16.BroadcastsInDim S16x1x1 (![0] : Fin 1 → Fin S16x1x1.rank)
  bcast_S16x64_S16x64x1_0_1 : S16x64.BroadcastsInDim S16x64x1 (![0, 1] : Fin 2 → Fin S16x64x1.rank)
  bcast_S16x1x1_S16x64x1_0_1_2 : S16x1x1.BroadcastsInDim S16x64x1 (![0, 1, 2] : Fin 3 → Fin S16x64x1.rank)
  bcast_S16x64_S16x1x64_0_2 : S16x64.BroadcastsInDim S16x1x64 (![0, 2] : Fin 2 → Fin S16x1x64.rank)
  bcast_S16x64x1_S16x64x64_0_1_2 : S16x64x1.BroadcastsInDim S16x64x64 (![0, 1, 2] : Fin 3 → Fin S16x64x64.rank)
  bcast_S16x1x64_S16x64x64_0_1_2 : S16x1x64.BroadcastsInDim S16x64x64 (![0, 1, 2] : Fin 3 → Fin S16x64x64.rank)
  bcast_S16x1x1_S16x64x64_0_1_2 : S16x1x1.BroadcastsInDim S16x64x64 (![0, 1, 2] : Fin 3 → Fin S16x64x64.rank)
  bcast_S_S64x64 : S_.BroadcastsInDim S64x64 (![] : Fin 0 → Fin S64x64.rank)
  bcast_S1x64x64_S16x64x64_0_1_2 : S1x64x64.BroadcastsInDim S16x64x64 (![0, 1, 2] : Fin 3 → Fin S16x64x64.rank)
  bcast_S16x64x64_S16x1x64x64_0_2_3 : S16x64x64.BroadcastsInDim S16x1x64x64 (![0, 2, 3] : Fin 3 → Fin S16x1x64x64.rank)
  bcast_S16x64x64_S1x16x64x64_1_2_3 : S16x64x64.BroadcastsInDim S1x16x64x64 (![1, 2, 3] : Fin 3 → Fin S1x16x64x64.rank)
  bcast_S16x1x64x64_S16x16x64x64_0_1_2_3 : S16x1x64x64.BroadcastsInDim S16x16x64x64 (![0, 1, 2, 3] : Fin 4 → Fin S16x16x64x64.rank)
  bcast_S1x16x64x64_S16x16x64x64_0_1_2_3 : S1x16x64x64.BroadcastsInDim S16x16x64x64 (![0, 1, 2, 3] : Fin 4 → Fin S16x16x64x64.rank)
  reducesTo_S16x16x64x64_S16x16_d2_3 : S16x16x64x64.ReducesTo [2, 3] S16x16
  bcast_S_S120 : S_.BroadcastsInDim S120 (![] : Fin 0 → Fin S120.rank)
  bcast_S120_S120x1_0 : S120.BroadcastsInDim S120x1 (![0] : Fin 1 → Fin S120x1.rank)
  concatenates_S120x1_S120x1_S120x2_d1 : Shape.Concatenates [S120x1, S120x1] S120x2 1
  reducesTo_S120_S_d0 : S120.ReducesTo [0] S_
  dot_S16x524288_S524288x64_S16x64_1_0_0_1_n_n_wf : DotDims.WF S16x524288 S524288x64 S16x64 [1] [0] [0] [1] [] []
  dot_S64x524288_S524288x64_S64x64_1_0_0_1_n_n_wf : DotDims.WF S64x524288 S524288x64 S64x64 [1] [0] [0] [1] [] []
  gather_S16_S120x1_S120_n_0_n_n_0_1_1_wf : GatherDims.WF S16 S120x1 S120 [] [0] [] [0] [] 1 ![1]
  gather_S16x16_S120x2_S120_n_01_n_n_01_1_11_wf : GatherDims.WF S16x16 S120x2 S120 [] [0, 1] [] [0, 1] [] 1 ![1, 1]

variable [Facts₀]

def dot_S16x524288_S524288x64_S16x64_1_0_0_1_n_n : DotDims S16x524288 S524288x64 S16x64 where
  lhsContracting := [1]
  rhsContracting := [0]
  lhsNonContracting := [0]
  rhsNonContracting := [1]
  lhsBatch := []
  rhsBatch := []
  wf := dot_S16x524288_S524288x64_S16x64_1_0_0_1_n_n_wf
def dot_S64x524288_S524288x64_S64x64_1_0_0_1_n_n : DotDims S64x524288 S524288x64 S64x64 where
  lhsContracting := [1]
  rhsContracting := [0]
  lhsNonContracting := [0]
  rhsNonContracting := [1]
  lhsBatch := []
  rhsBatch := []
  wf := dot_S64x524288_S524288x64_S64x64_1_0_0_1_n_n_wf
def gather_S16_S120x1_S120_n_0_n_n_0_1_1 : GatherDims S16 S120x1 S120 where
  offsetDims := []
  collapsedSliceDims := [0]
  operandBatchingDims := []
  startIndicesBatchingDims := []
  startIndexMap := [0]
  indexVectorDim := 1
  sliceSizes := ![1]
  wf := gather_S16_S120x1_S120_n_0_n_n_0_1_1_wf
def gather_S16x16_S120x2_S120_n_01_n_n_01_1_11 : GatherDims S16x16 S120x2 S120 where
  offsetDims := []
  collapsedSliceDims := [0, 1]
  operandBatchingDims := []
  startIndicesBatchingDims := []
  startIndexMap := [0, 1]
  indexVectorDim := 1
  sliceSizes := ![1, 1]
  wf := gather_S16x16_S120x2_S120_n_01_n_n_01_1_11_wf

class Facts : Prop extends Facts₀ where

variable [Facts]
-- ==== Proof.KbRuns.lean ====
/-
  What the three runs of the kernel body share. The program is: seven host operations (six constants and the
  reshape of the id words to 4096 rows of 128), one kernel region over a grid of 2 x 64 points, then the closing
  host operations. The body at a point reads a block of 4096 rows and their id words, adds the block's counts,
  sums and Gram products into three accumulators kept in scratch between points, zeroes the accumulators first at
  the points whose second coordinate is 0, and copies them out at the points whose second coordinate is 63.
  Here: the buffer contents when the region is entered, @main as "lines, the region, lines", the blocks of the
  two input windows, the two branch conditions decided over the grid, where the output windows are idle, and
  the names of the staging and scratch buffers.
-/
import proofs.«103410_j88596585382423_2_alg».proof.Proof.Gen.Kernel.Launch
import proofs.«103410_j88596585382423_2_alg».proof.Proof.Gen.Kernel.Skeleton
import proofs.«103410_j88596585382423_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- The six stretches of host lines after the region. -/
abbrev tailOpss : List (List (HloOp τ sig (Elt F))) := [hostOps1, hostOps1_1, hostOps1_2, hostOps1_3, hostOps1_4, hostOps1_5]

/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- No line before the region writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the id words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' staging buffer holds the point's block of rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The id words' staging buffer holds the point's block of id words at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first step of its half": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last step of its half": the second grid coordinate is 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step of a half the three output windows are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last step of a half they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The staging and scratch buffers by name -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16 .f32 := win0_4.stage (cfg0.slots t 4)
abbrev hs0_4 (t : Fin cfg0.N) : (ms0_4 t).IsWhole := hstage0_4 ((cfg0.slots t 4).cast nbuf0_4)
/-- The scratch operands: the packed weighted rows, and the Gram, sums and counts accumulators. -/
abbrev scM0_0 : Memref sig .tc .vmem S4096x1024 .bf16 := Memref.whole cc0_scratch0
abbrev scM0_1 : Memref sig .tc .vmem S1024x64 .f32 := Memref.whole cc0_scratch1
abbrev scM0_2 : Memref sig .tc .vmem S16x64 .f32 := Memref.whole cc0_scratch2
abbrev scM0_3 : Memref sig .tc .vmem S1x16 .f32 := Memref.whole cc0_scratch3
/-- Views through which the outputs' and the accumulators' contents are stated. -/
abbrev VO0_2 : View sig .tc .vmem S1x16x64x64 .f32 := (Memref.whole cc0_stg2_0 : Memref sig .tc .vmem S1x16x64x64 .f32).view
abbrev VO0_3 : View sig .tc .vmem S1x16x64 .f32 := (Memref.whole cc0_stg3_0 : Memref sig .tc .vmem S1x16x64 .f32).view
abbrev VO0_4 : View sig .tc .vmem S1x1x16 .f32 := (Memref.whole cc0_stg4_0 : Memref sig .tc .vmem S1x1x16 .f32).view
abbrev VS0_1 : View sig .tc .vmem S1024x64 .f32 := scM0_1.view
abbrev VS0_2 : View sig .tc .vmem S16x64 .f32 := scM0_2.view
abbrev VS0_3 : View sig .tc .vmem S1x16 .f32 := scM0_3.view

/-- What the launch hands the region besides the windows: the four scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Frame

end
-- ==== Proof.KbRunA.lean ====
/-
  The body run at a point that is the first step of its half and not the last: the accumulators are stored whole
  with zeros before they are read, so they may hold anything on entry; the three output buffers are not touched
  and are handed back as they came. The pieces each scratch buffer ends with are found by the run.
-/
import proofs.«103410_j88596585382423_2_alg».proof.Proof.KbRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- First step of a half. -/
noncomputable def kernelRun0_A (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : cond0_0 i) (hc1 : ¬cond0_1 i)
    (x0 : Vec F S4096x64 .f32) (x1 : Vec F S32x128 .i32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (xi2 : Vec F S1x16x64x64 .f32) (xi3 : Vec F S1x16x64 .f32) (xi4 : Vec F S1x1x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨[], [], [], ?_, ?_, ?_, ?_, fun xi2 xi3 xi4 E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.KbRunB.lean ====
/-
  The body run at a point that is neither the first nor the last step of its half: the accumulators hold what the
  point before left and the block's contributions are added; the three output buffers are not touched.
-/
import proofs.«103410_j88596585382423_2_alg».proof.Proof.KbRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- A middle step of a half. -/
noncomputable def kernelRun0_B (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : ¬cond0_1 i)
    (x0 : Vec F S4096x64 .f32) (x1 : Vec F S32x128 .i32) (xs1 : Vec F S1024x64 .f32) (xs2 : Vec F S16x64 .f32) (xs3 : Vec F S1x16 .f32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (xi2 : Vec F S1x16x64x64 .f32) (xi3 : Vec F S1x16x64 .f32) (xi4 : Vec F S1x1x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨[], [], [], ?_, ?_, ?_, ?_, fun xi2 xi3 xi4 E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.KbRunC.lean ====
/-
  The body run at the last step of a half: the accumulators hold what the point before left, the block's
  contributions are added, and the three accumulators are copied out into the output buffers, which may hold
  anything on entry and end with the run's pieces written.
-/
import proofs.«103410_j88596585382423_2_alg».proof.Proof.KbRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The last step of a half. -/
noncomputable def kernelRun0_C (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i)
    (x0 : Vec F S4096x64 .f32) (x1 : Vec F S32x128 .i32) (xs1 : Vec F S1024x64 .f32) (xs2 : Vec F S16x64 .f32) (xs3 : Vec F S1x16 .f32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨?_, ?_, ?_, ?_, ?_, ?_, ?_, fun E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.Kernel.Frame

end
-- ==== Proof.KbFrame.lean ====
/-
  The kernel region's proof data and its body obligation. For each of the three kinds of point — first step of a
  half, middle step, last step — what the run leaves in the three accumulators (and, at a last step, in the three
  output buffers) is read back from the pieces the run found; `outsAt0` threads these through the 128 points: a
  first step starts from nothing, every other step from what the point before left in the accumulators. The
  region's invariant between points is: the packed scratch at anything, the three accumulators at `outsAt0`'s
  contents.
-/
import proofs.«103410_j88596585382423_2_alg».proof.Proof.KbRunA
import proofs.«103410_j88596585382423_2_alg».proof.Proof.KbRunB
import proofs.«103410_j88596585382423_2_alg».proof.Proof.KbRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three output buffers' and the three accumulators' contents after a point. -/
abbrev Outs (F : FTy → Type) [FloatOps F] : Type :=
  Vec F S1x16x64x64 .f32 × Vec F S1x16x64 .f32 × Vec F S1x1x16 .f32 × Vec F S1024x64 .f32 × Vec F S16x64 .f32 × Vec F S1x16 .f32
/-- The accumulators' part. -/
abbrev Acc (F : FTy → Type) [FloatOps F] : Type := Vec F S1024x64 .f32 × Vec F S16x64 .f32 × Vec F S1x16 .f32
abbrev accOf (o : Outs F) : Acc F := o.2.2.2

/-- Pieces read back over junk, per buffer. -/
abbrev rd2 (L : List (View.Piece (Elt F) S1x16x64x64 .f32)) : Vec F S1x16x64x64 .f32 := VO0_2.read (Elt F) (VO0_2.writes (Elt F) VO0_2.junk L)
abbrev rd3 (L : List (View.Piece (Elt F) S1x16x64 .f32)) : Vec F S1x16x64 .f32 := VO0_3.read (Elt F) (VO0_3.writes (Elt F) VO0_3.junk L)
abbrev rd4 (L : List (View.Piece (Elt F) S1x1x16 .f32)) : Vec F S1x1x16 .f32 := VO0_4.read (Elt F) (VO0_4.writes (Elt F) VO0_4.junk L)
abbrev rs1 (L : List (View.Piece (Elt F) S1024x64 .f32)) : Vec F S1024x64 .f32 := VS0_1.read (Elt F) (VS0_1.writes (Elt F) VS0_1.junk L)
abbrev rs2 (L : List (View.Piece (Elt F) S16x64 .f32)) : Vec F S16x64 .f32 := VS0_2.read (Elt F) (VS0_2.writes (Elt F) VS0_2.junk L)
abbrev rs3 (L : List (View.Piece (Elt F) S1x16 .f32)) : Vec F S1x16 .f32 := VS0_3.read (Elt F) (VS0_3.writes (Elt F) VS0_3.junk L)

/-! ## The three runs at a grid point -/

/-- The first-step run at point `t`. -/
abbrev runA (c : Dev nD) (t : Fin cfg0.N) (h0 : t.val % 64 = 0) (h1 : ¬t.val % 64 = 63) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)
/-- The middle-step run at point `t`, from the accumulators' contents `a`. -/
abbrev runB (c : Dev nD) (t : Fin cfg0.N) (h0 : ¬t.val % 64 = 0) (h1 : ¬t.val % 64 = 63) (a : Acc F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) a.1 a.2.1 a.2.2
/-- The last-step run at point `t`, from the accumulators' contents `a`. -/
abbrev runC (c : Dev nD) (t : Fin cfg0.N) (h0 : ¬t.val % 64 = 0) (h1 : t.val % 64 = 63) (a : Acc F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) a.1 a.2.1 a.2.2

/-- What a first step leaves: the outputs untouched (a placeholder nothing consults), the accumulators at the run's pieces. -/
def stepA (c : Dev nD) (t : Fin cfg0.N) (h0 : t.val % 64 = 0) (h1 : ¬t.val % 64 = 63) : Outs F :=
  (rd2 [], rd3 [], rd4 [], rs1 (runA m c t h0 h1).2.2.2.2.1, rs2 (runA m c t h0 h1).2.2.2.2.2.1, rs3 (runA m c t h0 h1).2.2.2.2.2.2.1)
/-- What a middle step leaves. -/
def stepB (c : Dev nD) (t : Fin cfg0.N) (h0 : ¬t.val % 64 = 0) (h1 : ¬t.val % 64 = 63) (a : Acc F) : Outs F :=
  (rd2 [], rd3 [], rd4 [], rs1 (runB m c t h0 h1 a).2.2.2.2.1, rs2 (runB m c t h0 h1 a).2.2.2.2.2.1, rs3 (runB m c t h0 h1 a).2.2.2.2.2.2.1)
/-- What a last step leaves: the outputs at the run's pieces too. -/
def stepC (c : Dev nD) (t : Fin cfg0.N) (h0 : ¬t.val % 64 = 0) (h1 : t.val % 64 = 63) (a : Acc F) : Outs F :=
  (rd2 (runC m c t h0 h1 a).1, rd3 (runC m c t h0 h1 a).2.1, rd4 (runC m c t h0 h1 a).2.2.1, rs1 (runC m c t h0 h1 a).2.2.2.2.1, rs2 (runC m c t h0 h1 a).2.2.2.2.2.1, rs3 (runC m c t h0 h1 a).2.2.2.2.2.2.1)

/-! ## The runs' pieces cover their buffers -/

theorem scoverA_1 (c : Dev nD) (t : Fin cfg0.N) (h0) (h1) (y : S1024x64.Idx) : ∃ pc ∈ (runA m c t h0 h1).2.2.2.2.1, y ∈ pc.1.set :=
  View.cover_of_tiledL _ S1024x64.size (by sl_kernel_rfl) y
theorem scoverA_2 (c : Dev nD) (t : Fin cfg0.N) (h0) (h1) (y : S16x64.Idx) : ∃ pc ∈ (runA m c t h0 h1).2.2.2.2.2.1, y ∈ pc.1.set :=
  View.cover_of_tiledL _ S16x64.size (by sl_kernel_rfl) y
theorem scoverA_3 (c : Dev nD) (t : Fin cfg0.N) (h0) (h1) (y : S1x16.Idx) : ∃ pc ∈ (runA m c t h0 h1).2.2.2.2.2.2.1, y ∈ pc.1.set :=
  View.cover_of_tiledL _ S1x16.size (by sl_kernel_rfl) y
theorem scoverB_1 (c : Dev nD) (t : Fin cfg0.N) (h0) (h1) (a : Acc F) (y : S1024x64.Idx) : ∃ pc ∈ (runB m c t h0 h1 a).2.2.2.2.1, y ∈ pc.1.set :=
  View.cover_of_tiledL _ S1024x64.size (by sl_kernel_rfl) y
theorem scoverB_2 (c : Dev nD) (t : Fin cfg0.N) (h0) (h1) (a : Acc F) (y : S16x64.Idx) : ∃ pc ∈ (runB m c t h0 h1 a).2.2.2.2.2.1, y ∈ pc.1.set :=
  View.cover_of_tiledL _ S16x64.size (by sl_kernel_rfl) y
theorem scoverB_3 (c : Dev nD) (t : Fin cfg0.N) (h0) (h1) (a : Acc F) (y : S1x16.Idx) : ∃ pc ∈ (runB m c t h0 h1 a).2.2.2.2.2.2.1, y ∈ pc.1.set :=
  View.cover_of_tiledL _ S1x16.size (by sl_kernel_rfl) y
theorem scoverC_1 (c : Dev nD) (t : Fin cfg0.N) (h0) (h1) (a : Acc F) (y : S1024x64.Idx) : ∃ pc ∈ (runC m c t h0 h1 a).2.2.2.2.1, y ∈ pc.1.set :=
  View.cover_of_tiledL _ S1024x64.size (by sl_kernel_rfl) y
theorem scoverC_2 (c : Dev nD) (t : Fin cfg0.N) (h0) (h1) (a : Acc F) (y : S16x64.Idx) : ∃ pc ∈ (runC m c t h0 h1 a).2.2.2.2.2.1, y ∈ pc.1.set :=
  View.cover_of_tiledL _ S16x64.size (by sl_kernel_rfl) y
theorem scoverC_3 (c : Dev nD) (t : Fin cfg0.N) (h0) (h1) (a : Acc F) (y : S1x16.Idx) : ∃ pc ∈ (runC m c t h0 h1 a).2.2.2.2.2.2.1, y ∈ pc.1.set :=
  View.cover_of_tiledL _ S1x16.size (by sl_kernel_rfl) y
theorem coverC_2 (c : Dev nD) (t : Fin cfg0.N) (h0) (h1) (a : Acc F) (y : S1x16x64x64.Idx) : ∃ pc ∈ (runC m c t h0 h1 a).1, y ∈ pc.1.set :=
  View.cover_of_tiledL _ S1x16x64x64.size (by sl_kernel_rfl) y
theorem coverC_3 (c : Dev nD) (t : Fin cfg0.N) (h0) (h1) (a : Acc F) (y : S1x16x64.Idx) : ∃ pc ∈ (runC m c t h0 h1 a).2.1, y ∈ pc.1.set :=
  View.cover_of_tiledL _ S1x16x64.size (by sl_kernel_rfl) y
theorem coverC_4 (c : Dev nD) (t : Fin cfg0.N) (h0) (h1) (a : Acc F) (y : S1x1x16.Idx) : ∃ pc ∈ (runC m c t h0 h1 a).2.2.1, y ∈ pc.1.set :=
  View.cover_of_tiledL _ S1x1x16.size (by sl_kernel_rfl) y

/-! ## What the buffers hold after each point -/

/-- The accumulation, point by point. -/
def outsAt0 (c : Dev nD) : (n : ℕ) → n < cfg0.N → Outs F
  | 0, hn => stepA m c ⟨0, hn⟩ (Nat.zero_mod _) (by show ¬(0 : ℕ) % 64 = 63; decide)
  | n + 1, hn =>
    if h0 : (n + 1) % 64 = 0 then
      if h1 : (n + 1) % 64 = 63 then False.elim (by omega)
      else stepA m c ⟨n + 1, hn⟩ h0 h1
    else
      if h1 : (n + 1) % 64 = 63 then stepC m c ⟨n + 1, hn⟩ h0 h1 (accOf (outsAt0 c n (Nat.lt_of_succ_lt hn)))
      else stepB m c ⟨n + 1, hn⟩ h0 h1 (accOf (outsAt0 c n (Nat.lt_of_succ_lt hn)))

theorem outsAt0_A (c : Dev nD) (t : Fin cfg0.N) (h0 : t.val % 64 = 0) (h1 : ¬t.val % 64 = 63) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 m c t.val t.isLt = stepB m c t h0 h1 (accOf (outsAt0 m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 m c t.val t.isLt = stepC m c t h0 h1 (accOf (outsAt0 m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Afterwards: the packed scratch at anything and the three
    accumulators at what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (outsAt0 m c n hn).2.2.2.1 ∗ owns (c : Thread nD τ) scM0_2 fullShare (outsAt0 m c n hn).2.2.2.2.1 ∗ owns (c : Thread nD τ) scM0_3 fullShare (outsAt0 m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (outsAt0 m c n hn).2.2.2.1 ∗ owns (c : Thread nD τ) scM0_2 fullShare (outsAt0 m c n hn).2.2.2.2.1 ∗ owns (c : Thread nD τ) scM0_3 fullShare (outsAt0 m c n hn).2.2.2.2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (outsAt0 m c (n - 1) (by omega)).2.2.2.1 ∗ owns (c : Thread nD τ) scM0_2 fullShare (outsAt0 m c (n - 1) (by omega)).2.2.2.2.1 ∗ owns (c : Thread nD τ) scM0_3 fullShare (outsAt0 m c (n - 1) (by omega)).2.2.2.2.2) ∗ (∃ r, prngReg c r)) := by
  cases n with
  | zero => exact absurd rfl hz
  | succ n => rfl

/-! ## The proof data -/

/-- The arrays as the region finds them; after the body each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Frame

end
-- ==== Proof.KbBody.lean ====
/-
  The body obligation of the kernel region: at every grid point, from the invariant and the windows' buffers, the
  body runs and gives back the invariant at the next point and each window's buffer at the contents the proof data
  names. The point is a first step, a middle step or a last step of its half; in each case the corresponding run
  applies, the accumulators' contents are read back from the run's pieces because those pieces cover the buffers,
  and an output buffer the case does not store into is handed back as it came.
-/
import proofs.«103410_j88596585382423_2_alg».proof.Proof.KbFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 64 = 63
  · have h0 : ¬t.val % 64 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [show (dats m 0 c).leavesExact 4 t = owns (c : Thread nD τ) (ms0_4 t) fullShare ((dats m 0 c).after 4 t) from by
      unfold Dat.leavesExact; rw [liveAt0_4 t ((hcond0_1 t).mpr h1)], after0_4]
    rw [outsAt0_C m c t h0 h1]
    unfold stepC; (try dsimp only)
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runC m c t h0 h1 (accOf (outsAt0 m c (t.val - 1) (Nat.lt_of_le_of_lt (Nat.sub_le _ _) t.isLt)))).2.2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    iintro ⟨H0, H1, ⟨%e2, H2⟩, ⟨%e3, H3⟩, ⟨%e4, H4⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · unfold owns; iexists _; isplitr
          swap; · iexact HS1
          ipureintro; exact View.read_writes_of_cover _ _ _ _ _ (scoverC_1 m c t h0 h1 _)
        isplitl [HS2]
        · unfold owns; iexists _; isplitr
          swap; · iexact HS2
          ipureintro; exact View.read_writes_of_cover _ _ _ _ _ (scoverC_2 m c t h0 h1 _)
        unfold owns; iexists _; isplitr
        swap; · iexact HS3
        ipureintro; exact View.read_writes_of_cover _ _ _ _ _ (scoverC_3 m c t h0 h1 _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverC_2 m c t h0 h1 _)
    isplitl [H3]
    · unfold owns; iexists _; isplitr
      swap; · iexact H3
      ipureintro; exact View.read_writes_of_cover _ _ _ _ _ (coverC_3 m c t h0 h1 _)
    unfold owns; iexists _; isplitr
    swap; · iexact H4
    ipureintro; exact View.read_writes_of_cover _ _ _ _ _ (coverC_4 m c t h0 h1 _)
  · by_cases h0 : t.val % 64 = 0
    · rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold stepA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((runA m c t h0 h1).2.2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((runA m c t h0 h1).2.2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexists _; iexact H2
        isplitl [H3]; · iexists _; iexact H3
        iexists _; iexact H4
    · have hz : t.val ≠ 0 := fun h => h0 (by rw [h])
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 (accOf (outsAt0 m c (t.val - 1) (Nat.lt_of_le_of_lt (Nat.sub_le _ _) t.isLt)))).2.2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexists _; iexact H2
      isplitl [H3]; · iexists _; iexact H3
      iexists _; iexact H4

/-- The region's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Frame

end
-- ==== Proof.KbTail.lean ====
/-
  The host operations after the kernel's region, as the list of its six stretches, and the three facts a run
  around the region asks of them: every buffer they touch is an unscoped TensorCore reference (hence one of the
  pipeline's arrays or a bypassing buffer), they allocate nothing, and none of them writes one of the five arrays
  the region's windows stage (each writes only its own result buffer, which is none of the five).
-/
import proofs.«103410_j88596585382423_2_alg».proof.Proof.Gen.Kernel.Launch
import Idealize.ShloMosaic.Lib.Pipeline.FrameSuffix

set_option maxRecDepth 16384

noncomputable section

namespace Cert.Kernel.Tail

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

/-- The six stretches of host operations after the region, in order. -/
abbrev tailOpss : List (List (HloOp τ sig (Elt F))) :=
  [hostOps1, hostOps1_1, hostOps1_2, hostOps1_3, hostOps1_4, hostOps1_5]

/-! ## Nothing is allocated -/

theorem hostOps0_fresh : (hostOps0 : List (HloOp τ sig (Elt F))).Forall fun op => op.fresh = ∅ := by
  simp only [List.Forall]; repeat' constructor

set_option maxHeartbeats 40000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; rfl

/-- The operations after the region allocate nothing. -/
theorem sfx_fresh : ∀ ops ∈ (tailOpss (F := F)), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-! ## Every buffer touched is an array of the pipeline or bypasses it -/

/-- Each operation's buffers are unscoped TensorCore references, and with nothing prefetched every such reference is
    an array of the pipeline or a bypassing buffer. -/
theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-! ## The five arrays are left alone -/

set_option maxHeartbeats 40000000 in
theorem hostOps1_keeps : (hostOps1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  intro w; fin_cases w <;> simp only [StableHlo.nullary_writes, StableHlo.unary_writes, StableHlo.binary_writes, StableHlo.ternary_writes, StableHlo.reshape_writes, Finset.mem_singleton] <;> exact StableHlo.devRef_ne_of_ne (by decide)

/-- No operation after the region writes an array of the pipeline: each writes only its own result buffer, and that
    is none of the five arrays. -/
theorem sfx_keeps : ∀ ops ∈ (tailOpss (F := F)), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

end Cert.Kernel.Tail

end
-- ==== Proof.KbTailArg1.lean ====
/-
  No host operation after the region writes the buffer of the id words: each writes only its own result buffer,
  and that buffer is none of them. Stated per stretch, then over the six stretches laid end to end.
-/
import proofs.«103410_j88596585382423_2_alg».proof.Proof.KbTail

set_option maxRecDepth 16384

noncomputable section

namespace Cert.Kernel.Tail

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

set_option maxHeartbeats 40000000 in
theorem hostOps1_keeps_arg1 : (hostOps1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_1_keeps_arg1 : (hostOps1_1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_2_keeps_arg1 : (hostOps1_2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_3_keeps_arg1 : (hostOps1_3 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_4_keeps_arg1 : (hostOps1_4 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_5_keeps_arg1 : (hostOps1_5 : List (HloOp τ sig (Elt F))).Forall fun op =>
    Proc.devRef .tc main_arg1 ∉ op.writes := by
  simp only [List.Forall]
  simp only [StableHlo.nullary_writes, StableHlo.unary_writes, StableHlo.binary_writes, StableHlo.ternary_writes, StableHlo.reshape_writes, Finset.mem_singleton]; exact StableHlo.devRef_ne_of_ne (by decide)

/-- No operation after the region writes the id words' buffer. -/
theorem tail_keeps_arg1 : ∀ op ∈ (tailOpss (F := F)).flatten, Proc.devRef .tc main_arg1 ∉ op.writes := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_4_keeps_arg1) op hop
  · exact (List.forall_iff_forall_mem.mp hostOps1_5_keeps_arg1) op hop

end Cert.Kernel.Tail

end
-- ==== Proof.KbMain.lean ====
/-
  The frame run of the program: the host lines before the region, the region over its 128 points, the host lines
  after it. Every weakly fair execution terminates; each of the pipeline's five arrays ends at what the proof data
  computes for it, and every other buffer at what the later lines leave. Read at the two argument arrays this is
  the frame claim: the embeddings are a staged input, which the region leaves as it found it, and the id words
  bypass the region and no later line writes them.
-/
import proofs.«103410_j88596585382423_2_alg».proof.Proof.KbBody
import proofs.«103410_j88596585382423_2_alg».proof.Proof.KbTail
import proofs.«103410_j88596585382423_2_alg».proof.Proof.KbTailArg1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := Cert.Kernel.Tail.sfx_sub) (hfresh := Cert.Kernel.Tail.sfx_fresh) (hkeep := Cert.Kernel.Tail.sfx_keeps)
    (hmain := hmain m Variants.none) (hA := A_eq m) (hin := hin m) (hout := hout m)

/-- No line after the region writes the id words: they end as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ Cert.Kernel.Tail.tail_keeps_arg1,
    Pipeline.withArrays_of_ne _ c (V0 m c) _ main_arg1 (by exact (by decide : ∀ w, Pipeline.arrRef spec0 w ≠ main_arg1))]
  exact V_main_arg1 m c

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Kernel.Frame

end
-- ==== Proof.KiRuns.lean ====
/-
  What the three runs of the kernel body share. The program is: seven host operations (six constants and the
  reshape of the id words to 4096 rows of 128), one kernel region over a grid of 2 x 64 points, then the closing
  host operations. The body at a point reads a block of 4096 rows and their id words, adds the block's counts,
  sums and Gram products into three accumulators kept in scratch between points, zeroes the accumulators first at
  the points whose second coordinate is 0, and copies them out at the points whose second coordinate is 63.
  Here: the buffer contents when the region is entered, @main as "lines, the region, lines", the blocks of the
  two input windows, the two branch conditions decided over the grid, where the output windows are idle, and
  the names of the staging and scratch buffers.
-/
import proofs.«103410_j88596585382423_2_alg».proof.Proof.Gen.KernelIdeal.Launch
import proofs.«103410_j88596585382423_2_alg».proof.Proof.Gen.KernelIdeal.Skeleton
import proofs.«103410_j88596585382423_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- The six stretches of host lines after the region. -/
abbrev tailOpss : List (List (HloOp τ sig (Elt F))) := [hostOps1, hostOps1_1, hostOps1_2, hostOps1_3, hostOps1_4, hostOps1_5]

/-- @main is the lines before the region, the region, and the lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- No line before the region writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the id words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows' staging buffer holds the point's block of rows at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The id words' staging buffer holds the point's block of id words at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first step of its half": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last step of its half": the second grid coordinate is 63. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step of a half the three output windows are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At the last step of a half they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The staging and scratch buffers by name -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16 .f32 := win0_4.stage (cfg0.slots t 4)
abbrev hs0_4 (t : Fin cfg0.N) : (ms0_4 t).IsWhole := hstage0_4 ((cfg0.slots t 4).cast nbuf0_4)
/-- The scratch operands: the packed weighted rows, and the Gram, sums and counts accumulators. -/
abbrev scM0_0 : Memref sig .tc .vmem S4096x1024 .bf16 := Memref.whole cc0_scratch0
abbrev scM0_1 : Memref sig .tc .vmem S1024x64 .f32 := Memref.whole cc0_scratch1
abbrev scM0_2 : Memref sig .tc .vmem S16x64 .f32 := Memref.whole cc0_scratch2
abbrev scM0_3 : Memref sig .tc .vmem S1x16 .f32 := Memref.whole cc0_scratch3
/-- Views through which the outputs' and the accumulators' contents are stated. -/
abbrev VO0_2 : View sig .tc .vmem S1x16x64x64 .f32 := (Memref.whole cc0_stg2_0 : Memref sig .tc .vmem S1x16x64x64 .f32).view
abbrev VO0_3 : View sig .tc .vmem S1x16x64 .f32 := (Memref.whole cc0_stg3_0 : Memref sig .tc .vmem S1x16x64 .f32).view
abbrev VO0_4 : View sig .tc .vmem S1x1x16 .f32 := (Memref.whole cc0_stg4_0 : Memref sig .tc .vmem S1x1x16 .f32).view
abbrev VS0_1 : View sig .tc .vmem S1024x64 .f32 := scM0_1.view
abbrev VS0_2 : View sig .tc .vmem S16x64 .f32 := scM0_2.view
abbrev VS0_3 : View sig .tc .vmem S1x16 .f32 := scM0_3.view

/-- What the launch hands the region besides the windows: the four scratch buffers at some contents and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Frame

end
-- ==== Proof.KiRunA.lean ====
/-
  The body run at a point that is the first step of its half and not the last: the accumulators are stored whole
  with zeros before they are read, so they may hold anything on entry; the three output buffers are not touched
  and are handed back as they came. The pieces each scratch buffer ends with are found by the run.
-/
import proofs.«103410_j88596585382423_2_alg».proof.Proof.KiRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- First step of a half. -/
noncomputable def kernelRun0_A (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : cond0_0 i) (hc1 : ¬cond0_1 i)
    (x0 : Vec F S4096x64 .f32) (x1 : Vec F S32x128 .i32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (xi2 : Vec F S1x16x64x64 .f32) (xi3 : Vec F S1x16x64 .f32) (xi4 : Vec F S1x1x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨[], [], [], ?_, ?_, ?_, ?_, fun xi2 xi3 xi4 E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.KiRunB.lean ====
/-
  The body run at a point that is neither the first nor the last step of its half: the accumulators hold what the
  point before left and the block's contributions are added; the three output buffers are not touched.
-/
import proofs.«103410_j88596585382423_2_alg».proof.Proof.KiRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- A middle step of a half. -/
noncomputable def kernelRun0_B (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : ¬cond0_1 i)
    (x0 : Vec F S4096x64 .f32) (x1 : Vec F S32x128 .i32) (xs1 : Vec F S1024x64 .f32) (xs2 : Vec F S16x64 .f32) (xs3 : Vec F S1x16 .f32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (xi2 : Vec F S1x16x64x64 .f32) (xi3 : Vec F S1x16x64 .f32) (xi4 : Vec F S1x1x16 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨[], [], [], ?_, ?_, ?_, ?_, fun xi2 xi3 xi4 E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.KiRunC.lean ====
/-
  The body run at the last step of a half: the accumulators hold what the point before left, the block's
  contributions are added, and the three accumulators are copied out into the output buffers, which may hold
  anything on entry and end with the run's pieces written.
-/
import proofs.«103410_j88596585382423_2_alg».proof.Proof.KiRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The last step of a half. -/
noncomputable def kernelRun0_C (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i)
    (x0 : Vec F S4096x64 .f32) (x1 : Vec F S32x128 .i32) (xs1 : Vec F S1024x64 .f32) (xs2 : Vec F S16x64 .f32) (xs3 : Vec F S1x16 .f32) :
    Σ' (L2 : List (View.Piece (Elt F) S1x16x64x64 .f32)) (L3 : List (View.Piece (Elt F) S1x16x64 .f32)) (L4 : List (View.Piece (Elt F) S1x1x16 .f32)) (LS0 : List (View.Piece (Elt F) S4096x1024 .bf16)) (LS1 : List (View.Piece (Elt F) S1024x64 .f32)) (LS2 : List (View.Piece (Elt F) S16x64 .f32)), { LS3 : List (View.Piece (Elt F) S1x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__pairwise_stats_kernel i arg2 harg2 arg3 harg3 arg4 harg4 arg5 harg5 arg6 harg6 arg7 harg7 arg8 harg8 arg9 harg9 arg10 harg10) K } := by
  refine ⟨?_, ?_, ?_, ?_, ?_, ?_, ?_, fun E K => ?run⟩
  case run =>
    simp only [cc0__pairwise_stats_kernel_eq_skeleton]; unfold cc0__pairwise_stats_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%fs1, %hfs1, HS1⟩, ⟨%fs2, %hfs2, HS2⟩, ⟨%fs3, %hfs3, HS3⟩, Hk⟩
    obtain rfl := harg2.eq_unread hf0; obtain rfl := harg3.eq_unread hf1
    obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Frame

end
-- ==== Proof.KiFrame.lean ====
/-
  The kernel region's proof data and its body obligation. For each of the three kinds of point — first step of a
  half, middle step, last step — what the run leaves in the three accumulators (and, at a last step, in the three
  output buffers) is read back from the pieces the run found; `outsAt0` threads these through the 128 points: a
  first step starts from nothing, every other step from what the point before left in the accumulators. The
  region's invariant between points is: the packed scratch at anything, the three accumulators at `outsAt0`'s
  contents.
-/
import proofs.«103410_j88596585382423_2_alg».proof.Proof.KiRunA
import proofs.«103410_j88596585382423_2_alg».proof.Proof.KiRunB
import proofs.«103410_j88596585382423_2_alg».proof.Proof.KiRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three output buffers' and the three accumulators' contents after a point. -/
abbrev Outs (F : FTy → Type) [FloatOps F] : Type :=
  Vec F S1x16x64x64 .f32 × Vec F S1x16x64 .f32 × Vec F S1x1x16 .f32 × Vec F S1024x64 .f32 × Vec F S16x64 .f32 × Vec F S1x16 .f32
/-- The accumulators' part. -/
abbrev Acc (F : FTy → Type) [FloatOps F] : Type := Vec F S1024x64 .f32 × Vec F S16x64 .f32 × Vec F S1x16 .f32
abbrev accOf (o : Outs F) : Acc F := o.2.2.2

/-- Pieces read back over junk, per buffer. -/
abbrev rd2 (L : List (View.Piece (Elt F) S1x16x64x64 .f32)) : Vec F S1x16x64x64 .f32 := VO0_2.read (Elt F) (VO0_2.writes (Elt F) VO0_2.junk L)
abbrev rd3 (L : List (View.Piece (Elt F) S1x16x64 .f32)) : Vec F S1x16x64 .f32 := VO0_3.read (Elt F) (VO0_3.writes (Elt F) VO0_3.junk L)
abbrev rd4 (L : List (View.Piece (Elt F) S1x1x16 .f32)) : Vec F S1x1x16 .f32 := VO0_4.read (Elt F) (VO0_4.writes (Elt F) VO0_4.junk L)
abbrev rs1 (L : List (View.Piece (Elt F) S1024x64 .f32)) : Vec F S1024x64 .f32 := VS0_1.read (Elt F) (VS0_1.writes (Elt F) VS0_1.junk L)
abbrev rs2 (L : List (View.Piece (Elt F) S16x64 .f32)) : Vec F S16x64 .f32 := VS0_2.read (Elt F) (VS0_2.writes (Elt F) VS0_2.junk L)
abbrev rs3 (L : List (View.Piece (Elt F) S1x16 .f32)) : Vec F S1x16 .f32 := VS0_3.read (Elt F) (VS0_3.writes (Elt F) VS0_3.junk L)

/-! ## The three runs at a grid point -/

/-- The first-step run at point `t`. -/
abbrev runA (c : Dev nD) (t : Fin cfg0.N) (h0 : t.val % 64 = 0) (h1 : ¬t.val % 64 = 63) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)
/-- The middle-step run at point `t`, from the accumulators' contents `a`. -/
abbrev runB (c : Dev nD) (t : Fin cfg0.N) (h0 : ¬t.val % 64 = 0) (h1 : ¬t.val % 64 = 63) (a : Acc F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) a.1 a.2.1 a.2.2
/-- The last-step run at point `t`, from the accumulators' contents `a`. -/
abbrev runC (c : Dev nD) (t : Fin cfg0.N) (h0 : ¬t.val % 64 = 0) (h1 : t.val % 64 = 63) (a : Acc F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) a.1 a.2.1 a.2.2

/-- What a first step leaves: the outputs untouched (a placeholder nothing consults), the accumulators at the run's pieces. -/
def stepA (c : Dev nD) (t : Fin cfg0.N) (h0 : t.val % 64 = 0) (h1 : ¬t.val % 64 = 63) : Outs F :=
  (rd2 [], rd3 [], rd4 [], rs1 (runA m c t h0 h1).2.2.2.2.1, rs2 (runA m c t h0 h1).2.2.2.2.2.1, rs3 (runA m c t h0 h1).2.2.2.2.2.2.1)
/-- What a middle step leaves. -/
def stepB (c : Dev nD) (t : Fin cfg0.N) (h0 : ¬t.val % 64 = 0) (h1 : ¬t.val % 64 = 63) (a : Acc F) : Outs F :=
  (rd2 [], rd3 [], rd4 [], rs1 (runB m c t h0 h1 a).2.2.2.2.1, rs2 (runB m c t h0 h1 a).2.2.2.2.2.1, rs3 (runB m c t h0 h1 a).2.2.2.2.2.2.1)
/-- What a last step leaves: the outputs at the run's pieces too. -/
def stepC (c : Dev nD) (t : Fin cfg0.N) (h0 : ¬t.val % 64 = 0) (h1 : t.val % 64 = 63) (a : Acc F) : Outs F :=
  (rd2 (runC m c t h0 h1 a).1, rd3 (runC m c t h0 h1 a).2.1, rd4 (runC m c t h0 h1 a).2.2.1, rs1 (runC m c t h0 h1 a).2.2.2.2.1, rs2 (runC m c t h0 h1 a).2.2.2.2.2.1, rs3 (runC m c t h0 h1 a).2.2.2.2.2.2.1)

/-! ## The runs' pieces cover their buffers -/

theorem scoverA_1 (c : Dev nD) (t : Fin cfg0.N) (h0) (h1) (y : S1024x64.Idx) : ∃ pc ∈ (runA m c t h0 h1).2.2.2.2.1, y ∈ pc.1.set :=
  View.cover_of_tiledL _ S1024x64.size (by sl_kernel_rfl) y
theorem scoverA_2 (c : Dev nD) (t : Fin cfg0.N) (h0) (h1) (y : S16x64.Idx) : ∃ pc ∈ (runA m c t h0 h1).2.2.2.2.2.1, y ∈ pc.1.set :=
  View.cover_of_tiledL _ S16x64.size (by sl_kernel_rfl) y
theorem scoverA_3 (c : Dev nD) (t : Fin cfg0.N) (h0) (h1) (y : S1x16.Idx) : ∃ pc ∈ (runA m c t h0 h1).2.2.2.2.2.2.1, y ∈ pc.1.set :=
  View.cover_of_tiledL _ S1x16.size (by sl_kernel_rfl) y
theorem scoverB_1 (c : Dev nD) (t : Fin cfg0.N) (h0) (h1) (a : Acc F) (y : S1024x64.Idx) : ∃ pc ∈ (runB m c t h0 h1 a).2.2.2.2.1, y ∈ pc.1.set :=
  View.cover_of_tiledL _ S1024x64.size (by sl_kernel_rfl) y
theorem scoverB_2 (c : Dev nD) (t : Fin cfg0.N) (h0) (h1) (a : Acc F) (y : S16x64.Idx) : ∃ pc ∈ (runB m c t h0 h1 a).2.2.2.2.2.1, y ∈ pc.1.set :=
  View.cover_of_tiledL _ S16x64.size (by sl_kernel_rfl) y
theorem scoverB_3 (c : Dev nD) (t : Fin cfg0.N) (h0) (h1) (a : Acc F) (y : S1x16.Idx) : ∃ pc ∈ (runB m c t h0 h1 a).2.2.2.2.2.2.1, y ∈ pc.1.set :=
  View.cover_of_tiledL _ S1x16.size (by sl_kernel_rfl) y
theorem scoverC_1 (c : Dev nD) (t : Fin cfg0.N) (h0) (h1) (a : Acc F) (y : S1024x64.Idx) : ∃ pc ∈ (runC m c t h0 h1 a).2.2.2.2.1, y ∈ pc.1.set :=
  View.cover_of_tiledL _ S1024x64.size (by sl_kernel_rfl) y
theorem scoverC_2 (c : Dev nD) (t : Fin cfg0.N) (h0) (h1) (a : Acc F) (y : S16x64.Idx) : ∃ pc ∈ (runC m c t h0 h1 a).2.2.2.2.2.1, y ∈ pc.1.set :=
  View.cover_of_tiledL _ S16x64.size (by sl_kernel_rfl) y
theorem scoverC_3 (c : Dev nD) (t : Fin cfg0.N) (h0) (h1) (a : Acc F) (y : S1x16.Idx) : ∃ pc ∈ (runC m c t h0 h1 a).2.2.2.2.2.2.1, y ∈ pc.1.set :=
  View.cover_of_tiledL _ S1x16.size (by sl_kernel_rfl) y
theorem coverC_2 (c : Dev nD) (t : Fin cfg0.N) (h0) (h1) (a : Acc F) (y : S1x16x64x64.Idx) : ∃ pc ∈ (runC m c t h0 h1 a).1, y ∈ pc.1.set :=
  View.cover_of_tiledL _ S1x16x64x64.size (by sl_kernel_rfl) y
theorem coverC_3 (c : Dev nD) (t : Fin cfg0.N) (h0) (h1) (a : Acc F) (y : S1x16x64.Idx) : ∃ pc ∈ (runC m c t h0 h1 a).2.1, y ∈ pc.1.set :=
  View.cover_of_tiledL _ S1x16x64.size (by sl_kernel_rfl) y
theorem coverC_4 (c : Dev nD) (t : Fin cfg0.N) (h0) (h1) (a : Acc F) (y : S1x1x16.Idx) : ∃ pc ∈ (runC m c t h0 h1 a).2.2.1, y ∈ pc.1.set :=
  View.cover_of_tiledL _ S1x1x16.size (by sl_kernel_rfl) y

/-! ## What the buffers hold after each point -/

/-- The accumulation, point by point. -/
def outsAt0 (c : Dev nD) : (n : ℕ) → n < cfg0.N → Outs F
  | 0, hn => stepA m c ⟨0, hn⟩ (Nat.zero_mod _) (by show ¬(0 : ℕ) % 64 = 63; decide)
  | n + 1, hn =>
    if h0 : (n + 1) % 64 = 0 then
      if h1 : (n + 1) % 64 = 63 then False.elim (by omega)
      else stepA m c ⟨n + 1, hn⟩ h0 h1
    else
      if h1 : (n + 1) % 64 = 63 then stepC m c ⟨n + 1, hn⟩ h0 h1 (accOf (outsAt0 c n (Nat.lt_of_succ_lt hn)))
      else stepB m c ⟨n + 1, hn⟩ h0 h1 (accOf (outsAt0 c n (Nat.lt_of_succ_lt hn)))

theorem outsAt0_A (c : Dev nD) (t : Fin cfg0.N) (h0 : t.val % 64 = 0) (h1 : ¬t.val % 64 = 63) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 m c t.val t.isLt = stepB m c t h0 h1 (accOf (outsAt0 m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 m c t.val t.isLt = stepC m c t h0 h1 (accOf (outsAt0 m c (t.val - 1) (Nat.lt_of_le_of_lt (Nat.sub_le _ _) t.isLt))) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: the scratch buffers at anything. Afterwards: the packed scratch at anything and the three
    accumulators at what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (outsAt0 m c n hn).2.2.2.1 ∗ owns (c : Thread nD τ) scM0_2 fullShare (outsAt0 m c n hn).2.2.2.2.1 ∗ owns (c : Thread nD τ) scM0_3 fullShare (outsAt0 m c n hn).2.2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (outsAt0 m c n hn).2.2.2.1 ∗ owns (c : Thread nD τ) scM0_2 fullShare (outsAt0 m c n hn).2.2.2.2.1 ∗ owns (c : Thread nD τ) scM0_3 fullShare (outsAt0 m c n hn).2.2.2.2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (outsAt0 m c (n - 1) (by omega)).2.2.2.1 ∗ owns (c : Thread nD τ) scM0_2 fullShare (outsAt0 m c (n - 1) (by omega)).2.2.2.2.1 ∗ owns (c : Thread nD τ) scM0_3 fullShare (outsAt0 m c (n - 1) (by omega)).2.2.2.2.2) ∗ (∃ r, prngReg c r)) := by
  cases n with
  | zero => exact absurd rfl hz
  | succ n => rfl

/-! ## The proof data -/

/-- The arrays as the region finds them; after the body each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Frame

end
-- ==== Proof.KiBody.lean ====
/-
  The body obligation of the kernel region: at every grid point, from the invariant and the windows' buffers, the
  body runs and gives back the invariant at the next point and each window's buffer at the contents the proof data
  names. The point is a first step, a middle step or a last step of its half; in each case the corresponding run
  applies, the accumulators' contents are read back from the run's pieces because those pieces cover the buffers,
  and an output buffer the case does not store into is handed back as it came.
-/
import proofs.«103410_j88596585382423_2_alg».proof.Proof.KiFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 64 = 63
  · have h0 : ¬t.val % 64 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [show (dats m 0 c).leavesExact 3 t = owns (c : Thread nD τ) (ms0_3 t) fullShare ((dats m 0 c).after 3 t) from by
      unfold Dat.leavesExact; rw [liveAt0_3 t ((hcond0_1 t).mpr h1)], after0_3]
    rw [show (dats m 0 c).leavesExact 4 t = owns (c : Thread nD τ) (ms0_4 t) fullShare ((dats m 0 c).after 4 t) from by
      unfold Dat.leavesExact; rw [liveAt0_4 t ((hcond0_1 t).mpr h1)], after0_4]
    rw [outsAt0_C m c t h0 h1]
    unfold stepC; (try dsimp only)
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runC m c t h0 h1 (accOf (outsAt0 m c (t.val - 1) (Nat.lt_of_le_of_lt (Nat.sub_le _ _) t.isLt)))).2.2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    iintro ⟨H0, H1, ⟨%e2, H2⟩, ⟨%e3, H3⟩, ⟨%e4, H4⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · unfold owns; iexists _; isplitr
          swap; · iexact HS1
          ipureintro; exact View.read_writes_of_cover _ _ _ _ _ (scoverC_1 m c t h0 h1 _)
        isplitl [HS2]
        · unfold owns; iexists _; isplitr
          swap; · iexact HS2
          ipureintro; exact View.read_writes_of_cover _ _ _ _ _ (scoverC_2 m c t h0 h1 _)
        unfold owns; iexists _; isplitr
        swap; · iexact HS3
        ipureintro; exact View.read_writes_of_cover _ _ _ _ _ (scoverC_3 m c t h0 h1 _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverC_2 m c t h0 h1 _)
    isplitl [H3]
    · unfold owns; iexists _; isplitr
      swap; · iexact H3
      ipureintro; exact View.read_writes_of_cover _ _ _ _ _ (coverC_3 m c t h0 h1 _)
    unfold owns; iexists _; isplitr
    swap; · iexact H4
    ipureintro; exact View.read_writes_of_cover _ _ _ _ _ (coverC_4 m c t h0 h1 _)
  · by_cases h0 : t.val % 64 = 0
    · rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold stepA; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((runA m c t h0 h1).2.2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((runA m c t h0 h1).2.2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            unfold owns; iexists _; isplitr
            swap; · iexact HS3
            ipureintro; exact View.read_writes_of_cover _ _ _ _ _ (scoverA_3 m c t h0 h1)
          iexact Hg
        isplitl [Ho]; · iexact Ho
        isplitl [H0]; · iexact H0
        isplitl [H1]; · iexact H1
        isplitl [H2]; · iexists _; iexact H2
        isplitl [H3]; · iexists _; iexact H3
        iexists _; iexact H4
    · have hz : t.val ≠ 0 := fun h => h0 (by rw [h])
      rw [Dat.leavesExact_idle (dats m 0 c) 2 t (idleAt0_2 t (fun h => h1 ((hcond0_1 t).mp h))) (noFlush0_2 t (fun h => h1 ((hcond0_1 t).mp h)))]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 (accOf (outsAt0 m c (t.val - 1) (Nat.lt_of_le_of_lt (Nat.sub_le _ _) t.isLt)))).2.2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (scoverB_1 m c t h0 h1 _)
          isplitl [HS2]
          · unfold owns; iexists _; isplitr
            swap; · iexact HS2
            ipureintro; exact View.read_writes_of_cover _ _ _ _ _ (scoverB_2 m c t h0 h1 _)
          unfold owns; iexists _; isplitr
          swap; · iexact HS3
          ipureintro; exact View.read_writes_of_cover _ _ _ _ _ (scoverB_3 m c t h0 h1 _)
        iexact Hg
      isplitl [Ho]; · iexact Ho
      isplitl [H0]; · iexact H0
      isplitl [H1]; · iexact H1
      isplitl [H2]; · iexists _; iexact H2
      isplitl [H3]; · iexists _; iexact H3
      iexists _; iexact H4

/-- The region's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Frame

end
-- ==== Proof.KiTail.lean ====
/-
  The host operations after the kernel's region, as the list of its six stretches, and the three facts a run
  around the region asks of them: every buffer they touch is an unscoped TensorCore reference (hence one of the
  pipeline's arrays or a bypassing buffer), they allocate nothing, and none of them writes one of the five arrays
  the region's windows stage (each writes only its own result buffer, which is none of the five).
-/
import proofs.«103410_j88596585382423_2_alg».proof.Proof.Gen.KernelIdeal.Launch
import Idealize.ShloMosaic.Lib.Pipeline.FrameSuffix

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

/-- The six stretches of host operations after the region, in order. -/
abbrev tailOpss : List (List (HloOp τ sig (Elt F))) :=
  [hostOps1, hostOps1_1, hostOps1_2, hostOps1_3, hostOps1_4, hostOps1_5]

/-! ## Nothing is allocated -/

theorem hostOps0_fresh : (hostOps0 : List (HloOp τ sig (Elt F))).Forall fun op => op.fresh = ∅ := by
  simp only [List.Forall]; repeat' constructor

set_option maxHeartbeats 40000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; rfl

/-- The operations after the region allocate nothing. -/
theorem sfx_fresh : ∀ ops ∈ (tailOpss (F := F)), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-! ## Every buffer touched is an array of the pipeline or bypasses it -/

/-- Each operation's buffers are unscoped TensorCore references, and with nothing prefetched every such reference is
    an array of the pipeline or a bypassing buffer. -/
theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-! ## The five arrays are left alone -/

set_option maxHeartbeats 40000000 in
theorem hostOps1_keeps : (hostOps1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_1_keeps : (hostOps1_1 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_2_keeps : (hostOps1_2 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_3_keeps : (hostOps1_3 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_4_keeps : (hostOps1_4 : List (HloOp τ sig (Elt F))).Forall fun op =>
    ∀ w, Proc.devRef .tc (Pipeline.arrRef spec0 w) ∉ op.writes := by
  simp only [List.Forall]; repeat' constructor
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem hostOps1_5_keeps : (hostOps1_5 : List (HloOp τ sig (Elt F))).Forall fun op =>
    ∀ w, Proc.devRef .tc (Pipeline.arrRef spec0 w) ∉ op.writes := by
  simp only [List.Forall]
  intro w; fin_cases w <;> simp only [StableHlo.nullary_writes, StableHlo.unary_writes, StableHlo.binary_writes, StableHlo.ternary_writes, StableHlo.reshape_writes, Finset.mem_singleton] <;> exact StableHlo.devRef_ne_of_ne (by decide)

/-- No operation after the region writes an array of the pipeline: each writes only its own result buffer, and that
    is none of the five arrays. -/
theorem sfx_keeps : ∀ ops ∈ (tailOpss (F := F)), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

end Cert.KernelIdeal.Tail

end
-- ==== Proof.KiTailArg1.lean ====
/-
  No host operation after the region writes the buffer of the id words: each writes only its own result buffer,
  and that buffer is none of them. Stated per stretch, then over the six stretches laid end to end.
-/
import proofs.«103410_j88596585382423_2_alg».proof.Proof.KiTail

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

set_option maxHeartbeats 40000000 in
theorem hostOps1_keeps_arg1 : (hostOps1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_1_keeps_arg1 : (hostOps1_1 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_2_keeps_arg1 : (hostOps1_2 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_3_keeps_arg1 : (hostOps1_3 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_4_keeps_arg1 : (hostOps1_4 : List (HloOp τ sig (Elt F))).Forall fun op =>
    Proc.devRef .tc main_arg1 ∉ op.writes := by
  simp only [List.Forall]; repeat' constructor
  all_goals simp only [StableHlo.nullary_writes, StableHlo.unary_writes, StableHlo.binary_writes, StableHlo.ternary_writes, StableHlo.reshape_writes, Finset.mem_singleton] <;> exact StableHlo.devRef_ne_of_ne (by decide)
theorem hostOps1_5_keeps_arg1 : (hostOps1_5 : List (HloOp τ sig (Elt F))).Forall fun op =>
    Proc.devRef .tc main_arg1 ∉ op.writes := by
  simp only [List.Forall]
  simp only [StableHlo.nullary_writes, StableHlo.unary_writes, StableHlo.binary_writes, StableHlo.ternary_writes, StableHlo.reshape_writes, Finset.mem_singleton]; exact StableHlo.devRef_ne_of_ne (by decide)

/-- No operation after the region writes the id words' buffer. -/
theorem tail_keeps_arg1 : ∀ op ∈ (tailOpss (F := F)).flatten, Proc.devRef .tc main_arg1 ∉ op.writes := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps1_keeps_arg1) op hop
  · exact (List.forall_iff_forall_mem.mp hostOps1_1_keeps_arg1) op hop
  · exact (List.forall_iff_forall_mem.mp hostOps1_2_keeps_arg1) op hop
  · exact (List.forall_iff_forall_mem.mp hostOps1_3_keeps_arg1) op hop
  · exact (List.forall_iff_forall_mem.mp hostOps1_4_keeps_arg1) op hop
  · exact (List.forall_iff_forall_mem.mp hostOps1_5_keeps_arg1) op hop

end Cert.KernelIdeal.Tail

end
-- ==== Proof.KiMain.lean ====
/-
  The frame run of the program: the host lines before the region, the region over its 128 points, the host lines
  after it. Every weakly fair execution terminates; each of the pipeline's five arrays ends at what the proof data
  computes for it, and every other buffer at what the later lines leave. Read at the two argument arrays this is
  the frame claim: the embeddings are a staged input, which the region leaves as it found it, and the id words
  bypass the region and no later line writes them.
-/
import proofs.«103410_j88596585382423_2_alg».proof.Proof.KiBody
import proofs.«103410_j88596585382423_2_alg».proof.Proof.KiTail
import proofs.«103410_j88596585382423_2_alg».proof.Proof.KiTailArg1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := Cert.KernelIdeal.Tail.sfx_sub) (hfresh := Cert.KernelIdeal.Tail.sfx_fresh) (hkeep := Cert.KernelIdeal.Tail.sfx_keeps)
    (hmain := hmain m Variants.none) (hA := A_eq m) (hin := hin m) (hout := hout m)

/-- No line after the region writes the id words: they end as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ Cert.KernelIdeal.Tail.tail_keeps_arg1,
    Pipeline.withArrays_of_ne _ c (V0 m c) _ main_arg1 (by exact (by decide : ∀ w, Pipeline.arrRef spec0 w ≠ main_arg1))]
  exact V_main_arg1 m c

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Frame

end
-- ==== Proof.KiTailDefs.lean ====
/-
  The host operations after the kernel's region, as functions of what the region leaves.

  The first operations add the two halves of each of the three statistics: a sum over the leading axis (of extent two)
  of the Gram array [2,16,64,64], of the group sums [2,16,64] and of the counts [2,1,16], each from the zero scalar,
  the counts then reshaped from [1,16] to [16]. Every later operation is the closing arithmetic on those three sums:
  the means, the regularised covariances, the pairwise squared Frobenius distances, their square roots over the valid
  pairs and the final mean. It is composed here in program order as ONE function `closing` of the three sums, through
  the same intermediate functions as the reference's closing arithmetic, with the six integer constants of the
  program written out as the terms their operations store.
-/
import proofs.«103410_j88596585382423_2_alg».proof.Proof.Gen.KernelIdeal.Launch
import Idealize.ShloMosaic.PureOps.Ideal
import Idealize.ShloMosaic.Lib.ValueIdx

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

/-- The two halves of the Gram array added: the sum over the leading axis, from the zero scalar. -/
def halvesG (g : FVec Ideal S2x16x64x64 .f32) : FVec Ideal S16x64x64 .f32 :=
  Host.reduceAdd (F := Ideal) g (constant (F := Ideal) S_ .f32 0x00000000#32) reducesTo_S2x16x64x64_S16x64x64_d0 h_S_

/-- The two halves of the group sums added. -/
def halvesS (s : FVec Ideal S2x16x64 .f32) : FVec Ideal S16x64 .f32 :=
  Host.reduceAdd (F := Ideal) s (constant (F := Ideal) S_ .f32 0x00000000#32) reducesTo_S2x16x64_S16x64_d0 h_S_

/-- The two halves of the counts added, and the unit axis dropped. -/
def halvesN (n : FVec Ideal S2x1x16 .f32) : FVec Ideal S16 .f32 :=
  fun i => shapeCast S16 (Host.reduceAdd (F := Ideal) n (constant (F := Ideal) S_ .f32 0x00000000#32) reducesTo_S2x1x16_S1x16_d0 h_S_) shapeCasts_S1x16_S16 i

section
variable {F : FTy → Type} [FloatOps F]

/-- Two index columns side by side: the 120 by 2 table of pairs. -/
def pairCols (a b : IVec S120x1 32) : IVec S120x2 32 :=
  concatenate S120x2 1 [⟨S120x1, a⟩, ⟨S120x1, b⟩] concatenates_S120x1_S120x1_S120x2_d1

/-- The group means: each group sum divided by the larger of the count and one. -/
def means (s : (⟨S16x64, .f32⟩ : BufTy).Contents (Elt F)) (n : (⟨S16, .f32⟩ : BufTy).Contents (Elt F)) :
    (⟨S16x64, .f32⟩ : BufTy).Contents (Elt F) :=
  Host.divf (s) (broadcastInDim S16x64 ![0, 1] bcast_S16x1_S16x64_0_1 (broadcastInDim S16x1 ![0] bcast_S16_S16x1_0 (maximumf (n) (broadcastInDim S16 ![] bcast_S_S16 ((constant S_ .f32 0x3F800000#32 : (⟨S_, .f32⟩ : BufTy).Contents (Elt F)))))))

/-- The regularised covariances: the Gram matrix less count times the outer product of the mean, over the larger of count less one and one, plus 1e-4 on the diagonal. -/
def covReg (g : (⟨S16x64x64, .f32⟩ : BufTy).Contents (Elt F)) (mu : (⟨S16x64, .f32⟩ : BufTy).Contents (Elt F)) (n : (⟨S16, .f32⟩ : BufTy).Contents (Elt F)) :
    (⟨S16x64x64, .f32⟩ : BufTy).Contents (Elt F) :=
  addf (Host.divf (subf (g) (mulf (broadcastInDim S16x64x64 ![0, 1, 2] bcast_S16x64x1_S16x64x64_0_1_2 (mulf (broadcastInDim S16x64x1 ![0, 1, 2] bcast_S16x1x1_S16x64x1_0_1_2 (broadcastInDim S16x1x1 ![0] bcast_S16_S16x1x1_0 (n))) (broadcastInDim S16x64x1 ![0, 1] bcast_S16x64_S16x64x1_0_1 (mu)))) (broadcastInDim S16x64x64 ![0, 1, 2] bcast_S16x1x64_S16x64x64_0_1_2 (broadcastInDim S16x1x64 ![0, 2] bcast_S16x64_S16x1x64_0_2 (mu))))) (broadcastInDim S16x64x64 ![0, 1, 2] bcast_S16x1x1_S16x64x64_0_1_2 (broadcastInDim S16x1x1 ![0] bcast_S16_S16x1x1_0 (maximumf (subf (n) (broadcastInDim S16 ![] bcast_S_S16 ((constant S_ .f32 0x3F800000#32 : (⟨S_, .f32⟩ : BufTy).Contents (Elt F))))) (broadcastInDim S16 ![] bcast_S_S16 ((constant S_ .f32 0x3F800000#32 : (⟨S_, .f32⟩ : BufTy).Contents (Elt F)))))))) (broadcastInDim S16x64x64 ![0, 1, 2] bcast_S1x64x64_S16x64x64_0_1_2 (broadcastInDim S1x64x64 ![1, 2] bcast_S64x64_S1x64x64_1_2 (mulf (broadcastInDim S64x64 ![] bcast_S_S64x64 ((constant S_ .f32 0x38D1B717#32 : (⟨S_, .f32⟩ : BufTy).Contents (Elt F)))) (uitofp .f32 (cmpi .eq (addi ((iotaInDim S64x64 32 0 : (⟨S64x64, .i32⟩ : BufTy).Contents (Elt F))) (broadcastInDim S64x64 ![] bcast_S_S64x64 ((constantI S_ 32 0#32 : (⟨S_, .i32⟩ : BufTy).Contents (Elt F))))) ((iotaInDim S64x64 32 1 : (⟨S64x64, .i32⟩ : BufTy).Contents (Elt F))))))))

/-- All pairwise differences of the covariance matrices. -/
def covDiff (cv : (⟨S16x64x64, .f32⟩ : BufTy).Contents (Elt F)) :
    (⟨S16x16x64x64, .f32⟩ : BufTy).Contents (Elt F) :=
  subf (broadcastInDim S16x16x64x64 ![0, 1, 2, 3] bcast_S16x1x64x64_S16x16x64x64_0_1_2_3 (broadcastInDim S16x1x64x64 ![0, 2, 3] bcast_S16x64x64_S16x1x64x64_0_2_3 (cv))) (broadcastInDim S16x16x64x64 ![0, 1, 2, 3] bcast_S1x16x64x64_S16x16x64x64_0_1_2_3 (broadcastInDim S1x16x64x64 ![1, 2, 3] bcast_S16x64x64_S1x16x64x64_1_2_3 (cv)))

/-- Which groups have at least two rows. -/
def valid (n : (⟨S16, .f32⟩ : BufTy).Contents (Elt F)) :
    (⟨S16, .i1⟩ : BufTy).Contents (Elt F) :=
  cmpf .oge (n) (broadcastInDim S16 ![] bcast_S_S16 ((constant S_ .f32 0x40000000#32 : (⟨S_, .f32⟩ : BufTy).Contents (Elt F))))

/-- For each of the 120 pairs i < j, whether both groups are valid. -/
def pairValid (v : (⟨S16, .i1⟩ : BufTy).Contents (Elt F)) :
    (⟨S120, .i1⟩ : BufTy).Contents (Elt F) :=
  andi (Host.gather gather_S16_S120x1_S120_n_0_n_n_0_1_1 (v) (broadcastInDim S120x1 ![0] bcast_S120_S120x1_0 (select ((constantI S120 1 0#1 : (⟨S120, .i1⟩ : BufTy).Contents (Elt F))) (addi ((fun i => lit0 (S120.rowMajor i) : (⟨S120, .i32⟩ : BufTy).Contents (Elt F))) (broadcastInDim S120 ![] bcast_S_S120 ((constantI S_ 32 16#32 : (⟨S_, .i32⟩ : BufTy).Contents (Elt F))))) ((fun i => lit0 (S120.rowMajor i) : (⟨S120, .i32⟩ : BufTy).Contents (Elt F)))))) (Host.gather gather_S16_S120x1_S120_n_0_n_n_0_1_1 (v) (broadcastInDim S120x1 ![0] bcast_S120_S120x1_0 (select ((constantI S120 1 0#1 : (⟨S120, .i1⟩ : BufTy).Contents (Elt F))) (addi ((fun i => lit1 (S120.rowMajor i) : (⟨S120, .i32⟩ : BufTy).Contents (Elt F))) (broadcastInDim S120 ![] bcast_S_S120 ((constantI S_ 32 16#32 : (⟨S_, .i32⟩ : BufTy).Contents (Elt F))))) ((fun i => lit1 (S120.rowMajor i) : (⟨S120, .i32⟩ : BufTy).Contents (Elt F))))))

/-- The number of valid pairs. -/
def pairCount (pv : (⟨S120, .i1⟩ : BufTy).Contents (Elt F)) :
    (⟨S_, .f32⟩ : BufTy).Contents (Elt F) :=
  Host.reduceAdd (uitofp .f32 (pv)) ((constant S_ .f32 0x00000000#32 : (⟨S_, .f32⟩ : BufTy).Contents (Elt F))) reducesTo_S120_S_d0 h_S_

/-- The closing arithmetic as one function of the Gram matrices, the group sums and the counts: the mean over the valid pairs of the Frobenius distance of the regularised covariances, zero when no pair is valid. -/
def closingF (g : (⟨S16x64x64, .f32⟩ : BufTy).Contents (Elt F)) (s : (⟨S16x64, .f32⟩ : BufTy).Contents (Elt F)) (n : (⟨S16, .f32⟩ : BufTy).Contents (Elt F)) :
    (⟨S_, .f32⟩ : BufTy).Contents (Elt F) :=
  select (cmpf .ogt (pairCount (pairValid (valid (n)))) ((constant S_ .f32 0x00000000#32 : (⟨S_, .f32⟩ : BufTy).Contents (Elt F)))) (Host.divf (Host.reduceAdd (select (pairValid (valid (n))) (Host.sqrt (select (pairValid (valid (n))) (Host.gather gather_S16x16_S120x2_S120_n_01_n_n_01_1_11 (Host.reduceAdd (mulf (covDiff (covReg (g) (means (s) (n)) (n))) (covDiff (covReg (g) (means (s) (n)) (n)))) ((constant S_ .f32 0x00000000#32 : (⟨S_, .f32⟩ : BufTy).Contents (Elt F))) reducesTo_S16x16x64x64_S16x16_d2_3 h_S_) (pairCols (broadcastInDim S120x1 ![0] bcast_S120_S120x1_0 (select ((constantI S120 1 0#1 : (⟨S120, .i1⟩ : BufTy).Contents (Elt F))) (addi ((fun i => lit0 (S120.rowMajor i) : (⟨S120, .i32⟩ : BufTy).Contents (Elt F))) (broadcastInDim S120 ![] bcast_S_S120 ((constantI S_ 32 16#32 : (⟨S_, .i32⟩ : BufTy).Contents (Elt F))))) ((fun i => lit0 (S120.rowMajor i) : (⟨S120, .i32⟩ : BufTy).Contents (Elt F))))) (broadcastInDim S120x1 ![0] bcast_S120_S120x1_0 (select ((constantI S120 1 0#1 : (⟨S120, .i1⟩ : BufTy).Contents (Elt F))) (addi ((fun i => lit1 (S120.rowMajor i) : (⟨S120, .i32⟩ : BufTy).Contents (Elt F))) (broadcastInDim S120 ![] bcast_S_S120 ((constantI S_ 32 16#32 : (⟨S_, .i32⟩ : BufTy).Contents (Elt F))))) ((fun i => lit1 (S120.rowMajor i) : (⟨S120, .i32⟩ : BufTy).Contents (Elt F))))))) (broadcastInDim S120 ![] bcast_S_S120 (id ((constant S_ .f32 0x3F800000#32 : (⟨S_, .f32⟩ : BufTy).Contents (Elt F))))))) (broadcastInDim S120 ![] bcast_S_S120 (id ((constant S_ .f32 0x00000000#32 : (⟨S_, .f32⟩ : BufTy).Contents (Elt F)))))) ((constant S_ .f32 0x00000000#32 : (⟨S_, .f32⟩ : BufTy).Contents (Elt F))) reducesTo_S120_S_d0 h_S_) (maximumf (pairCount (pairValid (valid (n)))) ((constant S_ .f32 0x3F800000#32 : (⟨S_, .f32⟩ : BufTy).Contents (Elt F))))) ((constant S_ .f32 0x00000000#32 : (⟨S_, .f32⟩ : BufTy).Contents (Elt F)))

end

/-- The closing arithmetic at the extended reals. -/
def closing (g : FVec Ideal S16x64x64 .f32) (s : FVec Ideal S16x64 .f32) (n : FVec Ideal S16 .f32) : FVec Ideal S_ .f32 :=
  closingF (F := Ideal) g s n

end Cert.KernelIdeal.Tail

end
-- ==== Proof.KiTailAfter.lean ====
/-
  What the last buffer holds after the host operations that follow the region: the closing arithmetic applied to the
  three sums of halves of what the region left in its three result arrays. The fold over the 101 operations is
  computed operation by operation (each operation's result buffer holds its function of its operands' contents, every
  other buffer what it held), and the composed term is the closing arithmetic by unfolding its definition. The fold is first computed with
  the six integer constants left as what the valuation holds for them (the closing arithmetic restated with those six
  as arguments); the hypotheses on the six then give the closing arithmetic itself.
-/
import proofs.«103410_j88596585382423_2_alg».proof.Proof.KiTail
import proofs.«103410_j88596585382423_2_alg».proof.Proof.KiTailDefs
import Idealize.ShloMosaic.Lib.StableHlo.Run

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

open Idealize.ShloMosaic.StableHlo

section
variable {F : FTy → Type} [FloatOps F]

/-- The valid pairs, with the two tables of pair indices and their two all-false masks as arguments. -/
def pairValidAt (c : (⟨S120, .i32⟩ : BufTy).Contents (Elt F)) (c0 : (⟨S120, .i1⟩ : BufTy).Contents (Elt F)) (c1 : (⟨S120, .i32⟩ : BufTy).Contents (Elt F)) (c2 : (⟨S120, .i1⟩ : BufTy).Contents (Elt F))
    (v : (⟨S16, .i1⟩ : BufTy).Contents (Elt F)) : (⟨S120, .i1⟩ : BufTy).Contents (Elt F) :=
  andi (Host.gather gather_S16_S120x1_S120_n_0_n_n_0_1_1 (v) (broadcastInDim S120x1 ![0] bcast_S120_S120x1_0 (select c0 (addi c (broadcastInDim S120 ![] bcast_S_S120 ((constantI S_ 32 16#32 : (⟨S_, .i32⟩ : BufTy).Contents (Elt F))))) c))) (Host.gather gather_S16_S120x1_S120_n_0_n_n_0_1_1 (v) (broadcastInDim S120x1 ![0] bcast_S120_S120x1_0 (select c2 (addi c1 (broadcastInDim S120 ![] bcast_S_S120 ((constantI S_ 32 16#32 : (⟨S_, .i32⟩ : BufTy).Contents (Elt F))))) c1)))

/-- The closing arithmetic, with the two tables of pair indices and their four all-false masks as arguments. -/
def closingAtF (c : (⟨S120, .i32⟩ : BufTy).Contents (Elt F)) (c0 : (⟨S120, .i1⟩ : BufTy).Contents (Elt F)) (c1 : (⟨S120, .i32⟩ : BufTy).Contents (Elt F)) (c2 c3 c4 : (⟨S120, .i1⟩ : BufTy).Contents (Elt F))
    (g : (⟨S16x64x64, .f32⟩ : BufTy).Contents (Elt F)) (s : (⟨S16x64, .f32⟩ : BufTy).Contents (Elt F)) (n : (⟨S16, .f32⟩ : BufTy).Contents (Elt F)) : (⟨S_, .f32⟩ : BufTy).Contents (Elt F) :=
  select (cmpf .ogt (pairCount (pairValidAt c c0 c1 c2 (valid (n)))) ((constant S_ .f32 0x00000000#32 : (⟨S_, .f32⟩ : BufTy).Contents (Elt F)))) (Host.divf (Host.reduceAdd (select (pairValidAt c c0 c1 c2 (valid (n))) (Host.sqrt (select (pairValidAt c c0 c1 c2 (valid (n))) (Host.gather gather_S16x16_S120x2_S120_n_01_n_n_01_1_11 (Host.reduceAdd (mulf (covDiff (covReg (g) (means (s) (n)) (n))) (covDiff (covReg (g) (means (s) (n)) (n)))) ((constant S_ .f32 0x00000000#32 : (⟨S_, .f32⟩ : BufTy).Contents (Elt F))) reducesTo_S16x16x64x64_S16x16_d2_3 h_S_) (pairCols (broadcastInDim S120x1 ![0] bcast_S120_S120x1_0 (select c3 (addi c (broadcastInDim S120 ![] bcast_S_S120 ((constantI S_ 32 16#32 : (⟨S_, .i32⟩ : BufTy).Contents (Elt F))))) c)) (broadcastInDim S120x1 ![0] bcast_S120_S120x1_0 (select c4 (addi c1 (broadcastInDim S120 ![] bcast_S_S120 ((constantI S_ 32 16#32 : (⟨S_, .i32⟩ : BufTy).Contents (Elt F))))) c1)))) (broadcastInDim S120 ![] bcast_S_S120 (id ((constant S_ .f32 0x3F800000#32 : (⟨S_, .f32⟩ : BufTy).Contents (Elt F))))))) (broadcastInDim S120 ![] bcast_S_S120 (id ((constant S_ .f32 0x00000000#32 : (⟨S_, .f32⟩ : BufTy).Contents (Elt F)))))) ((constant S_ .f32 0x00000000#32 : (⟨S_, .f32⟩ : BufTy).Contents (Elt F))) reducesTo_S120_S_d0 h_S_) (maximumf (pairCount (pairValidAt c c0 c1 c2 (valid (n)))) ((constant S_ .f32 0x3F800000#32 : (⟨S_, .f32⟩ : BufTy).Contents (Elt F))))) ((constant S_ .f32 0x00000000#32 : (⟨S_, .f32⟩ : BufTy).Contents (Elt F)))

end

/-- With the six constants at the terms the program stores for them, the restated closing arithmetic is the closing
    arithmetic. -/
theorem closingAtF_consts (g : FVec Ideal S16x64x64 .f32) (s : FVec Ideal S16x64 .f32) (n : FVec Ideal S16 .f32) :
    closingAtF (F := Ideal) (fun i => lit0 (S120.rowMajor i)) (constantI S120 1 0#1) (fun i => lit1 (S120.rowMajor i))
      (constantI S120 1 0#1) (constantI S120 1 0#1) (constantI S120 1 0#1) g s n = closing g s n := rfl

set_option maxHeartbeats 40000000 in
/-- After the six stretches, the result buffer holds the restated closing arithmetic of the three sums of halves, at
    what the valuation holds for the six constants. -/
theorem after_tail' (W : Valuation τ sig (Elt Ideal)) :
    StableHlo.after (tailOpss (F := Ideal)).flatten W (Proc.devRef .tc main_v77)
      = closingAtF (F := Ideal) (W (Proc.devRef .tc main_c)) (W (Proc.devRef .tc main_c_0)) (W (Proc.devRef .tc main_c_1))
          (W (Proc.devRef .tc main_c_2)) (W (Proc.devRef .tc main_c_3)) (W (Proc.devRef .tc main_c_4))
          (halvesG (W (Proc.devRef .tc main_v1_0))) (halvesS (W (Proc.devRef .tc main_v1_1)))
          (halvesN (W (Proc.devRef .tc main_v1_2))) := by
  simp only [tailOpss, hostOps1, hostOps1_1, hostOps1_2, hostOps1_3, hostOps1_4, hostOps1_5, List.flatten_cons,
    List.flatten_nil, List.append_nil, List.cons_append, List.nil_append]
  after_results_simp
  rfl

/-- The same with the six constants named: whatever the valuation holds for them. -/
theorem after_tail_at (W : Valuation τ sig (Elt Ideal))
    (c : (⟨S120, .i32⟩ : BufTy).Contents (Elt Ideal)) (c0 : (⟨S120, .i1⟩ : BufTy).Contents (Elt Ideal)) (c1 : (⟨S120, .i32⟩ : BufTy).Contents (Elt Ideal)) (c2 c3 c4 : (⟨S120, .i1⟩ : BufTy).Contents (Elt Ideal))
    (hc : W (Proc.devRef .tc main_c) = c) (hc0 : W (Proc.devRef .tc main_c_0) = c0)
    (hc1 : W (Proc.devRef .tc main_c_1) = c1) (hc2 : W (Proc.devRef .tc main_c_2) = c2)
    (hc3 : W (Proc.devRef .tc main_c_3) = c3) (hc4 : W (Proc.devRef .tc main_c_4) = c4) :
    StableHlo.after (tailOpss (F := Ideal)).flatten W (Proc.devRef .tc main_v77)
      = closingAtF (F := Ideal) c c0 c1 c2 c3 c4
          (halvesG (W (Proc.devRef .tc main_v1_0))) (halvesS (W (Proc.devRef .tc main_v1_1)))
          (halvesN (W (Proc.devRef .tc main_v1_2))) := by
  subst hc hc0 hc1 hc2 hc3 hc4
  exact after_tail' W

/-- After the six stretches, the result buffer holds the closing arithmetic of the three sums of halves. -/
theorem after_tail (W : Valuation τ sig (Elt Ideal))
    (hc : W (Proc.devRef .tc main_c) = fun i => lit0 (S120.rowMajor i))
    (hc0 : W (Proc.devRef .tc main_c_0) = constantI S120 1 0#1)
    (hc1 : W (Proc.devRef .tc main_c_1) = fun i => lit1 (S120.rowMajor i))
    (hc2 : W (Proc.devRef .tc main_c_2) = constantI S120 1 0#1)
    (hc3 : W (Proc.devRef .tc main_c_3) = constantI S120 1 0#1)
    (hc4 : W (Proc.devRef .tc main_c_4) = constantI S120 1 0#1) :
    StableHlo.after (tailOpss (F := Ideal)).flatten W (Proc.devRef .tc main_v77)
      = closing (halvesG (W (Proc.devRef .tc main_v1_0))) (halvesS (W (Proc.devRef .tc main_v1_1)))
          (halvesN (W (Proc.devRef .tc main_v1_2))) :=
  (after_tail_at W _ _ _ _ _ _ hc hc0 hc1 hc2 hc3 hc4).trans (closingAtF_consts _ _ _)

end Cert.KernelIdeal.Tail

end
-- ==== Proof.KiAlgTail.lean ====
/-
  The program's result read off its frame run. After the region the closing host lines run from the buffer
  contents in which the pipeline's five arrays hold what the region left and every other buffer what it held at
  the region's entry; the six constant tables among these were written by the lines before the region. So the
  result buffer ends at the closing arithmetic applied to the sums over the two halves of the three output arrays.
-/
import proofs.«103410_j88596585382423_2_alg».proof.Proof.KiMain
import proofs.«103410_j88596585382423_2_alg».proof.Proof.KiTailAfter

set_option maxRecDepth 16384

noncomputable section

namespace Cert.KernelIdeal.Alg

open Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The pipeline's arrays after the region. -/
abbrev arrs (c : Dev nD) (w : Fin cfg0.W) := (dats (F := Ideal) m 0 c).arrAt w cfg0.N
/-- The buffer contents the closing lines run from. -/
abbrev Wv (c : Dev nD) : Valuation τ sig (Elt Ideal) := Pipeline.withArrays spec0 c (V0 m c) (arrs m c)

theorem V0_main_c (c : Dev nD) : V0 m c (Proc.devRef .tc main_c) = fun i => lit0 (S120.rowMajor i) := by
  dsimp only [V0]
  simp only [hostOps0, List.flatten_cons, List.flatten_nil, List.append_nil, List.cons_append, List.nil_append]
  after_results
  rfl
theorem Wv_main_c (c : Dev nD) : Wv m c (Proc.devRef .tc main_c) = fun i => lit0 (S120.rowMajor i) :=
  (Pipeline.withArrays_of_ne spec0 c (V0 m c) _ main_c (by decide)).trans (V0_main_c m c)
theorem V0_main_c_0 (c : Dev nD) : V0 m c (Proc.devRef .tc main_c_0) = constantI S120 1 0#1 := by
  dsimp only [V0]
  simp only [hostOps0, List.flatten_cons, List.flatten_nil, List.append_nil, List.cons_append, List.nil_append]
  after_results
theorem Wv_main_c_0 (c : Dev nD) : Wv m c (Proc.devRef .tc main_c_0) = constantI S120 1 0#1 :=
  (Pipeline.withArrays_of_ne spec0 c (V0 m c) _ main_c_0 (by decide)).trans (V0_main_c_0 m c)
theorem V0_main_c_1 (c : Dev nD) : V0 m c (Proc.devRef .tc main_c_1) = fun i => lit1 (S120.rowMajor i) := by
  dsimp only [V0]
  simp only [hostOps0, List.flatten_cons, List.flatten_nil, List.append_nil, List.cons_append, List.nil_append]
  after_results
  rfl
theorem Wv_main_c_1 (c : Dev nD) : Wv m c (Proc.devRef .tc main_c_1) = fun i => lit1 (S120.rowMajor i) :=
  (Pipeline.withArrays_of_ne spec0 c (V0 m c) _ main_c_1 (by decide)).trans (V0_main_c_1 m c)
theorem V0_main_c_2 (c : Dev nD) : V0 m c (Proc.devRef .tc main_c_2) = constantI S120 1 0#1 := by
  dsimp only [V0]
  simp only [hostOps0, List.flatten_cons, List.flatten_nil, List.append_nil, List.cons_append, List.nil_append]
  after_results
theorem Wv_main_c_2 (c : Dev nD) : Wv m c (Proc.devRef .tc main_c_2) = constantI S120 1 0#1 :=
  (Pipeline.withArrays_of_ne spec0 c (V0 m c) _ main_c_2 (by decide)).trans (V0_main_c_2 m c)
theorem V0_main_c_3 (c : Dev nD) : V0 m c (Proc.devRef .tc main_c_3) = constantI S120 1 0#1 := by
  dsimp only [V0]
  simp only [hostOps0, List.flatten_cons, List.flatten_nil, List.append_nil, List.cons_append, List.nil_append]
  after_results
theorem Wv_main_c_3 (c : Dev nD) : Wv m c (Proc.devRef .tc main_c_3) = constantI S120 1 0#1 :=
  (Pipeline.withArrays_of_ne spec0 c (V0 m c) _ main_c_3 (by decide)).trans (V0_main_c_3 m c)
theorem V0_main_c_4 (c : Dev nD) : V0 m c (Proc.devRef .tc main_c_4) = constantI S120 1 0#1 := by
  dsimp only [V0]
  simp only [hostOps0, List.flatten_cons, List.flatten_nil, List.append_nil, List.cons_append, List.nil_append]
  after_results
theorem Wv_main_c_4 (c : Dev nD) : Wv m c (Proc.devRef .tc main_c_4) = constantI S120 1 0#1 :=
  (Pipeline.withArrays_of_ne spec0 c (V0 m c) _ main_c_4 (by decide)).trans (V0_main_c_4 m c)

theorem Wv_out2 (c : Dev nD) : Wv m c (Proc.devRef .tc main_v1_0) = arrs m c 2 := Pipeline.withArrays_arr spec0 launch0.win.arr_inj c _ _ 2
theorem Wv_out3 (c : Dev nD) : Wv m c (Proc.devRef .tc main_v1_1) = arrs m c 3 := Pipeline.withArrays_arr spec0 launch0.win.arr_inj c _ _ 3
theorem Wv_out4 (c : Dev nD) : Wv m c (Proc.devRef .tc main_v1_2) = arrs m c 4 := Pipeline.withArrays_arr spec0 launch0.win.arr_inj c _ _ 4

/-- What the closing lines leave in the result buffer. -/
theorem tail_value (c : Dev nD) :
    Pipeline.afterTail₀ cfgs (dats (F := Ideal) m) 0 (V0 m) tailOpss c main_v77
      = Cert.KernelIdeal.Tail.closing (Cert.KernelIdeal.Tail.halvesG (arrs m c 2)) (Cert.KernelIdeal.Tail.halvesS (arrs m c 3)) (Cert.KernelIdeal.Tail.halvesN (arrs m c 4)) := by
  have h := Cert.KernelIdeal.Tail.after_tail (Wv m c) (Wv_main_c m c) (Wv_main_c_0 m c) (Wv_main_c_1 m c) (Wv_main_c_2 m c) (Wv_main_c_3 m c) (Wv_main_c_4 m c)
  rw [Wv_out2, Wv_out3, Wv_out4] at h
  exact h

/-- The program runs; its result is the closing arithmetic of the three arrays' sums over the halves; its arguments
    end unchanged. -/
theorem result : θ_run defs (onTc (τ := τ) (main (F := Ideal))) ⟨m, fun _ => 0, ρ⟩ (fun r => ∀ c : Dev nD,
      r.2.mem ((c.tc : Thread nD τ).loc main_v77)
        = Cert.KernelIdeal.Tail.closing (Cert.KernelIdeal.Tail.halvesG (arrs m c 2)) (Cert.KernelIdeal.Tail.halvesS (arrs m c 3)) (Cert.KernelIdeal.Tail.halvesN (arrs m c 4))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v77 (Pipeline.mem_restRefs_of main_v77 (by decide) (by decide))).trans (tail_value m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Alg

end
-- ==== Proof.KiTailHalves.lean ====
/-
  The three sums of halves read at an index: a host sum over a leading axis of extent two, from the zero scalar, is
  at each index the two entries added (the zero scalar is the extended real zero, and the sum over the two
  coordinates of the axis is the sum of the two terms); the counts' reshape from [1,16] to [16] reads the entry at
  the unit coordinate.
-/
import proofs.«103410_j88596585382423_2_alg».proof.Proof.KiTailDefs
import Idealize.ShloMosaic.PureOps.Ideal.Laws
import Idealize.ShloMosaic.Lib.IdealHost
import Idealize.ShloMosaic.Lib.ValueLayout

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

open Idealize.ShloMosaic.ValueIdx
open scoped BigOperators

/-- Over a rank-4 array reduced along its leading axis, the source index above (a, b, c) with leading coordinate k is
    (k, a, b, c). -/
theorem lift_lead4 {n0 n1 n2 n3 : Nat} (h : (⟨4, ![n0, n1, n2, n3]⟩ : Shape).Reduces [0] ⟨3, ![n1, n2, n3]⟩)
    (k : Fin n0) (a : Fin n1) (b : Fin n2) (c : Fin n3) : h.lift (ix3 a b c) k = ix4 k a b c := by
  funext e
  match e with
  | ⟨0, _⟩ => exact Fin.ext rfl
  | ⟨1, _⟩ => exact Fin.ext rfl
  | ⟨2, _⟩ => exact Fin.ext rfl
  | ⟨3, _⟩ => exact Fin.ext rfl

/-- The same at rank 3. -/
theorem lift_lead3 {n0 n1 n2 : Nat} (h : (⟨3, ![n0, n1, n2]⟩ : Shape).Reduces [0] ⟨2, ![n1, n2]⟩)
    (k : Fin n0) (a : Fin n1) (b : Fin n2) : h.lift (ix2 a b) k = ix3 k a b := by
  funext e
  match e with
  | ⟨0, _⟩ => exact Fin.ext rfl
  | ⟨1, _⟩ => exact Fin.ext rfl
  | ⟨2, _⟩ => exact Fin.ext rfl

/-- The Gram sums at (s, a, b): the two halves' entries added. -/
theorem halvesG_apply (g : FVec Ideal S2x16x64x64 .f32) (s : Fin 16) (a b : Fin 64) :
    halvesG g (ix3 s a b) = g (ix4 0 s a b) + g (ix4 1 s a b) := by
  have h : S2x16x64x64.Reduces [0] S16x64x64 := by decide
  unfold halvesG
  rw [hostReduceAdd_apply]
  refine (Ideal.hostReduceAdd_single reducesTo_S2x16x64x64_S16x64x64_d0 h g _ (ix3 s a b)).trans ?_
  show (Ideal.ofBits .f32 0x00000000#32 : EReal) + ∑ k : Fin 2, g (h.lift (ix3 s a b) k) = _
  rw [Ideal.ofBits_zero_f32, zero_add, Fin.sum_univ_two, lift_lead4, lift_lead4]

/-- The group sums at (s, d): the two halves' entries added. -/
theorem halvesS_apply (v : FVec Ideal S2x16x64 .f32) (s : Fin 16) (d : Fin 64) :
    halvesS v (ix2 s d) = v (ix3 0 s d) + v (ix3 1 s d) := by
  have h : S2x16x64.Reduces [0] S16x64 := by decide
  unfold halvesS
  rw [hostReduceAdd_apply]
  refine (Ideal.hostReduceAdd_single reducesTo_S2x16x64_S16x64_d0 h v _ (ix2 s d)).trans ?_
  show (Ideal.ofBits .f32 0x00000000#32 : EReal) + ∑ k : Fin 2, v (h.lift (ix2 s d) k) = _
  rw [Ideal.ofBits_zero_f32, zero_add, Fin.sum_univ_two, lift_lead3, lift_lead3]

/-- The counts at s: the two halves' entries added. -/
theorem halvesN_apply (n : FVec Ideal S2x1x16 .f32) (s : Fin 16) :
    halvesN n (ix1 s) = n (ix3 0 0 s) + n (ix3 1 0 s) := by
  have h : S2x1x16.Reduces [0] S1x16 := by decide
  unfold halvesN
  refine (shapeCast_1a_a_apply _ shapeCasts_S1x16_S16 s).trans ?_
  rw [hostReduceAdd_apply]
  refine (Ideal.hostReduceAdd_single reducesTo_S2x1x16_S1x16_d0 h n _ (ix2 (0 : Fin 1) s)).trans ?_
  show (Ideal.ofBits .f32 0x00000000#32 : EReal) + ∑ k : Fin 2, n (h.lift (ix2 (0 : Fin 1) s) k) = _
  rw [Ideal.ofBits_zero_f32, zero_add, Fin.sum_univ_two, lift_lead3, lift_lead3]

end Cert.KernelIdeal.Tail

end
-- ==== Proof.Spec.lean ====
/-
  The three statistics both programs compute from the embeddings `x` (524288 rows of 64 extended reals) and the
  subject-id words `sid` (one 32-bit word per row), before the shared closing arithmetic:

  * `oneHot sid n s` — row `n`'s membership weight in subject `s`: 1 when the row's id word is the word of `s`, else 0;
  * `count sid s` — the number of rows of subject `s`, as the sum of the weights;
  * `groupSum x sid s d` — the sum over the rows of weight times coordinate `d`;
  * `gram x sid s a b` — the sum over the rows of `x n a * (x n b * weight)`: subject `s`'s Gram matrix.

  Everything is over literal extents; indices are built by coordinates.
-/
import Idealize.ShloMosaic.PureOps.Ideal
import Idealize.ShloMosaic.Lib.ValueIdx

noncomputable section

open scoped BigOperators

namespace Cert.Spec

open Idealize.ShloMosaic Idealize.ShloMosaic.ValueIdx

/-- The embeddings: 524288 rows of 64 extended reals. -/
abbrev Emb : Type := FVec Ideal ⟨2, ![524288, 64]⟩ .f32
/-- The subject ids: one 32-bit word per row. -/
abbrev Ids : Type := IVec ⟨1, ![524288]⟩ 32

/-- Row `n`'s weight in subject `s`: 1 when the row's id word is the word of `s`, else 0. -/
def oneHot (sid : Ids) (n : Fin 524288) (s : Fin 16) : EReal :=
  if sid (ix1 n) = BitVec.ofNat 32 s.val then 1 else 0

/-- The number of rows of subject `s`. -/
def count (sid : Ids) (s : Fin 16) : EReal := ∑ n : Fin 524288, oneHot sid n s

/-- The sum of coordinate `d` over the rows of subject `s`. -/
def groupSum (x : Emb) (sid : Ids) (s : Fin 16) (d : Fin 64) : EReal :=
  ∑ n : Fin 524288, oneHot sid n s * x (ix2 n d)

/-- Entry `(a, b)` of subject `s`'s Gram matrix. -/
def gram (x : Emb) (sid : Ids) (s : Fin 16) (a b : Fin 64) : EReal :=
  ∑ n : Fin 524288, x (ix2 n a) * (x (ix2 n b) * oneHot sid n s)

end Cert.Spec

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KiPayHot.lean ====
/-
  The weights of one block of rows, read at an index.

  A block holds 4096 rows and their 4096 subject-id words, the words laid out as a [32, 128] array in row-major order:
  row `r` of the block has the word at `(r / 128, r % 128)`. The weight of row `r` in subject `s` is 1 when that word is
  the word of `s` and 0 otherwise. The body builds the [4096, 16] array of weights by viewing the words as a [4096, 1]
  column, repeating the column along 16 columns, comparing with the column number, and converting the one-bit answer to
  a float: an integer 0 or 1 read exactly. A change of float format is the identity on the extended reals, so the
  narrower copy of the weights, and of the rows, read the same.
-/
import proofs.«103410_j88596585382423_2_alg».proof.Proof.Gen.KernelIdeal.Skeleton
import proofs.«103410_j88596585382423_2_alg».proof.Proof.Spec
import proofs.«103410_j88596585382423_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Row `r`'s weight in subject `s`, read off the block of id words. -/
def hot (v5 : Vec Ideal S32x128 .i32) (r : Fin 4096) (s : Fin 16) : EReal :=
  if v5 (ix2 (⟨r.val / 128, by omega⟩ : Fin 32) (⟨r.val % 128, by omega⟩ : Fin 128)) = BitVec.ofNat 32 s.val then 1 else 0

/-- A one-bit comparison answer, widened to a word and read as a signed integer, is 1 or 0. -/
theorem eq_word_toReal (a b : BitVec 32) :
    ((((IntOp.cmpi .eq a b).setWidth 32).toInt : ℝ) : EReal) = if a = b then 1 else 0 := by
  by_cases h : a = b
  · subst h
    have e : IntOp.cmpi .eq a a = 1#1 := IntOp.cmpi_eq.mpr rfl
    rw [e, if_pos rfl]
    have : ((1#1 : BitVec 1).setWidth 32).toInt = 1 := by decide
    rw [this]; simp
  · have e : IntOp.cmpi .eq a b = 0#1 := eq_zero_of_ne_one (fun hh => h (IntOp.cmpi_eq.mp hh))
    rw [e, if_neg h]
    have : ((0#1 : BitVec 1).setWidth 32).toInt = 0 := by decide
    rw [this]; simp

/-- The id words viewed as a column: row `r` of the column is the word at `(r / 128, r % 128)`. -/
theorem idcol_apply (v5 : IVec S32x128 32) (h1 : S32x128.ShapeCasts S32x128) (h2 : S32x128.ShapeCasts S4096x1)
    (r : Fin 4096) (u : Fin 1) :
    shapeCast S4096x1 (shapeCast S32x128 v5 h1) h2 (ix2 r u)
      = v5 (ix2 (⟨r.val / 128, by omega⟩ : Fin 32) (⟨r.val % 128, by omega⟩ : Fin 128)) := by
  rw [shapeCast_self]
  refine shapeCast_apply v5 h2 _ _ ?_
  rw [Shape.rowMajor_val_two, Shape.rowMajor_val_two]
  show r.val / 128 * 128 + r.val % 128 = r.val * 1 + u.val
  omega

/-- The weights at full width. -/
theorem pay11_apply (v5 : Vec Ideal S32x128 .i32) (r : Fin 4096) (s : Fin 16) :
    k0_pay11 (F := Ideal) v5 (ix2 r s) = hot v5 r s := by
  unfold k0_pay11 hot
  refine (eq_word_toReal _ _).trans ?_
  have e1 : broadcastTo S4096x16 (shapeCast S4096x1 (shapeCast S32x128 (v5 : IVec S32x128 32) Facts₀.shapeCasts_S32x128_S32x128)
        Facts₀.shapeCasts_S32x128_S4096x1) Facts₀.broadcasts_S4096x1_S4096x16 (ix2 r s)
      = v5 (ix2 (⟨r.val / 128, by omega⟩ : Fin 32) (⟨r.val % 128, by omega⟩ : Fin 128)) :=
    (Cert.ColumnLayout.broadcastTo_a1_ab_apply _ _ r s).trans (idcol_apply v5 _ _ r 0)
  have e2 : broadcastTo S4096x16 (iota .tc S1x16 32 [1] Facts₀.iota_S1x16_d1_w32) Facts₀.broadcasts_S1x16_S4096x16 (ix2 r s)
      = BitVec.ofNat 32 s.val :=
    (broadcastTo_1b_ab_apply _ _ r s).trans (iota_single_apply .tc S1x16 32 1 _ _)
  rw [e1, e2]

/-- The weights at the narrower format: the same numbers. -/
theorem pay12_apply (v5 : Vec Ideal S32x128 .i32) (r : Fin 4096) (s : Fin 16) :
    k0_pay12 (F := Ideal) v5 (ix2 r s) = hot v5 r s :=
  pay11_apply v5 r s

/-- The rows at the narrower format: the same numbers. -/
theorem pay10_apply (v3 : Vec Ideal S4096x64 .f32) (r : Fin 4096) (d : Fin 64) :
    k0_pay10 (F := Ideal) v3 (ix2 r d) = v3 (ix2 r d) := rfl

/-- The narrower weights are the full-width weights, as arrays. -/
theorem pay12_eq (v5 : Vec Ideal S32x128 .i32) : k0_pay12 (F := Ideal) v5 = k0_pay11 (F := Ideal) v5 := rfl

/-- The narrower rows are the rows, as arrays. -/
theorem pay10_eq (v3 : Vec Ideal S4096x64 .f32) : k0_pay10 (F := Ideal) v3 = v3 := rfl

end Cert.KernelIdeal.Pay

end
-- ==== Proof.LibDotColCol.lean ====
/-
  A columns-by-columns contraction read as a plain sum.

  Take operands of shapes [K, A] and [K, B] and a result of shape [A, B], with dimension numbers that say: no batch
  axes; each operand keeps its axis 1; axis 0 of the left is contracted against axis 0 of the right. This is the
  product `xᵀ y`: the contraction's own index set is a one-axis shape of extent K, and the sum over it of
  `x (left index) * y (right index)` at the result index (p, q) is `∑ k < K, x (k, p) * y (k, q)`: on its kept axis
  each operand reads the result's coordinate (the left the row `p`, the right the column `q`), on its contracted
  axis the contraction's one coordinate.

  Stated for ANY record with these dimension numbers and for any K, A, B. The last theorem reads a matrix product
  unit's result into the zero splat at the ideal values, where it is the accumulator's entry (zero) plus that sum,
  whatever the operands' formats and the contraction precision.
-/
import Idealize.ShloMosaic.Lib.ValueIdx
import Idealize.ShloMosaic.PureOps.Ideal.Laws

open scoped BigOperators

namespace Cert.DotColCol

open Idealize.ShloMosaic Idealize.ShloMosaic.ValueIdx

variable {K A B : Nat} (d : DotDims ⟨2, ![K, A]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 1) the left operand's index is the result's row coordinate: with no batch axis, the
    left operand's one kept axis is the result's axis 0. -/
theorem lhs_kept (hlb : d.lhsBatch = []) (hln : d.lhsNonContracting = [1])
    (j : (⟨2, ![A, B]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_kept (hlb : d.lhsBatch = []) (hln : d.lhsNonContracting = [1]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products down column `p` of the left and column `q` of the right. -/
theorem sum_eq (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K)
    (x : (⟨2, ![K, A]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 k p) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact lhs_kept d hlb hln _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_kept d hlb hln hrb hrn _ _)
  rw [el, er]

/-- The product `xᵀ y` into the zero splat, at `(p, q)`, at the ideal values: for any record with the
    columns-by-columns dimension numbers, any operand formats and any contraction precision. -/
theorem matmul_zero_apply {φ₁ φ₂ : FTy} (hlb : d.lhsBatch = []) (hln : d.lhsNonContracting = [1]) (hlc : d.lhsContracting = [0])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![K, A]⟩ φ₁) (y : FVec Ideal ⟨2, ![K, B]⟩ φ₂) (p : Fin A) (q : Fin B) :
    FloatOps.matmul d prec x y (constant (F := Ideal) ⟨2, ![A, B]⟩ .f32 0x00000000#32) (ix2 p q) = ∑ k : Fin K, x (ix2 k p) * y (ix2 k q) :=
  (Ideal.matmul_constant_zero_apply d prec x y (ix2 p q)).trans (sum_eq d hlb hln hlc hrb hrn hrc hr hs x y p q)

end Cert.DotColCol
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.KiPayAcc.lean ====
/-
  The three accumulator steps of one block of rows, read at an index.

  With `w r s` the weight of row `r` in subject `s` and `x r d` coordinate `d` of row `r`:
  * the count step adds to the running count of subject `s` the column sum `∑ r, w r s` of the weights;
  * the sums step adds to entry `(s, d)` of the running sums the product `wᵀ x` at `(s, d)`, `∑ r, w r s * x r d`;
  * the Gram step adds to entry `(q, d)` of the running [1024, 64] accumulator the product `yᵀ x` at `(q, d)`,
    `∑ r, y r q * x r d`, where `y` is the [4096, 1024] array of weighted rows.
  Each product is taken into a zero accumulator, which contributes nothing.
-/
import proofs.«103410_j88596585382423_2_alg».proof.Proof.Gen.KernelIdeal.Skeleton
import proofs.«103410_j88596585382423_2_alg».proof.Proof.Spec
import proofs.«103410_j88596585382423_2_alg».proof.Proof.KiPayHot
import proofs.«103410_j88596585382423_2_alg».proof.Proof.LibDotColCol
import proofs.«103410_j88596585382423_2_alg».proof.Proof.LibColumnSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The count step: the running count of subject `s` plus the block's column sum of the weights. -/
theorem pay13_apply (v5 : Vec Ideal S32x128 .i32) (v18 : Vec Ideal S1x16 .f32) (s : Fin 16) :
    k0_pay13 (F := Ideal) v5 v18 (ix2 (0 : Fin 1) s) = v18 (ix2 (0 : Fin 1) s) + ∑ r : Fin 4096, hot v5 r s := by
  unfold k0_pay13
  refine (congrFun (shapeCast_self _ _) _).trans ?_
  rw [addf_apply]
  refine congrArg (v18 (ix2 (0 : Fin 1) s) + ·) ?_
  refine (shapeCast_a_1a_apply _ _ (0 : Fin 1) s).trans ?_
  refine (Cert.LibColumnSums.multiReduction_add_rows_apply (k0_pay11 (F := Ideal) v5) _ _ _ _ s).trans ?_
  exact Finset.sum_congr rfl fun r _ => pay11_apply v5 r s

/-- The sums step: entry `(s, d)` of the running sums plus `∑ r, w r s * x r d`. -/
theorem pay14_apply (v3 : Vec Ideal S4096x64 .f32) (v5 : Vec Ideal S32x128 .i32) (v24 : Vec Ideal S16x64 .f32)
    (s : Fin 16) (d : Fin 64) :
    k0_pay14 (F := Ideal) v3 v5 v24 (ix2 s d) = v24 (ix2 s d) + ∑ r : Fin 4096, hot v5 r s * v3 (ix2 r d) := by
  unfold k0_pay14
  refine (congrFun (shapeCast_self _ _) _).trans ?_
  rw [addf_apply]
  refine congrArg (v24 (ix2 s d) + ·) ?_
  refine (Cert.DotColCol.matmul_zero_apply dot_S4096x16_S4096x64_S16x64_0_0_1_1_n_n rfl rfl rfl rfl rfl rfl rfl rfl none
    (k0_pay12 (F := Ideal) v5) (k0_pay10 (F := Ideal) v3) s d).trans ?_
  exact Finset.sum_congr rfl fun r _ => by rw [pay12_apply, pay10_apply]

/-- The Gram step: entry `(q, d)` of the running accumulator plus `∑ r, y r q * x r d`. -/
theorem pay3_apply (v4 : FVec Ideal S4096x64 .bf16) (v125 : Vec Ideal S4096x1024 .bf16) (v127 : Vec Ideal S1024x64 .f32)
    (q : Fin 1024) (d : Fin 64) :
    k0_pay3 (F := Ideal) v4 v125 v127 (ix2 q d) = v127 (ix2 q d) + ∑ r : Fin 4096, v125 (ix2 r q) * v4 (ix2 r d) := by
  unfold k0_pay3
  refine (congrFun (shapeCast_self _ _) _).trans ?_
  rw [addf_apply]
  refine congrArg (v127 (ix2 q d) + ·) ?_
  exact Cert.DotColCol.matmul_zero_apply dot_S4096x1024_S4096x64_S1024x64_0_0_1_1_n_n rfl rfl rfl rfl rfl rfl rfl rfl none
    (v125 : FVec Ideal S4096x1024 .bf16) v4 q d

end Cert.KernelIdeal.Pay

end
-- ==== Proof.KiPayXw.lean ====
/-
  The sixteen weighted copies of a block's rows, read at an index.

  For each subject `s` (sixteen of them) the body stores, into columns `64 s … 64 s + 63` of a [4096, 1024] array, the
  block's rows each multiplied by its weight in subject `s`: entry `(r, j)` of the stored piece is `x r j * w r s`. The
  weight is read by cutting column `s` out of the [4096, 16] array of weights and repeating it along the 64 columns.
-/
import proofs.«103410_j88596585382423_2_alg».proof.Proof.Gen.KernelIdeal.Skeleton
import proofs.«103410_j88596585382423_2_alg».proof.Proof.Spec
import proofs.«103410_j88596585382423_2_alg».proof.Proof.KiPayHot
import proofs.«103410_j88596585382423_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Rows times one column of the weights: entry `(r, j)` is the row's entry times the row's weight in column `k`. -/
theorem weighted_apply (v4 : FVec Ideal S4096x64 .bf16) (v14 : FVec Ideal S4096x16 .bf16) (o : ℕ)
    (hs : S4096x16.Slices ![0, o] S4096x1) (hb : S4096x1.Broadcasts S4096x64) (hc : S4096x64.ShapeCasts S4096x64)
    (r : Fin 4096) (j : Fin 64) (k : Fin 16) (hk : k.val = o) :
    shapeCast S4096x64 (mulf v4 (broadcastTo S4096x64 (extractStridedSlice S4096x1 ![0, o] v14 hs) hb)) hc (ix2 r j)
      = v4 (ix2 r j) * v14 (ix2 r k) := by
  rw [shapeCast_self, mulf_apply]
  refine congrArg (v4 (ix2 r j) * ·) ?_
  refine (Cert.ColumnLayout.broadcastTo_a1_ab_apply _ hb r j).trans ?_
  exact slice2_axis1_apply o v14 hs r (0 : Fin 1) k (by rw [hk]; rfl)

/-- With the rows and the weights of the block put in. -/
theorem weighted_block (v3 : Vec Ideal S4096x64 .f32) (v5 : Vec Ideal S32x128 .i32) (r : Fin 4096) (j : Fin 64) (k : Fin 16) :
    k0_pay10 (F := Ideal) v3 (ix2 r j) * k0_pay12 (F := Ideal) v5 (ix2 r k) = v3 (ix2 r j) * hot v5 r k := by
  rw [pay10_apply, pay12_apply]

/-- The piece stored at column offset 0: the rows weighted by subject 0. -/
theorem xw0_apply (v3 : Vec Ideal S4096x64 .f32) (v5 : Vec Ideal S32x128 .i32) (r : Fin 4096) (j : Fin 64) :
    k0_pay15 (F := Ideal) v3 v5 (ix2 r j) = v3 (ix2 r j) * hot v5 r (⟨0, by omega⟩ : Fin 16) := by
  unfold k0_pay15
  exact (weighted_apply (k0_pay10 (F := Ideal) v3) (k0_pay12 (F := Ideal) v5) 0 _ _ _ r j (⟨0, by omega⟩ : Fin 16) rfl).trans
    (weighted_block v3 v5 r j _)

/-- The piece stored at column offset 64: the rows weighted by subject 1. -/
theorem xw1_apply (v3 : Vec Ideal S4096x64 .f32) (v5 : Vec Ideal S32x128 .i32) (r : Fin 4096) (j : Fin 64) :
    k0_pay17 (F := Ideal) (k0_pay10 v3) (k0_pay16 v5) (ix2 r j) = v3 (ix2 r j) * hot v5 r (⟨1, by omega⟩ : Fin 16) := by
  unfold k0_pay17 k0_pay16
  exact (weighted_apply (k0_pay10 (F := Ideal) v3) (k0_pay12 (F := Ideal) v5) 1 _ _ _ r j (⟨1, by omega⟩ : Fin 16) rfl).trans
    (weighted_block v3 v5 r j _)

/-- The piece stored at column offset 128: the rows weighted by subject 2. -/
theorem xw2_apply (v3 : Vec Ideal S4096x64 .f32) (v5 : Vec Ideal S32x128 .i32) (r : Fin 4096) (j : Fin 64) :
    k0_pay18 (F := Ideal) (k0_pay10 v3) (k0_pay12 v5) (ix2 r j) = v3 (ix2 r j) * hot v5 r (⟨2, by omega⟩ : Fin 16) := by
  unfold k0_pay18
  exact (weighted_apply (k0_pay10 (F := Ideal) v3) (k0_pay12 (F := Ideal) v5) 2 _ _ _ r j (⟨2, by omega⟩ : Fin 16) rfl).trans
    (weighted_block v3 v5 r j _)

/-- The piece stored at column offset 192: the rows weighted by subject 3. -/
theorem xw3_apply (v3 : Vec Ideal S4096x64 .f32) (v5 : Vec Ideal S32x128 .i32) (r : Fin 4096) (j : Fin 64) :
    k0_pay19 (F := Ideal) (k0_pay10 v3) (k0_pay12 v5) (ix2 r j) = v3 (ix2 r j) * hot v5 r (⟨3, by omega⟩ : Fin 16) := by
  unfold k0_pay19
  exact (weighted_apply (k0_pay10 (F := Ideal) v3) (k0_pay12 (F := Ideal) v5) 3 _ _ _ r j (⟨3, by omega⟩ : Fin 16) rfl).trans
    (weighted_block v3 v5 r j _)

/-- The piece stored at column offset 256: the rows weighted by subject 4. -/
theorem xw4_apply (v3 : Vec Ideal S4096x64 .f32) (v5 : Vec Ideal S32x128 .i32) (r : Fin 4096) (j : Fin 64) :
    k0_pay20 (F := Ideal) (k0_pay10 v3) (k0_pay12 v5) (ix2 r j) = v3 (ix2 r j) * hot v5 r (⟨4, by omega⟩ : Fin 16) := by
  unfold k0_pay20
  exact (weighted_apply (k0_pay10 (F := Ideal) v3) (k0_pay12 (F := Ideal) v5) 4 _ _ _ r j (⟨4, by omega⟩ : Fin 16) rfl).trans
    (weighted_block v3 v5 r j _)

/-- The piece stored at column offset 320: the rows weighted by subject 5. -/
theorem xw5_apply (v3 : Vec Ideal S4096x64 .f32) (v5 : Vec Ideal S32x128 .i32) (r : Fin 4096) (j : Fin 64) :
    k0_pay21 (F := Ideal) (k0_pay10 v3) (k0_pay12 v5) (ix2 r j) = v3 (ix2 r j) * hot v5 r (⟨5, by omega⟩ : Fin 16) := by
  unfold k0_pay21
  exact (weighted_apply (k0_pay10 (F := Ideal) v3) (k0_pay12 (F := Ideal) v5) 5 _ _ _ r j (⟨5, by omega⟩ : Fin 16) rfl).trans
    (weighted_block v3 v5 r j _)

/-- The piece stored at column offset 384: the rows weighted by subject 6. -/
theorem xw6_apply (v3 : Vec Ideal S4096x64 .f32) (v5 : Vec Ideal S32x128 .i32) (r : Fin 4096) (j : Fin 64) :
    k0_pay22 (F := Ideal) (k0_pay10 v3) (k0_pay12 v5) (ix2 r j) = v3 (ix2 r j) * hot v5 r (⟨6, by omega⟩ : Fin 16) := by
  unfold k0_pay22
  exact (weighted_apply (k0_pay10 (F := Ideal) v3) (k0_pay12 (F := Ideal) v5) 6 _ _ _ r j (⟨6, by omega⟩ : Fin 16) rfl).trans
    (weighted_block v3 v5 r j _)

/-- The piece stored at column offset 448: the rows weighted by subject 7. -/
theorem xw7_apply (v3 : Vec Ideal S4096x64 .f32) (v5 : Vec Ideal S32x128 .i32) (r : Fin 4096) (j : Fin 64) :
    k0_pay24 (F := Ideal) (k0_pay23 (k0_pay10 v3) (k0_pay12 v5)) (ix2 r j) = v3 (ix2 r j) * hot v5 r (⟨7, by omega⟩ : Fin 16) := by
  unfold k0_pay24 k0_pay23
  exact (weighted_apply (k0_pay10 (F := Ideal) v3) (k0_pay12 (F := Ideal) v5) 7 _ _ _ r j (⟨7, by omega⟩ : Fin 16) rfl).trans
    (weighted_block v3 v5 r j _)

/-- The piece stored at column offset 512: the rows weighted by subject 8. -/
theorem xw8_apply (v3 : Vec Ideal S4096x64 .f32) (v5 : Vec Ideal S32x128 .i32) (r : Fin 4096) (j : Fin 64) :
    k0_pay25 (F := Ideal) (k0_pay10 v3) (k0_pay12 v5) (ix2 r j) = v3 (ix2 r j) * hot v5 r (⟨8, by omega⟩ : Fin 16) := by
  unfold k0_pay25
  exact (weighted_apply (k0_pay10 (F := Ideal) v3) (k0_pay12 (F := Ideal) v5) 8 _ _ _ r j (⟨8, by omega⟩ : Fin 16) rfl).trans
    (weighted_block v3 v5 r j _)

/-- The piece stored at column offset 576: the rows weighted by subject 9. -/
theorem xw9_apply (v3 : Vec Ideal S4096x64 .f32) (v5 : Vec Ideal S32x128 .i32) (r : Fin 4096) (j : Fin 64) :
    k0_pay26 (F := Ideal) (k0_pay10 v3) (k0_pay12 v5) (ix2 r j) = v3 (ix2 r j) * hot v5 r (⟨9, by omega⟩ : Fin 16) := by
  unfold k0_pay26
  exact (weighted_apply (k0_pay10 (F := Ideal) v3) (k0_pay12 (F := Ideal) v5) 9 _ _ _ r j (⟨9, by omega⟩ : Fin 16) rfl).trans
    (weighted_block v3 v5 r j _)

/-- The piece stored at column offset 640: the rows weighted by subject 10. -/
theorem xw10_apply (v3 : Vec Ideal S4096x64 .f32) (v5 : Vec Ideal S32x128 .i32) (r : Fin 4096) (j : Fin 64) :
    k0_pay27 (F := Ideal) (k0_pay10 v3) (k0_pay12 v5) (ix2 r j) = v3 (ix2 r j) * hot v5 r (⟨10, by omega⟩ : Fin 16) := by
  unfold k0_pay27
  exact (weighted_apply (k0_pay10 (F := Ideal) v3) (k0_pay12 (F := Ideal) v5) 10 _ _ _ r j (⟨10, by omega⟩ : Fin 16) rfl).trans
    (weighted_block v3 v5 r j _)

/-- The piece stored at column offset 704: the rows weighted by subject 11. -/
theorem xw11_apply (v3 : Vec Ideal S4096x64 .f32) (v5 : Vec Ideal S32x128 .i32) (r : Fin 4096) (j : Fin 64) :
    k0_pay28 (F := Ideal) (k0_pay10 v3) (k0_pay12 v5) (ix2 r j) = v3 (ix2 r j) * hot v5 r (⟨11, by omega⟩ : Fin 16) := by
  unfold k0_pay28
  exact (weighted_apply (k0_pay10 (F := Ideal) v3) (k0_pay12 (F := Ideal) v5) 11 _ _ _ r j (⟨11, by omega⟩ : Fin 16) rfl).trans
    (weighted_block v3 v5 r j _)

/-- The piece stored at column offset 768: the rows weighted by subject 12. -/
theorem xw12_apply (v3 : Vec Ideal S4096x64 .f32) (v5 : Vec Ideal S32x128 .i32) (r : Fin 4096) (j : Fin 64) :
    k0_pay29 (F := Ideal) (k0_pay10 v3) (k0_pay12 v5) (ix2 r j) = v3 (ix2 r j) * hot v5 r (⟨12, by omega⟩ : Fin 16) := by
  unfold k0_pay29
  exact (weighted_apply (k0_pay10 (F := Ideal) v3) (k0_pay12 (F := Ideal) v5) 12 _ _ _ r j (⟨12, by omega⟩ : Fin 16) rfl).trans
    (weighted_block v3 v5 r j _)

/-- The piece stored at column offset 832: the rows weighted by subject 13. -/
theorem xw13_apply (v3 : Vec Ideal S4096x64 .f32) (v5 : Vec Ideal S32x128 .i32) (r : Fin 4096) (j : Fin 64) :
    k0_pay30 (F := Ideal) (k0_pay10 v3) (k0_pay12 v5) (ix2 r j) = v3 (ix2 r j) * hot v5 r (⟨13, by omega⟩ : Fin 16) := by
  unfold k0_pay30
  exact (weighted_apply (k0_pay10 (F := Ideal) v3) (k0_pay12 (F := Ideal) v5) 13 _ _ _ r j (⟨13, by omega⟩ : Fin 16) rfl).trans
    (weighted_block v3 v5 r j _)

/-- The piece stored at column offset 896: the rows weighted by subject 14. -/
theorem xw14_apply (v3 : Vec Ideal S4096x64 .f32) (v5 : Vec Ideal S32x128 .i32) (r : Fin 4096) (j : Fin 64) :
    k0_pay1 (F := Ideal) (k0_pay31 (k0_pay10 v3) (k0_pay12 v5)) (ix2 r j) = v3 (ix2 r j) * hot v5 r (⟨14, by omega⟩ : Fin 16) := by
  unfold k0_pay1 k0_pay31
  exact (weighted_apply (k0_pay10 (F := Ideal) v3) (k0_pay12 (F := Ideal) v5) 14 _ _ _ r j (⟨14, by omega⟩ : Fin 16) rfl).trans
    (weighted_block v3 v5 r j _)

/-- The piece stored at column offset 960: the rows weighted by subject 15. -/
theorem xw15_apply (v3 : Vec Ideal S4096x64 .f32) (v5 : Vec Ideal S32x128 .i32) (r : Fin 4096) (j : Fin 64) :
    k0_pay2 (F := Ideal) (k0_pay10 v3) (k0_pay12 v5) (ix2 r j) = v3 (ix2 r j) * hot v5 r (⟨15, by omega⟩ : Fin 16) := by
  unfold k0_pay2
  exact (weighted_apply (k0_pay10 (F := Ideal) v3) (k0_pay12 (F := Ideal) v5) 15 _ _ _ r j (⟨15, by omega⟩ : Fin 16) rfl).trans
    (weighted_block v3 v5 r j _)

end Cert.KernelIdeal.Pay

end
-- ==== Proof.KiValBlock.lean ====
/-
  One block of rows as the body sees it: the array of weighted rows, and the block's three contributions.

  For a block `x0` of 4096 rows and its id words `x1`:
  * `packed x0 x1` is the [4096, 1024] array whose entry `(r, q)` is `x0 r (q % 64) * w r (q / 64)`: sixteen copies of the
    rows side by side, copy `s` weighted by the rows' weights in subject `s`. The body writes it as sixteen column pieces
    and reads it back whole; the pieces tile the array and each is the piece of `packed` its columns name, so the array
    read back is `packed`;
  * `cntB x1` is the block's column sums of the weights, `sumB x0 x1` its weighted sums of the rows, and `gramB x0 x1`
    the product of `packed` transposed with the rows;
  * each accumulator step adds the block's contribution, entry by entry, to what the accumulator held.
-/
import proofs.«103410_j88596585382423_2_alg».proof.Proof.KiRuns
import proofs.«103410_j88596585382423_2_alg».proof.Proof.KiPayHot
import proofs.«103410_j88596585382423_2_alg».proof.Proof.KiPayAcc
import proofs.«103410_j88596585382423_2_alg».proof.Proof.KiPayXw
import Idealize.ShloMosaic.Lib.Pipeline.Value
import Idealize.ShloMosaic.Lib.Pipeline.FrameBody
import Idealize.ShloMosaic.Lib.Ring
import Idealize.ShloMosaic.Lib.Tactic

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)

/-- Column `q` of the packed array is column `q % 64` of the rows … -/
def colOf (q : Fin 1024) : Fin 64 := ⟨q.val % 64, Nat.mod_lt _ (by norm_num)⟩
/-- … weighted by subject `q / 64`. -/
def subjOf (q : Fin 1024) : Fin 16 := ⟨q.val / 64, by omega⟩

/-- The sixteen weighted copies of the rows, side by side. -/
def packed (x0 : Vec Ideal S4096x64 .f32) (x1 : Vec Ideal S32x128 .i32) : FVec Ideal S4096x1024 .bf16 :=
  fun i => x0 (ix2 (i 0) (colOf (i 1))) * hot x1 (i 0) (subjOf (i 1))

theorem packed_apply (x0 : Vec Ideal S4096x64 .f32) (x1 : Vec Ideal S32x128 .i32) (r : Fin 4096) (q : Fin 1024) :
    packed x0 x1 (ix2 r q) = x0 (ix2 r (colOf q)) * hot x1 r (subjOf q) := rfl

/-- The block's counts. -/
def cntB (x1 : Vec Ideal S32x128 .i32) : FVec Ideal S1x16 .f32 := fun j => ∑ r : Fin 4096, hot x1 r (j 1)
/-- The block's sums. -/
def sumB (x0 : Vec Ideal S4096x64 .f32) (x1 : Vec Ideal S32x128 .i32) : FVec Ideal S16x64 .f32 :=
  fun j => ∑ r : Fin 4096, hot x1 r (j 0) * x0 (ix2 r (j 1))
/-- The block's Gram products, in the accumulator's [1024, 64] layout. -/
def gramB (x0 : Vec Ideal S4096x64 .f32) (x1 : Vec Ideal S32x128 .i32) : FVec Ideal S1024x64 .f32 :=
  fun j => ∑ r : Fin 4096, (x0 (ix2 r (colOf (j 0))) * hot x1 r (subjOf (j 0))) * x0 (ix2 r (j 1))

theorem cntB_apply (x1 : Vec Ideal S32x128 .i32) (u : Fin 1) (s : Fin 16) : cntB x1 (ix2 u s) = ∑ r : Fin 4096, hot x1 r s := rfl
theorem sumB_apply (x0 : Vec Ideal S4096x64 .f32) (x1 : Vec Ideal S32x128 .i32) (s : Fin 16) (d : Fin 64) :
    sumB x0 x1 (ix2 s d) = ∑ r : Fin 4096, hot x1 r s * x0 (ix2 r d) := rfl
theorem gramB_apply (x0 : Vec Ideal S4096x64 .f32) (x1 : Vec Ideal S32x128 .i32) (q : Fin 1024) (d : Fin 64) :
    gramB x0 x1 (ix2 q d) = ∑ r : Fin 4096, (x0 (ix2 r (colOf q)) * hot x1 r (subjOf q)) * x0 (ix2 r d) := rfl

/-- The count step adds the block's counts. -/
theorem pay13_eq (x1 : Vec Ideal S32x128 .i32) (xs3 : Vec Ideal S1x16 .f32) :
    k0_pay13 (F := Ideal) x1 xs3 = fun j => xs3 j + cntB x1 j := by
  funext j
  obtain ⟨u, s, rfl⟩ : ∃ (u : Fin 1) (s : Fin 16), j = ix2 u s := ⟨j 0, j 1, eq_ix2 j⟩
  obtain rfl : u = 0 := Subsingleton.elim _ _
  exact pay13_apply x1 xs3 s

/-- The sums step adds the block's sums. -/
theorem pay14_eq (x0 : Vec Ideal S4096x64 .f32) (x1 : Vec Ideal S32x128 .i32) (xs2 : Vec Ideal S16x64 .f32) :
    k0_pay14 (F := Ideal) x0 x1 xs2 = fun j => xs2 j + sumB x0 x1 j := by
  funext j
  obtain ⟨s, d, rfl⟩ : ∃ (s : Fin 16) (d : Fin 64), j = ix2 s d := ⟨j 0, j 1, eq_ix2 j⟩
  exact pay14_apply x0 x1 xs2 s d

/-- The Gram step, fed the packed array, adds the block's Gram products. -/
theorem pay3_eq (x0 : Vec Ideal S4096x64 .f32) (x1 : Vec Ideal S32x128 .i32) (xs1 : Vec Ideal S1024x64 .f32) :
    k0_pay3 (F := Ideal) (k0_pay10 x0) (packed x0 x1) xs1 = fun j => xs1 j + gramB x0 x1 j := by
  funext j
  obtain ⟨q, d, rfl⟩ : ∃ (q : Fin 1024) (d : Fin 64), j = ix2 q d := ⟨j 0, j 1, eq_ix2 j⟩
  refine (pay3_apply (k0_pay10 (F := Ideal) x0) (packed x0 x1) xs1 q d).trans ?_
  rfl

/-! ## The packed array read back -/

/-- The sixteen column pieces the body stores, last first. -/
def packedL (x0 : Vec Ideal S4096x64 .f32) (x1 : Vec Ideal S32x128 .i32) : List (View.Piece (Elt Ideal) S4096x1024 .bf16) :=
  [⟨Rect.unit ![0, 960] ![4096, 64] Facts₀.inb_S4096x1024_S4096x64_0_960, k0_pay2 (k0_pay10 x0) (k0_pay12 x1)⟩,
   ⟨Rect.unit ![0, 896] ![4096, 64] Facts₀.inb_S4096x1024_S4096x64_0_896, k0_pay1 (k0_pay31 (k0_pay10 x0) (k0_pay12 x1))⟩,
   ⟨Rect.unit ![0, 832] S4096x64.size Facts₀.inb_S4096x1024_S4096x64_0_832, k0_pay30 (k0_pay10 x0) (k0_pay12 x1)⟩,
   ⟨Rect.unit ![0, 768] S4096x64.size Facts₀.inb_S4096x1024_S4096x64_0_768, k0_pay29 (k0_pay10 x0) (k0_pay12 x1)⟩,
   ⟨Rect.unit ![0, 704] S4096x64.size Facts₀.inb_S4096x1024_S4096x64_0_704, k0_pay28 (k0_pay10 x0) (k0_pay12 x1)⟩,
   ⟨Rect.unit ![0, 640] S4096x64.size Facts₀.inb_S4096x1024_S4096x64_0_640, k0_pay27 (k0_pay10 x0) (k0_pay12 x1)⟩,
   ⟨Rect.unit ![0, 576] S4096x64.size Facts₀.inb_S4096x1024_S4096x64_0_576, k0_pay26 (k0_pay10 x0) (k0_pay12 x1)⟩,
   ⟨Rect.unit ![0, 512] S4096x64.size Facts₀.inb_S4096x1024_S4096x64_0_512, k0_pay25 (k0_pay10 x0) (k0_pay12 x1)⟩,
   ⟨Rect.unit ![0, 448] S4096x64.size Facts₀.inb_S4096x1024_S4096x64_0_448, k0_pay24 (k0_pay23 (k0_pay10 x0) (k0_pay12 x1))⟩,
   ⟨Rect.unit ![0, 384] S4096x64.size Facts₀.inb_S4096x1024_S4096x64_0_384, k0_pay22 (k0_pay10 x0) (k0_pay12 x1)⟩,
   ⟨Rect.unit ![0, 320] S4096x64.size Facts₀.inb_S4096x1024_S4096x64_0_320, k0_pay21 (k0_pay10 x0) (k0_pay12 x1)⟩,
   ⟨Rect.unit ![0, 256] S4096x64.size Facts₀.inb_S4096x1024_S4096x64_0_256, k0_pay20 (k0_pay10 x0) (k0_pay12 x1)⟩,
   ⟨Rect.unit ![0, 192] S4096x64.size Facts₀.inb_S4096x1024_S4096x64_0_192, k0_pay19 (k0_pay10 x0) (k0_pay12 x1)⟩,
   ⟨Rect.unit ![0, 128] S4096x64.size Facts₀.inb_S4096x1024_S4096x64_0_128, k0_pay18 (k0_pay10 x0) (k0_pay12 x1)⟩,
   ⟨Rect.unit ![0, 64] S4096x64.size Facts₀.inb_S4096x1024_S4096x64_0_64, k0_pay17 (k0_pay10 x0) (k0_pay16 x1)⟩,
   ⟨Rect.unit ![0, 0] S4096x64.size Facts₀.inb_S4096x1024_S4096x64_0_0, k0_pay15 x0 x1⟩]

/-- A piece at column offset `64 s` whose entries are the rows weighted by subject `s` is the piece of `packed` there. -/
theorem piece_ok (x0 : Vec Ideal S4096x64 .f32) (x1 : Vec Ideal S32x128 .i32) (si : Fin 16) (o : ℕ) (ho : o = 64 * si.val)
    (inb : ∀ a, (![0, o] : Fin 2 → ℕ) a + S4096x64.size a ≤ S4096x1024.size a)
    (w : S4096x64.Idx → EReal) (hw : ∀ (r : Fin 4096) (j : Fin 64), w (ix2 r j) = x0 (ix2 r j) * hot x1 r si)
    (x : S4096x64.Idx) : w x = packed x0 x1 ((Rect.unit (s := S4096x1024) ![0, o] S4096x64.size inb).emb x) := by
  obtain ⟨r, j, rfl⟩ : ∃ (r : Fin 4096) (j : Fin 64), x = ix2 r j := ⟨x 0, x 1, eq_ix2 x⟩
  have hq : o + j.val < 1024 := by have := si.isLt; have := j.isLt; omega
  have e : (Rect.unit (s := S4096x1024) ![0, o] S4096x64.size inb).emb (ix2 r j) = ix2 r (⟨o + j.val, hq⟩ : Fin 1024) :=
    funext fun a => Fin.ext (by
      match a with
      | ⟨0, _⟩ => show 0 + 1 * r.val = r.val; omega
      | ⟨1, _⟩ => show o + 1 * j.val = o + j.val; omega)
  have ec : colOf (⟨o + j.val, hq⟩ : Fin 1024) = j := Fin.ext (by show (o + j.val) % 64 = j.val; have := j.isLt; omega)
  have es : subjOf (⟨o + j.val, hq⟩ : Fin 1024) = si := Fin.ext (by show (o + j.val) / 64 = si.val; have := j.isLt; omega)
  rw [hw, e, packed_apply, ec, es]

theorem packedL_ok (x0 : Vec Ideal S4096x64 .f32) (x1 : Vec Ideal S32x128 .i32) :
    ∀ p ∈ packedL x0 x1, ∀ x : p.1.shape.Idx, p.2 x = packed x0 x1 (p.1.emb x) := by
  intro p hp
  simp only [packedL, List.mem_cons, List.mem_nil_iff, or_false] at hp
  rcases hp with rfl | rfl | rfl | rfl | rfl | rfl | rfl | rfl | rfl | rfl | rfl | rfl | rfl | rfl | rfl | rfl
  · exact piece_ok x0 x1 (⟨15, by omega⟩ : Fin 16) 960 rfl Facts₀.inb_S4096x1024_S4096x64_0_960 _ (xw15_apply x0 x1)
  · exact piece_ok x0 x1 (⟨14, by omega⟩ : Fin 16) 896 rfl Facts₀.inb_S4096x1024_S4096x64_0_896 _ (xw14_apply x0 x1)
  · exact piece_ok x0 x1 (⟨13, by omega⟩ : Fin 16) 832 rfl Facts₀.inb_S4096x1024_S4096x64_0_832 _ (xw13_apply x0 x1)
  · exact piece_ok x0 x1 (⟨12, by omega⟩ : Fin 16) 768 rfl Facts₀.inb_S4096x1024_S4096x64_0_768 _ (xw12_apply x0 x1)
  · exact piece_ok x0 x1 (⟨11, by omega⟩ : Fin 16) 704 rfl Facts₀.inb_S4096x1024_S4096x64_0_704 _ (xw11_apply x0 x1)
  · exact piece_ok x0 x1 (⟨10, by omega⟩ : Fin 16) 640 rfl Facts₀.inb_S4096x1024_S4096x64_0_640 _ (xw10_apply x0 x1)
  · exact piece_ok x0 x1 (⟨9, by omega⟩ : Fin 16) 576 rfl Facts₀.inb_S4096x1024_S4096x64_0_576 _ (xw9_apply x0 x1)
  · exact piece_ok x0 x1 (⟨8, by omega⟩ : Fin 16) 512 rfl Facts₀.inb_S4096x1024_S4096x64_0_512 _ (xw8_apply x0 x1)
  · exact piece_ok x0 x1 (⟨7, by omega⟩ : Fin 16) 448 rfl Facts₀.inb_S4096x1024_S4096x64_0_448 _ (xw7_apply x0 x1)
  · exact piece_ok x0 x1 (⟨6, by omega⟩ : Fin 16) 384 rfl Facts₀.inb_S4096x1024_S4096x64_0_384 _ (xw6_apply x0 x1)
  · exact piece_ok x0 x1 (⟨5, by omega⟩ : Fin 16) 320 rfl Facts₀.inb_S4096x1024_S4096x64_0_320 _ (xw5_apply x0 x1)
  · exact piece_ok x0 x1 (⟨4, by omega⟩ : Fin 16) 256 rfl Facts₀.inb_S4096x1024_S4096x64_0_256 _ (xw4_apply x0 x1)
  · exact piece_ok x0 x1 (⟨3, by omega⟩ : Fin 16) 192 rfl Facts₀.inb_S4096x1024_S4096x64_0_192 _ (xw3_apply x0 x1)
  · exact piece_ok x0 x1 (⟨2, by omega⟩ : Fin 16) 128 rfl Facts₀.inb_S4096x1024_S4096x64_0_128 _ (xw2_apply x0 x1)
  · exact piece_ok x0 x1 (⟨1, by omega⟩ : Fin 16) 64 rfl Facts₀.inb_S4096x1024_S4096x64_0_64 _ (xw1_apply x0 x1)
  · exact piece_ok x0 x1 (⟨0, by omega⟩ : Fin 16) 0 rfl Facts₀.inb_S4096x1024_S4096x64_0_0 _ (xw0_apply x0 x1)

/-- The packed array loaded whole after the sixteen stores. -/
theorem packed_load (v : View sig .tc .vmem S4096x1024 .bf16) (x0 : Vec Ideal S4096x64 .f32) (x1 : Vec Ideal S32x128 .i32)
    (inb : ∀ a, (![0, 0] : Fin 2 → ℕ) a + (![4096, 1024] : Fin 2 → ℕ) a ≤ S4096x1024.size a) :
    v.readCov (packedL x0 x1) (Rect.unit (s := S4096x1024) ![0, 0] ![4096, 1024] inb).toLoadRect = packed x0 x1 := by
  rw [View.readCov_eq_canon']
  funext j
  have e : (Rect.unit (s := S4096x1024) ![0, 0] ![4096, 1024] inb).toLoadRect.idx j = j :=
    funext fun a => Fin.ext (by
      match a with
      | ⟨0, _⟩ => show 0 + 1 * (j 0).val = (j 0).val; omega
      | ⟨1, _⟩ => show 0 + 1 * (j 1).val = (j 1).val; omega)
  rw [e]
  exact View.canon_apply_of_pieces (packed x0 x1) (packedL x0 x1) (packedL_ok x0 x1) j
    (View.cover_of_tiledL (packedL x0 x1) S4096x64.size (by sl_kernel_rfl) j)

end Cert.KernelIdeal.Val

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.KiSum.lean ====
/-
  The row sums regrouped by blocks and halves, and an accumulator that starts from zero.

  The 524288 rows are 128 consecutive blocks of 4096 rows; the blocks are two halves of 64 consecutive blocks. A sum over all
  the rows is therefore the sum over the two halves of the sum over a half's 64 blocks of the sum over a block's 4096 rows.
  Only commutativity and associativity of the sum are used, so this holds on the extended reals as it stands; for the Gram
  entries the product is regrouped, `x a * (x b * w) = (x a * w) * x b`, by commutativity and associativity of the product.

  An accumulator that is set to zero, then at each step `k = 0, 1, …, 63` has the step's term added, holds after step 63
  the sum of the 64 terms.
-/
import proofs.«103410_j88596585382423_2_alg».proof.Proof.Spec
import proofs.«103410_j88596585382423_2_alg».proof.Proof.LibBlockSplit
import Mathlib.Algebra.BigOperators.Fin
import Mathlib.Data.EReal.Basic

noncomputable section

open scoped BigOperators

namespace Cert.Spec

open Idealize.ShloMosaic Idealize.ShloMosaic.ValueIdx

/-- Row `r` of block `b`. -/
def row (b : Fin 128) (r : Fin 4096) : Fin 524288 := ⟨4096 * b.val + r.val, by omega⟩

/-- The block that the `k`-th step of half `p` reads. -/
def blk (p : Fin 2) (k : Fin 64) : Fin 128 := ⟨64 * p.val + k.val, by omega⟩

theorem row_val (b : Fin 128) (r : Fin 4096) : (row b r).val = 4096 * b.val + r.val := rfl

theorem blk_val (p : Fin 2) (k : Fin 64) : (blk p k).val = 64 * p.val + k.val := rfl

/-- A sum over the rows, by halves, blocks of a half, and rows of a block. -/
theorem sum_rows {M : Type*} [AddCommMonoid M] (f : Fin 524288 → M) :
    ∑ n : Fin 524288, f n = ∑ p : Fin 2, ∑ k : Fin 64, ∑ r : Fin 4096, f (row (blk p k) r) := by
  rw [Cert.Lib.sum_blocks 128 4096 524288 (by norm_num) f row row_val]
  exact Cert.Lib.sum_blocks 2 64 128 (by norm_num) (fun b => ∑ r : Fin 4096, f (row b r)) blk blk_val

theorem count_split (sid : Ids) (s : Fin 16) :
    count sid s = ∑ p : Fin 2, ∑ k : Fin 64, ∑ r : Fin 4096, oneHot sid (row (blk p k) r) s := by
  unfold count
  exact sum_rows fun n => oneHot sid n s

theorem groupSum_split (x : Emb) (sid : Ids) (s : Fin 16) (d : Fin 64) :
    groupSum x sid s d
      = ∑ p : Fin 2, ∑ k : Fin 64, ∑ r : Fin 4096, oneHot sid (row (blk p k) r) s * x (ix2 (row (blk p k) r) d) := by
  unfold groupSum
  exact sum_rows fun n => oneHot sid n s * x (ix2 n d)

/-- The product of a Gram term regrouped. -/
theorem gram_term (u v w : EReal) : u * (v * w) = (u * w) * v := by
  rw [mul_comm v w, mul_assoc]

theorem gram_split (x : Emb) (sid : Ids) (s : Fin 16) (a b : Fin 64) :
    gram x sid s a b = ∑ p : Fin 2, ∑ k : Fin 64, ∑ r : Fin 4096,
      (x (ix2 (row (blk p k) r) a) * oneHot sid (row (blk p k) r) s) * x (ix2 (row (blk p k) r) b) := by
  unfold gram
  rw [Finset.sum_congr rfl fun n _ => gram_term (x (ix2 n a)) (x (ix2 n b)) (oneHot sid n s)]
  exact sum_rows fun n => (x (ix2 n a) * oneHot sid n s) * x (ix2 n b)

/-- An accumulator that starts from zero plus the first term and then adds each step's term holds, after step `n`, the sum of
    the terms of steps `0 … n`. -/
theorem acc_range {M : Type*} [AddCommMonoid M] (P A : ℕ → M) (N : ℕ) (h0 : A 0 = 0 + P 0)
    (hstep : ∀ k, k + 1 < N → A (k + 1) = A k + P (k + 1)) :
    ∀ n, n < N → A n = ∑ k ∈ Finset.range (n + 1), P k
  | 0, _ => by rw [h0, zero_add, Finset.sum_range_one]
  | n + 1, h => by
    rw [hstep n h, acc_range P A N h0 hstep n (Nat.lt_of_succ_lt h), Finset.sum_range_succ P (n + 1)]

/-- After the last of 64 steps it holds the sum of the 64 terms. -/
theorem acc_last {M : Type*} [AddCommMonoid M] (P A : ℕ → M) (h0 : A 0 = 0 + P 0)
    (hstep : ∀ k, k + 1 < 64 → A (k + 1) = A k + P (k + 1)) :
    A 63 = ∑ k : Fin 64, P k.val := by
  rw [acc_range P A 64 h0 hstep 63 (by norm_num)]
  exact (Fin.sum_univ_eq_sum_range P 64).symm

end Cert.Spec

end
-- ==== Proof.KiValBlk.lean ====
/-
  The blocks the two input windows hand the body, read off the argument arrays, and the blocks' contributions in terms of
  the arrays.

  Point `t` of the grid (`t = 64 p + k` for step `k` of half `p`) reads block `t` of the rows: row `r` of the block is row
  `4096 t + r` of the embeddings. Its id words are rows `32 t … 32 t + 31` of the [4096, 128] view of the id words that the
  host makes before the region; that view keeps the row-major order, so the word of the block's row `r`, at
  `(r / 128, r % 128)` of the block, is the id word of row `4096 t + r`. Hence the weights of the block are the weights of
  those rows, and the block's counts, sums and Gram products are sums over those rows.
-/
import proofs.«103410_j88596585382423_2_alg».proof.Proof.KiFrame
import proofs.«103410_j88596585382423_2_alg».proof.Proof.KiValBlock
import proofs.«103410_j88596585382423_2_alg».proof.Proof.KiSum
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)

variable (m : (ℓ : Loc nD τ sig) → Buf (Elt Ideal) ℓ)

/-- The embeddings and the id words as launched. -/
abbrev xOf (c : Dev nD) : Emb := m ((c.tc : Thread nD τ).loc main_arg0)
abbrev sidOf (c : Dev nD) : Ids := m ((c.tc : Thread nD τ).loc main_arg1)

/-- Row `r` of block number `n`, as a row of the whole array (reduced into range so that it is defined for every `n`). -/
def rowN (n : ℕ) (r : Fin 4096) : Fin 524288 := ⟨(4096 * n + r.val) % 524288, Nat.mod_lt _ (by norm_num)⟩

theorem rowN_blk (p : Fin 2) (k : Fin 64) (r : Fin 4096) : rowN (64 * p.val + k.val) r = row (blk p k) r :=
  Fin.ext (by
    show (4096 * (64 * p.val + k.val) + r.val) % 524288 = 4096 * (64 * p.val + k.val) + r.val
    have := p.isLt; have := k.isLt; have := r.isLt; omega)

/-- The printed index maps of the two input windows, decided over the grid. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- A row of the block of rows is a row of the embeddings. -/
theorem iblk0_apply (c : Dev nD) (t : Fin cfg0.N) (r : Fin 4096) (d : Fin 64) :
    (iblk m c 0 t : Vec Ideal S4096x64 .f32) (ix2 r d) = xOf m c (ix2 (rowN t.val r) d) := by
  obtain ⟨e0, e1, -, -⟩ := idx_in t
  have hN : t.val < 128 := Nat.lt_of_lt_of_eq t.isLt (show cfg0.N = 128 from N_0)
  unfold iblk
  rw [View.read_apply]
  show V m c main_arg0 _ = _
  refine (congrFun (V_main_arg0 m c) _).trans ?_
  refine congrArg (xOf m c) (funext fun a => Fin.ext ?_)
  match a with
  | ⟨0, _⟩ =>
    show win0_0.index t (0 : Fin 2) * 4096 + 1 * r.val = (4096 * t.val + r.val) % 524288
    rw [e0]; have := r.isLt; omega
  | ⟨1, _⟩ =>
    show win0_0.index t (1 : Fin 2) * 64 + 1 * d.val = d.val
    rw [e1]; omega

/-- The [4096, 128] array of id words the region finds: the host's row-major view of the id words. -/
theorem V_main_v0 (c : Dev nD) :
    (V m c main_v0 : S4096x128.Idx → BitVec 32) = shapeCast S4096x128 (sidOf m c) Facts₀.shapeCasts_S524288_S4096x128 := by
  show StableHlo.after hostOps0 (fun b => m (c, b)) (Proc.devRef .tc main_v0) = _
  after_results
  rfl

/-- The id word of the block's row `r` is the id word of row `4096 t + r`. -/
theorem iblk1_row (c : Dev nD) (t : Fin cfg0.N) (r : Fin 4096) :
    (iblk m c 1 t : Vec Ideal S32x128 .i32) (ix2 (⟨r.val / 128, by omega⟩ : Fin 32) (⟨r.val % 128, by omega⟩ : Fin 128))
      = sidOf m c (ix1 (rowN t.val r)) := by
  obtain ⟨-, -, e0, e1⟩ := idx_in t
  have hN : t.val < 128 := Nat.lt_of_lt_of_eq t.isLt (show cfg0.N = 128 from N_0)
  unfold iblk
  rw [View.read_apply]
  show V m c main_v0 _ = _
  refine (congrFun (V_main_v0 m c) _).trans ?_
  refine shapeCast_apply (sidOf m c) _ _ (ix1 (rowN t.val r)) ?_
  rw [Shape.rowMajor_val_one, Shape.rowMajor_val_two]
  show (4096 * t.val + r.val) % 524288
    = (win0_1.index t (0 : Fin 2) * 32 + 1 * (r.val / 128)) * 128 + (win0_1.index t (1 : Fin 2) * 128 + 1 * (r.val % 128))
  rw [e0, e1]; have := r.isLt; omega

/-- The weights of the block are the weights of its rows in the whole array. -/
theorem hot_iblk1 (c : Dev nD) (t : Fin cfg0.N) (r : Fin 4096) (s : Fin 16) :
    hot (iblk m c 1 t) r s = oneHot (sidOf m c) (rowN t.val r) s := by
  unfold hot oneHot
  rw [iblk1_row m c t r]

/-! ## The blocks' contributions in terms of the arrays -/

def T10 (sid : Ids) (n : ℕ) : S1x16.Idx → EReal := fun j => ∑ r : Fin 4096, oneHot sid (rowN n r) (j 1)
def T9 (x : Emb) (sid : Ids) (n : ℕ) : S16x64.Idx → EReal :=
  fun j => ∑ r : Fin 4096, oneHot sid (rowN n r) (j 0) * x (ix2 (rowN n r) (j 1))
def T8 (x : Emb) (sid : Ids) (n : ℕ) : S1024x64.Idx → EReal :=
  fun j => ∑ r : Fin 4096, (x (ix2 (rowN n r) (colOf (j 0))) * oneHot sid (rowN n r) (subjOf (j 0))) * x (ix2 (rowN n r) (j 1))

theorem T10_apply (sid : Ids) (n : ℕ) (u : Fin 1) (s : Fin 16) : T10 sid n (ix2 u s) = ∑ r : Fin 4096, oneHot sid (rowN n r) s := rfl
theorem T9_apply (x : Emb) (sid : Ids) (n : ℕ) (s : Fin 16) (d : Fin 64) :
    T9 x sid n (ix2 s d) = ∑ r : Fin 4096, oneHot sid (rowN n r) s * x (ix2 (rowN n r) d) := rfl
theorem T8_apply (x : Emb) (sid : Ids) (n : ℕ) (q : Fin 1024) (d : Fin 64) :
    T8 x sid n (ix2 q d) = ∑ r : Fin 4096, (x (ix2 (rowN n r) (colOf q)) * oneHot sid (rowN n r) (subjOf q)) * x (ix2 (rowN n r) d) := rfl

theorem cntB_iblk (c : Dev nD) (t : Fin cfg0.N) : cntB (iblk m c 1 t) = T10 (sidOf m c) t.val :=
  funext fun j => Finset.sum_congr rfl fun r _ => hot_iblk1 m c t r (j 1)

theorem sumB_iblk (c : Dev nD) (t : Fin cfg0.N) : sumB (iblk m c 0 t) (iblk m c 1 t) = T9 (xOf m c) (sidOf m c) t.val :=
  funext fun j => Finset.sum_congr rfl fun r _ =>
    congr (congrArg HMul.hMul (hot_iblk1 m c t r (j 0))) (iblk0_apply m c t r (j 1))

theorem gramB_iblk (c : Dev nD) (t : Fin cfg0.N) : gramB (iblk m c 0 t) (iblk m c 1 t) = T8 (xOf m c) (sidOf m c) t.val :=
  funext fun j => Finset.sum_congr rfl fun r _ =>
    congr (congrArg HMul.hMul (congr (congrArg HMul.hMul (iblk0_apply m c t r (colOf (j 0)))) (hot_iblk1 m c t r (subjOf (j 0)))))
      (iblk0_apply m c t r (j 1))

end Cert.KernelIdeal.Val

end
-- ==== Proof.KiValZero.lean ====
/-
  The zero offsets of a whole-buffer access, at ranks two, three and four, as the constant function.
-/
import Mathlib.Data.Fin.VecNotation

namespace Cert.KernelIdeal.Val

theorem hz2 : (![0, 0] : Fin 2 → Nat) = fun _ => 0 :=
  funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl
theorem hz4 : (![0, 0, 0, 0] : Fin 4 → Nat) = fun _ => 0 :=
  funext fun a => match a with | ⟨0, _⟩ => rfl | ⟨1, _⟩ => rfl | ⟨2, _⟩ => rfl | ⟨3, _⟩ => rfl

end Cert.KernelIdeal.Val
-- ==== Proof.KiValPieceA.lean ====
/-
  What the first step of a half leaves in the three accumulators: each is first stored whole with zeros, read back, and
  stored again with the step's value computed from the zeros.
-/
import proofs.«103410_j88596585382423_2_alg».proof.Proof.KiFrame
import proofs.«103410_j88596585382423_2_alg».proof.Proof.KiValBlock
import Idealize.ShloMosaic.Lib.Pipeline.Value
import Idealize.ShloMosaic.Lib.Pipeline.FrameBody
import Idealize.ShloMosaic.Lib.Ring
import Idealize.ShloMosaic.Lib.Tactic
import proofs.«103410_j88596585382423_2_alg».proof.Proof.KiValZero

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)

theorem accA_1 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : cond0_0 i) (hc1 : ¬cond0_1 i) (x0 : Vec Ideal S4096x64 .f32) (x1 : Vec Ideal S32x128 .i32) :
    arg8.view.read (Elt Ideal) (arg8.view.writes (Elt Ideal) arg8.view.junk (kernelRun0_A (F := Ideal) c i arg2 harg2 arg3 harg3 arg4 harg4 arg5 harg5 arg6 harg6 arg7 harg7 arg8 harg8 arg9 harg9 arg10 harg10 hc0 hc1 x0 x1).2.2.2.2.1) = k0_pay3 (F := Ideal) (k0_pay10 x0) (packed x0 x1) (k0_pay7 (F := Ideal)) := by
  rw [View.read_writes_eq_canon _ _ _ (fun y => View.cover_of_tiledL _ S1024x64.size (by sl_kernel_rfl) y)]
  unfold kernelRun0_A
  dsimp only
  sl_unfold_words
  rw [View.canon_cons_unit_zero (S := S1024x64) hz2, View.readCov_unit_zero (S := S1024x64) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]
  exact congrArg (fun v => k0_pay3 (F := Ideal) (k0_pay10 x0) v (k0_pay7 (F := Ideal))) (packed_load arg7.view x0 x1 _)

theorem accA_2 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : cond0_0 i) (hc1 : ¬cond0_1 i) (x0 : Vec Ideal S4096x64 .f32) (x1 : Vec Ideal S32x128 .i32) :
    arg9.view.read (Elt Ideal) (arg9.view.writes (Elt Ideal) arg9.view.junk (kernelRun0_A (F := Ideal) c i arg2 harg2 arg3 harg3 arg4 harg4 arg5 harg5 arg6 harg6 arg7 harg7 arg8 harg8 arg9 harg9 arg10 harg10 hc0 hc1 x0 x1).2.2.2.2.2.1) = k0_pay14 (F := Ideal) x0 x1 (k0_pay8 (F := Ideal)) := by
  rw [View.read_writes_eq_canon _ _ _ (fun y => View.cover_of_tiledL _ S16x64.size (by sl_kernel_rfl) y)]
  unfold kernelRun0_A
  dsimp only
  sl_unfold_words
  rw [View.canon_cons_unit_zero (S := S16x64) hz2, View.readCov_unit_zero (S := S16x64) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

theorem accA_3 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : cond0_0 i) (hc1 : ¬cond0_1 i) (x0 : Vec Ideal S4096x64 .f32) (x1 : Vec Ideal S32x128 .i32) :
    arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 hc0 hc1 x0 x1).2.2.2.2.2.2.1) = k0_pay13 (F := Ideal) x1 (k0_pay9 (F := Ideal)) := by
  rw [View.read_writes_eq_canon _ _ _ (fun y => View.cover_of_tiledL _ S1x16.size (by sl_kernel_rfl) y)]
  unfold kernelRun0_A
  dsimp only
  sl_unfold_words
  rw [View.canon_cons_unit_zero (S := S1x16) hz2, View.readCov_unit_zero (S := S1x16) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

end Cert.KernelIdeal.Val

end
-- ==== Proof.KiValPieceB.lean ====
/-
  What a middle step of a half leaves in the three accumulators: each is stored once, whole, with the step's value computed
  from the block of rows, the block of id words and the accumulator's contents on entry; the Gram step's second operand is
  the packed array read back whole after its sixteen column stores.
-/
import proofs.«103410_j88596585382423_2_alg».proof.Proof.KiFrame
import proofs.«103410_j88596585382423_2_alg».proof.Proof.KiValBlock
import Idealize.ShloMosaic.Lib.Pipeline.Value
import Idealize.ShloMosaic.Lib.Pipeline.FrameBody
import Idealize.ShloMosaic.Lib.Ring
import Idealize.ShloMosaic.Lib.Tactic
import proofs.«103410_j88596585382423_2_alg».proof.Proof.KiValZero

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)

theorem accB_1 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : ¬cond0_1 i) (x0 : Vec Ideal S4096x64 .f32) (x1 : Vec Ideal S32x128 .i32) (xs1 : Vec Ideal S1024x64 .f32) (xs2 : Vec Ideal S16x64 .f32) (xs3 : Vec Ideal S1x16 .f32) :
    arg8.view.read (Elt Ideal) (arg8.view.writes (Elt Ideal) arg8.view.junk (kernelRun0_B (F := Ideal) c i arg2 harg2 arg3 harg3 arg4 harg4 arg5 harg5 arg6 harg6 arg7 harg7 arg8 harg8 arg9 harg9 arg10 harg10 hc0 hc1 x0 x1 xs1 xs2 xs3).2.2.2.2.1) = k0_pay3 (F := Ideal) (k0_pay10 x0) (packed x0 x1) xs1 := by
  rw [View.read_writes_eq_canon _ _ _ (fun y => View.cover_of_tiledL _ S1024x64.size (by sl_kernel_rfl) y)]
  unfold kernelRun0_B
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]
  exact congrArg (fun v => k0_pay3 (F := Ideal) (k0_pay10 x0) v xs1) (packed_load arg7.view x0 x1 _)

theorem accB_2 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : ¬cond0_1 i) (x0 : Vec Ideal S4096x64 .f32) (x1 : Vec Ideal S32x128 .i32) (xs1 : Vec Ideal S1024x64 .f32) (xs2 : Vec Ideal S16x64 .f32) (xs3 : Vec Ideal S1x16 .f32) :
    arg9.view.read (Elt Ideal) (arg9.view.writes (Elt Ideal) arg9.view.junk (kernelRun0_B (F := Ideal) c i arg2 harg2 arg3 harg3 arg4 harg4 arg5 harg5 arg6 harg6 arg7 harg7 arg8 harg8 arg9 harg9 arg10 harg10 hc0 hc1 x0 x1 xs1 xs2 xs3).2.2.2.2.2.1) = k0_pay14 (F := Ideal) x0 x1 xs2 := by
  rw [View.read_writes_eq_canon _ _ _ (fun y => View.cover_of_tiledL _ S16x64.size (by sl_kernel_rfl) y)]
  unfold kernelRun0_B
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

theorem accB_3 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : ¬cond0_1 i) (x0 : Vec Ideal S4096x64 .f32) (x1 : Vec Ideal S32x128 .i32) (xs1 : Vec Ideal S1024x64 .f32) (xs2 : Vec Ideal S16x64 .f32) (xs3 : Vec Ideal S1x16 .f32) :
    arg10.view.read (Elt Ideal) (arg10.view.writes (Elt Ideal) arg10.view.junk (kernelRun0_B (F := Ideal) c i arg2 harg2 arg3 harg3 arg4 harg4 arg5 harg5 arg6 harg6 arg7 harg7 arg8 harg8 arg9 harg9 arg10 harg10 hc0 hc1 x0 x1 xs1 xs2 xs3).2.2.2.2.2.2.1) = k0_pay13 (F := Ideal) x1 xs3 := by
  rw [View.read_writes_eq_canon _ _ _ (fun y => View.cover_of_tiledL _ S1x16.size (by sl_kernel_rfl) y)]
  unfold kernelRun0_B
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

end Cert.KernelIdeal.Val

end
-- ==== Proof.KiValPieceC.lean ====
/-
  What the last step of a half leaves: the three accumulators as at a middle step, and the three output buffers at the
  write-outs of those values (each accumulator is read back whole after its one store).
-/
import proofs.«103410_j88596585382423_2_alg».proof.Proof.KiFrame
import proofs.«103410_j88596585382423_2_alg».proof.Proof.KiValBlock
import Idealize.ShloMosaic.Lib.Pipeline.Value
import Idealize.ShloMosaic.Lib.Pipeline.FrameBody
import Idealize.ShloMosaic.Lib.Ring
import Idealize.ShloMosaic.Lib.Tactic
import proofs.«103410_j88596585382423_2_alg».proof.Proof.KiValZero

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)

theorem accC_1 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32) :
    arg8.view.read (Elt Ideal) (arg8.view.writes (Elt Ideal) arg8.view.junk (kernelRun0_C (F := Ideal) c i arg2 harg2 arg3 harg3 arg4 harg4 arg5 harg5 arg6 harg6 arg7 harg7 arg8 harg8 arg9 harg9 arg10 harg10 hc0 hc1 x0 x1 xs1 xs2 xs3).2.2.2.2.1) = k0_pay3 (F := Ideal) (k0_pay10 x0) (packed x0 x1) xs1 := by
  rw [View.read_writes_eq_canon _ _ _ (fun y => View.cover_of_tiledL _ S1024x64.size (by sl_kernel_rfl) y)]
  unfold kernelRun0_C
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]
  exact congrArg (fun v => k0_pay3 (F := Ideal) (k0_pay10 x0) v xs1) (packed_load arg7.view x0 x1 _)

theorem accC_2 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32) :
    arg9.view.read (Elt Ideal) (arg9.view.writes (Elt Ideal) arg9.view.junk (kernelRun0_C (F := Ideal) c i arg2 harg2 arg3 harg3 arg4 harg4 arg5 harg5 arg6 harg6 arg7 harg7 arg8 harg8 arg9 harg9 arg10 harg10 hc0 hc1 x0 x1 xs1 xs2 xs3).2.2.2.2.2.1) = k0_pay14 (F := Ideal) x0 x1 xs2 := by
  rw [View.read_writes_eq_canon _ _ _ (fun y => View.cover_of_tiledL _ S16x64.size (by sl_kernel_rfl) y)]
  unfold kernelRun0_C
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

theorem accC_3 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32) :
    arg10.view.read (Elt Ideal) (arg10.view.writes (Elt Ideal) arg10.view.junk (kernelRun0_C (F := Ideal) c i arg2 harg2 arg3 harg3 arg4 harg4 arg5 harg5 arg6 harg6 arg7 harg7 arg8 harg8 arg9 harg9 arg10 harg10 hc0 hc1 x0 x1 xs1 xs2 xs3).2.2.2.2.2.2.1) = k0_pay13 (F := Ideal) x1 xs3 := by
  rw [View.read_writes_eq_canon _ _ _ (fun y => View.cover_of_tiledL _ S1x16.size (by sl_kernel_rfl) y)]
  unfold kernelRun0_C
  dsimp only
  sl_unfold_words
  rw [View.canon_unit_zero hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

theorem outC_2 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32)
    (v : View sig .tc .vmem S1x16x64x64 .f32) :
    v.read (Elt Ideal) (v.writes (Elt Ideal) v.junk (kernelRun0_C (F := Ideal) c i arg2 harg2 arg3 harg3 arg4 harg4 arg5 harg5 arg6 harg6 arg7 harg7 arg8 harg8 arg9 harg9 arg10 harg10 hc0 hc1 x0 x1 xs1 xs2 xs3).1) = k0_pay4 (F := Ideal) (k0_pay3 (F := Ideal) (k0_pay10 x0) (packed x0 x1) xs1) := by
  rw [View.read_writes_eq_canon _ _ _ (fun y => View.cover_of_tiledL _ S1x16x64x64.size (by sl_kernel_rfl) y)]
  unfold kernelRun0_C
  dsimp only
  sl_unfold_words
  rw [View.canon_unit_zero hz4, View.readCov_unit_zero (S := S1024x64) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]
  exact congrArg (fun v => k0_pay4 (F := Ideal) (k0_pay3 (F := Ideal) (k0_pay10 x0) v xs1)) (packed_load arg7.view x0 x1 _)

theorem outC_3 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32)
    (v : View sig .tc .vmem S1x16x64 .f32) :
    v.read (Elt Ideal) (v.writes (Elt Ideal) v.junk (kernelRun0_C (F := Ideal) c i arg2 harg2 arg3 harg3 arg4 harg4 arg5 harg5 arg6 harg6 arg7 harg7 arg8 harg8 arg9 harg9 arg10 harg10 hc0 hc1 x0 x1 xs1 xs2 xs3).2.1) = k0_pay5 (F := Ideal) (k0_pay14 (F := Ideal) x0 x1 xs2) := by
  rw [View.read_writes_eq_canon _ _ _ (fun y => View.cover_of_tiledL _ S1x16x64.size (by sl_kernel_rfl) y)]
  unfold kernelRun0_C
  dsimp only
  sl_unfold_words
  rw [View.canon_unit_zero hz3, View.readCov_unit_zero (S := S16x64) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

theorem outC_4 (c : Dev nD) (i : grid0.Coords) (arg2 : Memref sig .tc .vmem S4096x64 .f32) (harg2 : arg2.IsWhole) (arg3 : Memref sig .tc .vmem S32x128 .i32) (harg3 : arg3.IsWhole) (arg4 : Memref sig .tc .vmem S1x16x64x64 .f32) (harg4 : arg4.IsWhole) (arg5 : Memref sig .tc .vmem S1x16x64 .f32) (harg5 : arg5.IsWhole) (arg6 : Memref sig .tc .vmem S1x1x16 .f32) (harg6 : arg6.IsWhole) (arg7 : Memref sig .tc .vmem S4096x1024 .bf16) (harg7 : arg7.IsWhole) (arg8 : Memref sig .tc .vmem S1024x64 .f32) (harg8 : arg8.IsWhole) (arg9 : Memref sig .tc .vmem S16x64 .f32) (harg9 : arg9.IsWhole) (arg10 : Memref sig .tc .vmem S1x16 .f32) (harg10 : arg10.IsWhole) (hc0 : ¬cond0_0 i) (hc1 : cond0_1 i) (x0 : Vec Ideal S4096x64 .f32) (x1 : Vec Ideal S32x128 .i32) (xs1 : Vec Ideal S1024x64 .f32) (xs2 : Vec Ideal S16x64 .f32) (xs3 : Vec Ideal S1x16 .f32)
    (v : View sig .tc .vmem S1x1x16 .f32) :
    v.read (Elt Ideal) (v.writes (Elt Ideal) v.junk (kernelRun0_C (F := Ideal) c i arg2 harg2 arg3 harg3 arg4 harg4 arg5 harg5 arg6 harg6 arg7 harg7 arg8 harg8 arg9 harg9 arg10 harg10 hc0 hc1 x0 x1 xs1 xs2 xs3).2.2.1) = k0_pay6 (F := Ideal) (k0_pay13 (F := Ideal) x1 xs3) := by
  rw [View.read_writes_eq_canon _ _ _ (fun y => View.cover_of_tiledL _ S1x1x16.size (by sl_kernel_rfl) y)]
  unfold kernelRun0_C
  dsimp only
  sl_unfold_words
  rw [View.canon_unit_zero hz3, View.readCov_unit_zero (S := S1x16) _ hz2]
  simp only [View.readAt_eq_ld, harg2.read_unread, harg3.read_unread, harg8.read_unread, harg9.read_unread, harg10.read_unread,
    View.ld_unit_zero (S := S4096x64) hz2, View.ld_unit_zero (S := S32x128) hz2, View.ld_unit_zero (S := S1024x64) hz2,
    View.ld_unit_zero (S := S16x64) hz2, View.ld_unit_zero (S := S1x16) hz2]

end Cert.KernelIdeal.Val

end
-- ==== Proof.LibLeadingAxes.lean ====
/-
  Row-major shape casts that merge, or split, the two LEADING axes of an array, read at coordinates.

  An [a, b, c] array and an [m, c] array with m = a·b hold the same entries in the same row-major order: the entry at
  (n, k, f) of the first sits at position (n·b + k)·c + f, the entry at (r, f) of the second at r·c + f, and the two agree
  exactly when r = n·b + k. So casting [a, b, c] to [m, c] reads, at (r, f), the operand at (n, k, f), and casting back
  reads, at (n, k, f), the operand at (r, f). A tile of a·b rows viewed as a flat stack of rows, and a flat stack of rows
  viewed again as a stack of tiles of b rows each, are these two casts. The row number is passed with its equation, so the lemmas
  hold for any way the caller names row n·b + k.
-/
import Idealize.ShloMosaic.Lib.Pipeline.Value
import Idealize.ShloMosaic.Lib.ValueIdx

namespace Cert.LeadingAxes

open Idealize.ShloMosaic Idealize.ShloMosaic.ValueIdx

variable {α : Type}

/-- The two leading axes merged: [a, b, c] cast to [m, c] reads, at (r, f) with r = n·b + k, the operand at (n, k, f). -/
theorem merge_apply {a b c m : ℕ} (x : (⟨3, ![a, b, c]⟩ : Shape).Idx → α)
    (h : (⟨3, ![a, b, c]⟩ : Shape).ShapeCasts ⟨2, ![m, c]⟩) (n : Fin a) (k : Fin b) (f : Fin c) (r : Fin m)
    (hr : r.val = n.val * b + k.val) :
    shapeCast ⟨2, ![m, c]⟩ x h (ix2 r f) = x (ix3 n k f) :=
  shapeCast_apply x h _ _ (by
    rw [Shape.rowMajor_val_three, Shape.rowMajor_val_two]
    show (n.val * b + k.val) * c + f.val = r.val * c + f.val
    rw [hr])

/-- The leading axis split in two: [m, c] cast to [a, b, c] reads, at (n, k, f), the operand at (r, f) with r = n·b + k. -/
theorem split_apply {a b c m : ℕ} (x : (⟨2, ![m, c]⟩ : Shape).Idx → α)
    (h : (⟨2, ![m, c]⟩ : Shape).ShapeCasts ⟨3, ![a, b, c]⟩) (n : Fin a) (k : Fin b) (f : Fin c) (r : Fin m)
    (hr : r.val = n.val * b + k.val) :
    shapeCast ⟨3, ![a, b, c]⟩ x h (ix3 n k f) = x (ix2 r f) :=
  shapeCast_apply x h _ _ (by
    rw [Shape.rowMajor_val_two, Shape.rowMajor_val_three]
    show r.val * c + f.val = (n.val * b + k.val) * c + f.val
    rw [hr])

end Cert.LeadingAxes
-- ==== Proof.KiPayOut.lean ====
/-
  The write-outs and the zeroing of the accumulators, read at an index.

  At the last step of a half the three accumulators are copied to the output blocks through casts that keep the row-major
  order: the [1024, 64] Gram accumulator is viewed as [16, 64, 64] (row `64 s + a` becomes `(s, a)`) and then given a
  leading unit axis; the [16, 64] sums and the [1, 16] counts are given a leading unit axis. At the first step of a half
  the three accumulators are filled with the zero word, which is the number zero.
-/
import proofs.«103410_j88596585382423_2_alg».proof.Proof.Gen.KernelIdeal.Skeleton
import proofs.«103410_j88596585382423_2_alg».proof.Proof.Spec
import proofs.«103410_j88596585382423_2_alg».proof.Proof.LibLeadingAxes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The Gram accumulator written out: entry `(0, s, a, b)` is row `64 s + a`, column `b`. -/
theorem pay4_apply (v135 : Vec Ideal S1024x64 .f32) (s : Fin 16) (a b : Fin 64) :
    k0_pay4 (F := Ideal) v135 (ix4 (0 : Fin 1) s a b) = v135 (ix2 (⟨64 * s.val + a.val, by omega⟩ : Fin 1024) b) := by
  unfold k0_pay4
  refine (shapeCast_abc_1abc_apply _ _ (0 : Fin 1) s a b).trans ?_
  exact Cert.LeadingAxes.split_apply v135 _ s a b (⟨64 * s.val + a.val, by omega⟩ : Fin 1024)
    (by show 64 * s.val + a.val = s.val * 64 + a.val; omega)

/-- The sums written out. -/
theorem pay5_apply (v140 : Vec Ideal S16x64 .f32) (s : Fin 16) (d : Fin 64) :
    k0_pay5 (F := Ideal) v140 (ix3 (0 : Fin 1) s d) = v140 (ix2 s d) := by
  unfold k0_pay5
  exact shapeCast_ab_1ab_apply v140 _ (0 : Fin 1) s d

/-- The counts written out. -/
theorem pay6_apply (v144 : Vec Ideal S1x16 .f32) (s : Fin 16) :
    k0_pay6 (F := Ideal) v144 (ix3 (0 : Fin 1) (0 : Fin 1) s) = v144 (ix2 (0 : Fin 1) s) := by
  unfold k0_pay6
  exact shapeCast_ab_1ab_apply v144 _ (0 : Fin 1) (0 : Fin 1) s

/-- The Gram accumulator's zeroing: every entry is zero. -/
theorem pay7_apply (i : S1024x64.Idx) : k0_pay7 (F := Ideal) i = 0 := by
  unfold k0_pay7
  rw [shapeCast_self, broadcast_apply]
  exact Ideal.ofBits_zero_f32

/-- The sums' zeroing. -/
theorem pay8_apply (i : S16x64.Idx) : k0_pay8 (F := Ideal) i = 0 := by
  unfold k0_pay8
  rw [shapeCast_self, broadcast_apply]
  exact Ideal.ofBits_zero_f32

/-- The counts' zeroing. -/
theorem pay9_apply (i : S1x16.Idx) : k0_pay9 (F := Ideal) i = 0 := by
  unfold k0_pay9
  rw [shapeCast_self, broadcast_apply]
  exact Ideal.ofBits_zero_f32

end Cert.KernelIdeal.Pay

end
-- ==== Proof.LibResetSum.lean ====
/-
  An accumulator that is reset every `B` steps.

  Steps are numbered `0, 1, 2, …`; step `n` contributes a term `P n` of an additive commutative monoid. At a step whose
  number is divisible by `B` the accumulator is set to the step's term alone; at every other step the term is added to
  what the accumulator holds. `running B P n` is what it holds after step `n`. Then

    * after step `n` it holds the terms of the steps since the last multiple of `B`:
      `running B P n = ∑ i < n % B + 1, P (n − n % B + i)`  (`running_eq`);
    * after the last step of the `c`-th group of `B` steps it holds the sum of the group's `B` terms:
      `running B P (B c + (B − 1)) = ∑ t < B, P (B c + t)`  (`running_last`).

  Only associativity of the sum is used (no subtraction, no cancellation), so the statements apply to the extended
  reals as they are. This is what an output block of a grid computation holds when it is zeroed at the first point of a
  reduction axis of extent `B` and added into at the later ones.
-/
import Mathlib.Algebra.BigOperators.Fin
import Mathlib.Tactic.Common

open scoped BigOperators

namespace Cert.LibResetSum

variable {M : Type*} [AddCommMonoid M]

/-- What the accumulator holds after step `n`. -/
def running (B : ℕ) (P : ℕ → M) : ℕ → M
  | 0 => P 0
  | n + 1 => if (n + 1) % B = 0 then P (n + 1) else running B P n + P (n + 1)

theorem running_zero (B : ℕ) (P : ℕ → M) : running B P 0 = P 0 := rfl

/-- A step divisible by `B` resets. -/
theorem running_reset (B : ℕ) (P : ℕ → M) (n : ℕ) (h : (n + 1) % B = 0) : running B P (n + 1) = P (n + 1) := by
  rw [running, if_pos h]

/-- Every other step adds. -/
theorem running_step (B : ℕ) (P : ℕ → M) (n : ℕ) (h : ¬(n + 1) % B = 0) :
    running B P (n + 1) = running B P n + P (n + 1) := by
  rw [running, if_neg h]

/-- Unless `n + 1` is divisible by `B`, its remainder is the remainder of `n` plus one. -/
theorem succ_mod_of_ne (B n : ℕ) (h : ¬(n + 1) % B = 0) : (n + 1) % B = n % B + 1 := by
  rcases Nat.eq_zero_or_pos B with rfl | hB
  · simp
  · have hr : n % B < B := Nat.mod_lt n hB
    have hn : B * (n / B) + n % B = n := Nat.div_add_mod n B
    by_cases hlt : n % B + 1 < B
    · have e : n + 1 = B * (n / B) + (n % B + 1) := by omega
      calc (n + 1) % B = (B * (n / B) + (n % B + 1)) % B := congrArg (· % B) e
        _ = (n % B + 1) % B := Nat.mul_add_mod _ _ _
        _ = n % B + 1 := Nat.mod_eq_of_lt hlt
    · exfalso
      apply h
      have h1 : n % B + 1 = B := by omega
      have e : n + 1 = B * (n / B + 1) := by rw [Nat.mul_add, Nat.mul_one]; omega
      rw [e]
      exact Nat.mul_mod_right _ _

/-- After step `n` the accumulator holds the terms of the steps since the last multiple of `B`. -/
theorem running_eq (B : ℕ) (P : ℕ → M) : ∀ n : ℕ, running B P n = ∑ i ∈ Finset.range (n % B + 1), P (n - n % B + i)
  | 0 => by simp [running]
  | n + 1 => by
    by_cases h : (n + 1) % B = 0
    · rw [running_reset B P n h, h]
      simp
    · have h1 := succ_mod_of_ne B n h
      have hle : n % B ≤ n := Nat.mod_le n B
      have h2 : n + 1 - (n % B + 1) = n - n % B := by omega
      have h3 : n - n % B + (n % B + 1) = n + 1 := by omega
      rw [running_step B P n h, running_eq B P n, h1, h2,
        Finset.sum_range_succ (fun i => P (n - n % B + i)) (n % B + 1), h3]

/-- After the last step of the `c`-th group of `B` steps it holds the sum of the group's `B` terms. -/
theorem running_last (B : ℕ) (hB : 0 < B) (P : ℕ → M) (c : ℕ) :
    running B P (B * c + (B - 1)) = ∑ t : Fin B, P (B * c + t.val) := by
  have h1 : (B * c + (B - 1)) % B = B - 1 := by
    rw [Nat.mul_add_mod]
    exact Nat.mod_eq_of_lt (by omega)
  have h2 : B * c + (B - 1) - (B - 1) = B * c := Nat.add_sub_cancel ..
  have h3 : B - 1 + 1 = B := Nat.sub_add_cancel hB
  rw [running_eq, h1, h2, h3]
  exact Finset.sum_range fun i => P (B * c + i)

end Cert.LibResetSum
-- ==== Proof.KiValInd.lean ====
/-
  The accumulators along the grid.

  The 128 points are two halves of 64 consecutive steps. At the first step of a half the three accumulators are zeroed and
  the block's contributions added; at every later step the block's contributions are added to what the step before left. So
  after point `n` each accumulator holds the sum of the contributions of the points of `n`'s half up to `n`: an accumulator
  reset every 64 steps. At the last step of a half the three output buffers receive the accumulators' write-outs.

  The blocks' contributions enter as three families `T8`, `T9`, `T10` indexed by the point's number, with the hypothesis
  that they are the contributions of the blocks the windows hand the body; the module that reads the blocks off the
  arrays supplies them.
-/
import proofs.«103410_j88596585382423_2_alg».proof.Proof.KiFrame
import proofs.«103410_j88596585382423_2_alg».proof.Proof.KiValBlock
import proofs.«103410_j88596585382423_2_alg».proof.Proof.KiValPieceA
import proofs.«103410_j88596585382423_2_alg».proof.Proof.KiValPieceB
import proofs.«103410_j88596585382423_2_alg».proof.Proof.KiValPieceC
import proofs.«103410_j88596585382423_2_alg».proof.Proof.KiPayOut
import proofs.«103410_j88596585382423_2_alg».proof.Proof.LibResetSum

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)
open Cert.LibResetSum

variable (m : (ℓ : Loc nD τ sig) → Buf (Elt Ideal) ℓ)

/-- The accumulators zeroed. -/
abbrev zeroAcc : Acc Ideal := (k0_pay7 (F := Ideal), k0_pay8 (F := Ideal), k0_pay9 (F := Ideal))

/-- One step's update of the three accumulators from a block. -/
abbrev nextAcc (x0 : Vec Ideal S4096x64 .f32) (x1 : Vec Ideal S32x128 .i32) (a : Acc Ideal) : Acc Ideal :=
  (k0_pay3 (F := Ideal) (k0_pay10 x0) (packed x0 x1) a.1, k0_pay14 (F := Ideal) x0 x1 a.2.1, k0_pay13 (F := Ideal) x1 a.2.2)

/-- The update adds the block's contributions entry by entry. -/
theorem nextAcc_eq (x0 : Vec Ideal S4096x64 .f32) (x1 : Vec Ideal S32x128 .i32) (a : Acc Ideal) :
    nextAcc x0 x1 a = ((fun j => a.1 j + gramB x0 x1 j), (fun j => a.2.1 j + sumB x0 x1 j), (fun j => a.2.2 j + cntB x1 j)) :=
  congr (congrArg Prod.mk (pay3_eq x0 x1 a.1)) (congr (congrArg Prod.mk (pay14_eq x0 x1 a.2.1)) (pay13_eq x1 a.2.2))

/-- From the zeroed accumulators the update leaves the block's contributions. -/
theorem nextAcc_zero (x0 : Vec Ideal S4096x64 .f32) (x1 : Vec Ideal S32x128 .i32) :
    nextAcc x0 x1 zeroAcc = (gramB x0 x1, sumB x0 x1, cntB x1) := by
  refine (nextAcc_eq x0 x1 zeroAcc).trans ?_
  refine congr (congrArg Prod.mk (funext fun j => ?_)) (congr (congrArg Prod.mk (funext fun j => ?_)) (funext fun j => ?_))
  · show k0_pay7 (F := Ideal) j + _ = _
    rw [pay7_apply, zero_add]
  · show k0_pay8 (F := Ideal) j + _ = _
    rw [pay8_apply, zero_add]
  · show k0_pay9 (F := Ideal) j + _ = _
    rw [pay9_apply, zero_add]

/-! ## The three kinds of step, read off the runs -/

theorem stepA_acc (c : Dev nD) (t : Fin cfg0.N) (h0 : t.val % 64 = 0) (h1 : ¬t.val % 64 = 63) :
    accOf (stepA (F := Ideal) m c t h0 h1) = nextAcc (iblk m c 0 t) (iblk m c 1 t) zeroAcc :=
  congr (congrArg Prod.mk (accA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t)))
    (congr (congrArg Prod.mk (accA_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t)))
      (accA_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t)))

theorem stepB_acc (c : Dev nD) (t : Fin cfg0.N) (h0 : ¬t.val % 64 = 0) (h1 : ¬t.val % 64 = 63) (a : Acc Ideal) :
    accOf (stepB (F := Ideal) m c t h0 h1 a) = nextAcc (iblk m c 0 t) (iblk m c 1 t) a :=
  congr (congrArg Prod.mk (accB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))
    (congr (congrArg Prod.mk (accB_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))
      (accB_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))

theorem stepC_acc (c : Dev nD) (t : Fin cfg0.N) (h0 : ¬t.val % 64 = 0) (h1 : t.val % 64 = 63) (a : Acc Ideal) :
    accOf (stepC (F := Ideal) m c t h0 h1 a) = nextAcc (iblk m c 0 t) (iblk m c 1 t) a :=
  congr (congrArg Prod.mk (accC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))
    (congr (congrArg Prod.mk (accC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))
      (accC_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) _ _ (iblk m c 0 t) (iblk m c 1 t) a.1 a.2.1 a.2.2))

theorem stepC_out2 (c : Dev nD) (t : Fin cfg0.N) (h0 : ¬t.val % 64 = 0) (h1 : t.val % 64 = 63) (a : Acc Ideal) :
    (stepC (F := Ideal) m c t h0 h1 a).1 = k0_pay4 (F := Ideal) (nextAcc (iblk m c 0 t) (iblk m c 1 t) a).1 := by
  have e := outC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) a.1 a.2.1 a.2.2 VO0_2
  unfold stepC
  dsimp only
  exact e

theorem stepC_out3 (c : Dev nD) (t : Fin cfg0.N) (h0 : ¬t.val % 64 = 0) (h1 : t.val % 64 = 63) (a : Acc Ideal) :
    (stepC (F := Ideal) m c t h0 h1 a).2.1 = k0_pay5 (F := Ideal) (nextAcc (iblk m c 0 t) (iblk m c 1 t) a).2.1 := by
  unfold stepC
  exact outC_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) a.1 a.2.1 a.2.2 VO0_3

theorem stepC_out4 (c : Dev nD) (t : Fin cfg0.N) (h0 : ¬t.val % 64 = 0) (h1 : t.val % 64 = 63) (a : Acc Ideal) :
    (stepC (F := Ideal) m c t h0 h1 a).2.2.1 = k0_pay6 (F := Ideal) (nextAcc (iblk m c 0 t) (iblk m c 1 t) a).2.2 := by
  unfold stepC
  exact outC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) a.1 a.2.1 a.2.2 VO0_4

/-! ## The accumulators after each point -/

/-- After point `n` the accumulators hold the contributions of the points of `n`'s half up to `n`. -/
theorem acc_eq (c : Dev nD) (T8 : ℕ → S1024x64.Idx → EReal) (T9 : ℕ → S16x64.Idx → EReal) (T10 : ℕ → S1x16.Idx → EReal)
    (h8 : ∀ t : Fin cfg0.N, gramB (iblk m c 0 t) (iblk m c 1 t) = T8 t.val)
    (h9 : ∀ t : Fin cfg0.N, sumB (iblk m c 0 t) (iblk m c 1 t) = T9 t.val)
    (h10 : ∀ t : Fin cfg0.N, cntB (iblk m c 1 t) = T10 t.val) :
    ∀ (n : ℕ) (hn : n < cfg0.N), accOf (outsAt0 (F := Ideal) m c n hn) = (running 64 T8 n, running 64 T9 n, running 64 T10 n)
  | 0, hn => by
    refine (congrArg accOf (outsAt0_A m c ⟨0, hn⟩ (Nat.zero_mod _) (by show ¬(0 : ℕ) % 64 = 63; decide))).trans ?_
    refine (stepA_acc m c ⟨0, hn⟩ (Nat.zero_mod _) (by show ¬(0 : ℕ) % 64 = 63; decide)).trans ?_
    refine (nextAcc_zero _ _).trans ?_
    exact congr (congrArg Prod.mk (h8 ⟨0, hn⟩)) (congr (congrArg Prod.mk (h9 ⟨0, hn⟩)) (h10 ⟨0, hn⟩))
  | n + 1, hn => by
    by_cases h0 : (n + 1) % 64 = 0
    · have h1 : ¬(n + 1) % 64 = 63 := by omega
      refine (congrArg accOf (outsAt0_A m c ⟨n + 1, hn⟩ h0 h1)).trans ?_
      refine (stepA_acc m c ⟨n + 1, hn⟩ h0 h1).trans ?_
      refine (nextAcc_zero _ _).trans ?_
      rw [running_reset 64 T8 n h0, running_reset 64 T9 n h0, running_reset 64 T10 n h0]
      exact congr (congrArg Prod.mk (h8 ⟨n + 1, hn⟩)) (congr (congrArg Prod.mk (h9 ⟨n + 1, hn⟩)) (h10 ⟨n + 1, hn⟩))
    · have ih : accOf (outsAt0 (F := Ideal) m c ((⟨n + 1, hn⟩ : Fin cfg0.N).val - 1) (Nat.lt_of_le_of_lt (Nat.sub_le _ _) (⟨n + 1, hn⟩ : Fin cfg0.N).isLt))
          = (running 64 T8 n, running 64 T9 n, running 64 T10 n) :=
        acc_eq c T8 T9 T10 h8 h9 h10 n (Nat.lt_of_succ_lt hn)
      have fin : nextAcc (iblk m c 0 ⟨n + 1, hn⟩) (iblk m c 1 ⟨n + 1, hn⟩) (running 64 T8 n, running 64 T9 n, running 64 T10 n)
          = (running 64 T8 (n + 1), running 64 T9 (n + 1), running 64 T10 (n + 1)) := by
        refine (nextAcc_eq _ _ _).trans ?_
        rw [running_step 64 T8 n h0, running_step 64 T9 n h0, running_step 64 T10 n h0,
          ← h8 ⟨n + 1, hn⟩, ← h9 ⟨n + 1, hn⟩, ← h10 ⟨n + 1, hn⟩]
        rfl
      by_cases h1 : (n + 1) % 64 = 63
      · refine (congrArg accOf (outsAt0_C m c ⟨n + 1, hn⟩ h0 h1)).trans ?_
        refine (stepC_acc m c ⟨n + 1, hn⟩ h0 h1 _).trans ?_
        exact (congrArg (nextAcc (iblk m c 0 ⟨n + 1, hn⟩) (iblk m c 1 ⟨n + 1, hn⟩)) ih).trans fin
      · refine (congrArg accOf (outsAt0_B m c ⟨n + 1, hn⟩ h0 h1)).trans ?_
        refine (stepB_acc m c ⟨n + 1, hn⟩ h0 h1 _).trans ?_
        exact (congrArg (nextAcc (iblk m c 0 ⟨n + 1, hn⟩) (iblk m c 1 ⟨n + 1, hn⟩)) ih).trans fin

/-- At the last step of a half the update's result is what the accumulators hold after it. -/
theorem nextAcc_last (c : Dev nD) (T8 : ℕ → S1024x64.Idx → EReal) (T9 : ℕ → S16x64.Idx → EReal) (T10 : ℕ → S1x16.Idx → EReal)
    (h8 : ∀ t : Fin cfg0.N, gramB (iblk m c 0 t) (iblk m c 1 t) = T8 t.val)
    (h9 : ∀ t : Fin cfg0.N, sumB (iblk m c 0 t) (iblk m c 1 t) = T9 t.val)
    (h10 : ∀ t : Fin cfg0.N, cntB (iblk m c 1 t) = T10 t.val) (t : Fin cfg0.N) (h0 : ¬t.val % 64 = 0) (h1 : t.val % 64 = 63) :
    nextAcc (iblk m c 0 t) (iblk m c 1 t) (accOf (outsAt0 (F := Ideal) m c (t.val - 1) (Nat.lt_of_le_of_lt (Nat.sub_le _ _) t.isLt)))
      = (running 64 T8 t.val, running 64 T9 t.val, running 64 T10 t.val) :=
  ((stepC_acc m c t h0 h1 _).symm.trans (congrArg accOf (outsAt0_C m c t h0 h1)).symm).trans
    (acc_eq m c T8 T9 T10 h8 h9 h10 t.val t.isLt)

/-- The three output buffers after the last step of a half: the write-outs of the half's sums. -/
theorem out2_last (c : Dev nD) (T8 : ℕ → S1024x64.Idx → EReal) (T9 : ℕ → S16x64.Idx → EReal) (T10 : ℕ → S1x16.Idx → EReal)
    (h8 : ∀ t : Fin cfg0.N, gramB (iblk m c 0 t) (iblk m c 1 t) = T8 t.val)
    (h9 : ∀ t : Fin cfg0.N, sumB (iblk m c 0 t) (iblk m c 1 t) = T9 t.val)
    (h10 : ∀ t : Fin cfg0.N, cntB (iblk m c 1 t) = T10 t.val) (t : Fin cfg0.N) (h1 : t.val % 64 = 63) :
    (outsAt0 (F := Ideal) m c t.val t.isLt).1 = k0_pay4 (F := Ideal) (running 64 T8 t.val) := by
  have h0 : ¬t.val % 64 = 0 := by omega
  refine (congrArg (fun o : Outs Ideal => o.1) (outsAt0_C m c t h0 h1)).trans ?_
  refine (stepC_out2 m c t h0 h1 _).trans ?_
  exact congrArg (fun a : Acc Ideal => k0_pay4 (F := Ideal) a.1) (nextAcc_last m c T8 T9 T10 h8 h9 h10 t h0 h1)

theorem out3_last (c : Dev nD) (T8 : ℕ → S1024x64.Idx → EReal) (T9 : ℕ → S16x64.Idx → EReal) (T10 : ℕ → S1x16.Idx → EReal)
    (h8 : ∀ t : Fin cfg0.N, gramB (iblk m c 0 t) (iblk m c 1 t) = T8 t.val)
    (h9 : ∀ t : Fin cfg0.N, sumB (iblk m c 0 t) (iblk m c 1 t) = T9 t.val)
    (h10 : ∀ t : Fin cfg0.N, cntB (iblk m c 1 t) = T10 t.val) (t : Fin cfg0.N) (h1 : t.val % 64 = 63) :
    (outsAt0 (F := Ideal) m c t.val t.isLt).2.1 = k0_pay5 (F := Ideal) (running 64 T9 t.val) := by
  have h0 : ¬t.val % 64 = 0 := by omega
  refine (congrArg (fun o : Outs Ideal => o.2.1) (outsAt0_C m c t h0 h1)).trans ?_
  refine (stepC_out3 m c t h0 h1 _).trans ?_
  exact congrArg (fun a : Acc Ideal => k0_pay5 (F := Ideal) a.2.1) (nextAcc_last m c T8 T9 T10 h8 h9 h10 t h0 h1)

theorem out4_last (c : Dev nD) (T8 : ℕ → S1024x64.Idx → EReal) (T9 : ℕ → S16x64.Idx → EReal) (T10 : ℕ → S1x16.Idx → EReal)
    (h8 : ∀ t : Fin cfg0.N, gramB (iblk m c 0 t) (iblk m c 1 t) = T8 t.val)
    (h9 : ∀ t : Fin cfg0.N, sumB (iblk m c 0 t) (iblk m c 1 t) = T9 t.val)
    (h10 : ∀ t : Fin cfg0.N, cntB (iblk m c 1 t) = T10 t.val) (t : Fin cfg0.N) (h1 : t.val % 64 = 63) :
    (outsAt0 (F := Ideal) m c t.val t.isLt).2.2.1 = k0_pay6 (F := Ideal) (running 64 T10 t.val) := by
  have h0 : ¬t.val % 64 = 0 := by omega
  refine (congrArg (fun o : Outs Ideal => o.2.2.1) (outsAt0_C m c t h0 h1)).trans ?_
  refine (stepC_out4 m c t h0 h1 _).trans ?_
  exact congrArg (fun a : Acc Ideal => k0_pay6 (F := Ideal) a.2.2) (nextAcc_last m c T8 T9 T10 h8 h9 h10 t h0 h1)

end Cert.KernelIdeal.Val

end
-- ==== Proof.KiValFinal.lean ====
/-
  What the three output arrays hold after the region.

  Output block `p` of each array is written back once, at the last step of half `p` (point `64 p + 63`), with the write-out of
  the half's accumulator: entry `(p, s, a, b)` of the Gram output is the sum over the half's 64 blocks and each block's 4096
  rows of `(x a * w s) * x b`; entry `(p, s, d)` of the sums output the sum of `w s * x d`; entry `(p, 0, s)` of the counts
  output the sum of `w s`. The two halves' blocks tile each array, so the arrays end holding these functions.
-/
import proofs.«103410_j88596585382423_2_alg».proof.Proof.KiFrame
import proofs.«103410_j88596585382423_2_alg».proof.Proof.KiValBlock
import proofs.«103410_j88596585382423_2_alg».proof.Proof.KiValBlk
import proofs.«103410_j88596585382423_2_alg».proof.Proof.KiValInd
import proofs.«103410_j88596585382423_2_alg».proof.Proof.KiPayOut
import proofs.«103410_j88596585382423_2_alg».proof.Proof.KiSum
import proofs.«103410_j88596585382423_2_alg».proof.Proof.LibResetSum
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Frame Cert.KernelIdeal.Pay Cert.Spec
open Idealize.ShloMosaic Idealize.ShloMosaic.ValueIdx Idealize.ShloMosaic.TcCoe Idealize.ShloMosaic.Tactic Idealize.SL.Sem
open Idealize.ShloMosaic.Pipeline (Dat)
open Cert.LibResetSum

variable (m : (ℓ : Loc nD τ sig) → Buf (Elt Ideal) ℓ)

/-- The Gram output: per half, subject and pair of coordinates, the sum over the half's blocks and rows. -/
def G2 (x : Emb) (sid : Ids) : FVec Ideal S2x16x64x64 .f32 :=
  fun i => ∑ k : Fin 64, ∑ r : Fin 4096,
    (x (ix2 (row (blk (i 0) k) r) (i 2)) * oneHot sid (row (blk (i 0) k) r) (i 1)) * x (ix2 (row (blk (i 0) k) r) (i 3))
/-- The sums output. -/
def G3 (x : Emb) (sid : Ids) : FVec Ideal S2x16x64 .f32 :=
  fun i => ∑ k : Fin 64, ∑ r : Fin 4096, oneHot sid (row (blk (i 0) k) r) (i 1) * x (ix2 (row (blk (i 0) k) r) (i 2))
/-- The counts output. -/
def G4 (sid : Ids) : FVec Ideal S2x1x16 .f32 :=
  fun i => ∑ k : Fin 64, ∑ r : Fin 4096, oneHot sid (row (blk (i 0) k) r) (i 2)

theorem G2_apply (x : Emb) (sid : Ids) (p : Fin 2) (s : Fin 16) (a b : Fin 64) :
    G2 x sid (ix4 p s a b) = ∑ k : Fin 64, ∑ r : Fin 4096,
      (x (ix2 (row (blk p k) r) a) * oneHot sid (row (blk p k) r) s) * x (ix2 (row (blk p k) r) b) := rfl
theorem G3_apply (x : Emb) (sid : Ids) (p : Fin 2) (s : Fin 16) (d : Fin 64) :
    G3 x sid (ix3 p s d) = ∑ k : Fin 64, ∑ r : Fin 4096, oneHot sid (row (blk p k) r) s * x (ix2 (row (blk p k) r) d) := rfl
theorem G4_apply (sid : Ids) (p : Fin 2) (s : Fin 16) :
    G4 sid (ix3 p (0 : Fin 1) s) = ∑ k : Fin 64, ∑ r : Fin 4096, oneHot sid (row (blk p k) r) s := rfl

/-- After the last step of half `p` an accumulator holds the sum of the half's 64 contributions. -/
theorem running_half {M : Type*} [AddCommMonoid M] (P : ℕ → M) (p : ℕ) :
    running 64 P (64 * p + 63) = ∑ k : Fin 64, P (64 * p + k.val) :=
  running_last 64 (by norm_num) P p

/-! ## A half's write-outs, entry by entry -/

theorem half_out2 (x : Emb) (sid : Ids) (p : Fin 2) (n : ℕ) (hn : n = 64 * p.val + 63) (s : Fin 16) (a b : Fin 64) :
    k0_pay4 (F := Ideal) (running 64 (T8 x sid) n) (ix4 (0 : Fin 1) s a b) = G2 x sid (ix4 p s a b) := by
  subst hn
  have hq : 64 * s.val + a.val < 1024 := by have := s.isLt; have := a.isLt; omega
  have ec : colOf (⟨64 * s.val + a.val, hq⟩ : Fin 1024) = a := Fin.ext (by show (64 * s.val + a.val) % 64 = a.val; have := a.isLt; omega)
  have es : subjOf (⟨64 * s.val + a.val, hq⟩ : Fin 1024) = s := Fin.ext (by show (64 * s.val + a.val) / 64 = s.val; have := a.isLt; omega)
  rw [pay4_apply, running_half, Finset.sum_apply, G2_apply]
  refine Finset.sum_congr rfl fun k _ => ?_
  rw [T8_apply, ec, es]
  exact Finset.sum_congr rfl fun r _ => by rw [rowN_blk]

theorem half_out3 (x : Emb) (sid : Ids) (p : Fin 2) (n : ℕ) (hn : n = 64 * p.val + 63) (s : Fin 16) (d : Fin 64) :
    k0_pay5 (F := Ideal) (running 64 (T9 x sid) n) (ix3 (0 : Fin 1) s d) = G3 x sid (ix3 p s d) := by
  subst hn
  rw [pay5_apply, running_half, Finset.sum_apply, G3_apply]
  refine Finset.sum_congr rfl fun k _ => ?_
  rw [T9_apply]
  exact Finset.sum_congr rfl fun r _ => by rw [rowN_blk]

theorem half_out4 (sid : Ids) (p : Fin 2) (n : ℕ) (hn : n = 64 * p.val + 63) (s : Fin 16) :
    k0_pay6 (F := Ideal) (running 64 (T10 sid) n) (ix3 (0 : Fin 1) (0 : Fin 1) s) = G4 sid (ix3 p (0 : Fin 1) s) := by
  subst hn
  rw [pay6_apply, running_half, Finset.sum_apply, G4_apply]
  refine Finset.sum_congr rfl fun k _ => ?_
  rw [T10_apply]
  exact Finset.sum_congr rfl fun r _ => by rw [rowN_blk]

/-! ## The output windows' blocks -/

/-- The printed index maps of the three output windows, decided over the grid: block `p` at every point of half `p`. -/
theorem idx_out : ∀ t : Fin cfg0.N, win0_2.index t (0 : Fin 4) = t.val / 64 ∧ win0_2.index t (1 : Fin 4) = 0
    ∧ win0_2.index t (2 : Fin 4) = 0 ∧ win0_2.index t (3 : Fin 4) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0 :=
  (by decide +kernel : ∀ t : Fin grid0.N, win0_2.index t (0 : Fin 4) = t.val / 64 ∧ win0_2.index t (1 : Fin 4) = 0
    ∧ win0_2.index t (2 : Fin 4) = 0 ∧ win0_2.index t (3 : Fin 4) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0)

theorem lt128 (t : Fin cfg0.N) : t.val < 128 := Nat.lt_of_lt_of_eq t.isLt (show cfg0.N = 128 from N_0)

/-- What a flushing point writes back to the Gram output is its block of `G2`. -/
theorem flushed2_eq (c : Dev nD) (t : Fin cfg0.N) (hf : (cfg0.win 2).flush t = true) :
    (dats (F := Ideal) m 0 c).flushed 2 t = ((cfg0.win 2).blk t).view.read (Elt Ideal) (G2 (xOf m c) (sidOf m c)) := by
  have h1 : t.val % 64 = 63 := (flush0_2 t).mp hf
  have hN := lt128 t
  obtain ⟨e0, e1, e2, e3, -⟩ := idx_out t
  show (cfg0.win 2).cut (grid0.coords t) ((dats (F := Ideal) m 0 c).after 2 t) = _
  rw [after0_2, out2_last m c (T8 (xOf m c) (sidOf m c)) (T9 (xOf m c) (sidOf m c)) (T10 (sidOf m c)) (gramB_iblk m c) (sumB_iblk m c) (cntB_iblk m c) t h1]
  funext j
  rw [View.read_apply]
  have hp : t.val / 64 < 2 := by omega
  have ej : ((cfg0.win 2).blk t).view.emb j = ix4 (⟨t.val / 64, hp⟩ : Fin 2) (j 1) (j 2) (j 3) :=
    funext fun a => Fin.ext (by
      match a with
      | ⟨0, _⟩ => show win0_2.index t (0 : Fin 4) * 1 + 1 * (j 0).val = t.val / 64; rw [e0]; have : (j 0).val < 1 := (j 0).isLt; omega
      | ⟨1, _⟩ => show win0_2.index t (1 : Fin 4) * 16 + 1 * (j 1).val = (j 1).val; rw [e1]; omega
      | ⟨2, _⟩ => show win0_2.index t (2 : Fin 4) * 64 + 1 * (j 2).val = (j 2).val; rw [e2]; omega
      | ⟨3, _⟩ => show win0_2.index t (3 : Fin 4) * 64 + 1 * (j 3).val = (j 3).val; rw [e3]; omega)
  have ex : (cfg0.win 2).xinj (grid0.coords t) j = ix4 (0 : Fin 1) (j 1) (j 2) (j 3) :=
    funext fun a => Fin.ext (by
      match a with
      | ⟨0, _⟩ => show (j 0).val = 0; have : (j 0).val < 1 := (j 0).isLt; omega
      | ⟨1, _⟩ => rfl
      | ⟨2, _⟩ => rfl
      | ⟨3, _⟩ => rfl)
  rw [ej]
  show k0_pay4 (F := Ideal) (running 64 (T8 (xOf m c) (sidOf m c)) t.val) ((cfg0.win 2).xinj (grid0.coords t) j) = _
  rw [ex]
  exact half_out2 (xOf m c) (sidOf m c) ⟨t.val / 64, hp⟩ t.val (by show t.val = 64 * (t.val / 64) + 63; omega) (j 1) (j 2) (j 3)

theorem flushed3_eq (c : Dev nD) (t : Fin cfg0.N) (hf : (cfg0.win 3).flush t = true) :
    (dats (F := Ideal) m 0 c).flushed 3 t = ((cfg0.win 3).blk t).view.read (Elt Ideal) (G3 (xOf m c) (sidOf m c)) := by
  have h1 : t.val % 64 = 63 := (flush0_3 t).mp hf
  have hN := lt128 t
  obtain ⟨-, -, -, -, e0, e1, e2, -⟩ := idx_out t
  show (cfg0.win 3).cut (grid0.coords t) ((dats (F := Ideal) m 0 c).after 3 t) = _
  rw [after0_3, out3_last m c (T8 (xOf m c) (sidOf m c)) (T9 (xOf m c) (sidOf m c)) (T10 (sidOf m c)) (gramB_iblk m c) (sumB_iblk m c) (cntB_iblk m c) t h1]
  funext j
  rw [View.read_apply]
  have hp : t.val / 64 < 2 := by omega
  have ej : ((cfg0.win 3).blk t).view.emb j = ix3 (⟨t.val / 64, hp⟩ : Fin 2) (j 1) (j 2) :=
    funext fun a => Fin.ext (by
      match a with
      | ⟨0, _⟩ => show win0_3.index t (0 : Fin 3) * 1 + 1 * (j 0).val = t.val / 64; rw [e0]; have : (j 0).val < 1 := (j 0).isLt; omega
      | ⟨1, _⟩ => show win0_3.index t (1 : Fin 3) * 16 + 1 * (j 1).val = (j 1).val; rw [e1]; omega
      | ⟨2, _⟩ => show win0_3.index t (2 : Fin 3) * 64 + 1 * (j 2).val = (j 2).val; rw [e2]; omega)
  have ex : (cfg0.win 3).xinj (grid0.coords t) j = ix3 (0 : Fin 1) (j 1) (j 2) :=
    funext fun a => Fin.ext (by
      match a with
      | ⟨0, _⟩ => show (j 0).val = 0; have : (j 0).val < 1 := (j 0).isLt; omega
      | ⟨1, _⟩ => rfl
      | ⟨2, _⟩ => rfl)
  rw [ej]
  show k0_pay5 (F := Ideal) (running 64 (T9 (xOf m c) (sidOf m c)) t.val) ((cfg0.win 3).xinj (grid0.coords t) j) = _
  rw [ex]
  exact half_out3 (xOf m c) (sidOf m c) ⟨t.val / 64, hp⟩ t.val (by show t.val = 64 * (t.val / 64) + 63; omega) (j 1) (j 2)

theorem flushed4_eq (c : Dev nD) (t : Fin cfg0.N) (hf : (cfg0.win 4).flush t = true) :
    (dats (F := Ideal) m 0 c).flushed 4 t = ((cfg0.win 4).blk t).view.read (Elt Ideal) (G4 (sidOf m c)) := by
  have h1 : t.val % 64 = 63 := (flush0_4 t).mp hf
  have hN := lt128 t
  obtain ⟨-, -, -, -, -, -, -, e0, e1, e2⟩ := idx_out t
  show (cfg0.win 4).cut (grid0.coords t) ((dats (F := Ideal) m 0 c).after 4 t) = _
  rw [after0_4, out4_last m c (T8 (xOf m c) (sidOf m c)) (T9 (xOf m c) (sidOf m c)) (T10 (sidOf m c)) (gramB_iblk m c) (sumB_iblk m c) (cntB_iblk m c) t h1]
  funext j
  rw [View.read_apply]
  have hp : t.val / 64 < 2 := by omega
  have ej : ((cfg0.win 4).blk t).view.emb j = ix3 (⟨t.val / 64, hp⟩ : Fin 2) (0 : Fin 1) (j 2) :=
    funext fun a => Fin.ext (by
      match a with
      | ⟨0, _⟩ => show win0_4.index t (0 : Fin 3) * 1 + 1 * (j 0).val = t.val / 64; rw [e0]; have : (j 0).val < 1 := (j 0).isLt; omega
      | ⟨1, _⟩ => show win0_4.index t (1 : Fin 3) * 1 + 1 * (j 1).val = 0; rw [e1]; have : (j 1).val < 1 := (j 1).isLt; omega
      | ⟨2, _⟩ => show win0_4.index t (2 : Fin 3) * 16 + 1 * (j 2).val = (j 2).val; rw [e2]; omega)
  have ex : (cfg0.win 4).xinj (grid0.coords t) j = ix3 (0 : Fin 1) (0 : Fin 1) (j 2) :=
    funext fun a => Fin.ext (by
      match a with
      | ⟨0, _⟩ => show (j 0).val = 0; have : (j 0).val < 1 := (j 0).isLt; omega
      | ⟨1, _⟩ => show (j 1).val = 0; have : (j 1).val < 1 := (j 1).isLt; omega
      | ⟨2, _⟩ => rfl)
  rw [ej]
  show k0_pay6 (F := Ideal) (running 64 (T10 (sidOf m c)) t.val) ((cfg0.win 4).xinj (grid0.coords t) j) = _
  rw [ex]
  exact half_out4 (sidOf m c) ⟨t.val / 64, hp⟩ t.val (by show t.val = 64 * (t.val / 64) + 63; omega) (j 2)

/-! ## The blocks cover the arrays -/

theorem mem_blk2 (t : Fin cfg0.N) (i : S2x16x64x64.Idx) :
    i ∈ ((cfg0.win 2).blk t).view.set ↔ ∀ a : Fin 4, win0_2.index t a * S1x16x64x64.size a ≤ (i a).val ∧ (i a).val < win0_2.index t a * S1x16x64x64.size a + S1x16x64x64.size a := by
  show i ∈ ((View.whole main_v1_0).slice (win0_2.rect t)).set ↔ _
  rw [View.set_slice_whole, Rect.mem_set_unit]
  exact Iff.rfl

theorem mem_blk3 (t : Fin cfg0.N) (i : S2x16x64.Idx) :
    i ∈ ((cfg0.win 3).blk t).view.set ↔ ∀ a : Fin 3, win0_3.index t a * S1x16x64.size a ≤ (i a).val ∧ (i a).val < win0_3.index t a * S1x16x64.size a + S1x16x64.size a := by
  show i ∈ ((View.whole main_v1_1).slice (win0_3.rect t)).set ↔ _
  rw [View.set_slice_whole, Rect.mem_set_unit]
  exact Iff.rfl

theorem mem_blk4 (t : Fin cfg0.N) (i : S2x1x16.Idx) :
    i ∈ ((cfg0.win 4).blk t).view.set ↔ ∀ a : Fin 3, win0_4.index t a * S1x1x16.size a ≤ (i a).val ∧ (i a).val < win0_4.index t a * S1x1x16.size a + S1x1x16.size a := by
  show i ∈ ((View.whole main_v1_2).slice (win0_4.rect t)).set ↔ _
  rw [View.set_slice_whole, Rect.mem_set_unit]
  exact Iff.rfl

/-- The last point of half `p`. -/
def lastOf (p : ℕ) (hp : p < 2) : Fin cfg0.N := ⟨64 * p + 63, by rw [show cfg0.N = 128 from N_0]; omega⟩

theorem final2 (c : Dev nD) : (dats (F := Ideal) m 0 c).arrAt 2 cfg0.N = G2 (xOf m c) (sidOf m c) :=
  (dats (F := Ideal) m 0 c).arrAt_eq_of_cover 2 (G2 (xOf m c) (sidOf m c)) (flushed2_eq m c) fun i => by
    have h0 : (i 0).val < 2 := (i 0).isLt
    have h1 : (i 1).val < 16 := (i 1).isLt
    have h2 : (i 2).val < 64 := (i 2).isLt
    have h3 : (i 3).val < 64 := (i 3).isLt
    refine ⟨lastOf (i 0).val h0, (flush0_2 _).mpr (by show (64 * (i 0).val + 63) % 64 = 63; omega), ?_⟩
    obtain ⟨e0, e1, e2, e3, -⟩ := idx_out (lastOf (i 0).val h0)
    have ev : (lastOf (i 0).val h0).val / 64 = (i 0).val := by show (64 * (i 0).val + 63) / 64 = (i 0).val; omega
    rw [mem_blk2]
    intro a
    match a with
    | ⟨0, _⟩ => show win0_2.index _ (0 : Fin 4) * 1 ≤ (i 0).val ∧ (i 0).val < win0_2.index _ (0 : Fin 4) * 1 + 1; rw [e0, ev]; omega
    | ⟨1, _⟩ => show win0_2.index _ (1 : Fin 4) * 16 ≤ (i 1).val ∧ (i 1).val < win0_2.index _ (1 : Fin 4) * 16 + 16; rw [e1]; omega
    | ⟨2, _⟩ => show win0_2.index _ (2 : Fin 4) * 64 ≤ (i 2).val ∧ (i 2).val < win0_2.index _ (2 : Fin 4) * 64 + 64; rw [e2]; omega
    | ⟨3, _⟩ => show win0_2.index _ (3 : Fin 4) * 64 ≤ (i 3).val ∧ (i 3).val < win0_2.index _ (3 : Fin 4) * 64 + 64; rw [e3]; omega

theorem final3 (c : Dev nD) : (dats (F := Ideal) m 0 c).arrAt 3 cfg0.N = G3 (xOf m c) (sidOf m c) :=
  (dats (F := Ideal) m 0 c).arrAt_eq_of_cover 3 (G3 (xOf m c) (sidOf m c)) (flushed3_eq m c) fun i => by
    have h0 : (i 0).val < 2 := (i 0).isLt
    have h1 : (i 1).val < 16 := (i 1).isLt
    have h2 : (i 2).val < 64 := (i 2).isLt
    refine ⟨lastOf (i 0).val h0, (flush0_3 _).mpr (by show (64 * (i 0).val + 63) % 64 = 63; omega), ?_⟩
    obtain ⟨-, -, -, -, e0, e1, e2, -⟩ := idx_out (lastOf (i 0).val h0)
    have ev : (lastOf (i 0).val h0).val / 64 = (i 0).val := by show (64 * (i 0).val + 63) / 64 = (i 0).val; omega
    rw [mem_blk3]
    intro a
    match a with
    | ⟨0, _⟩ => show win0_3.index _ (0 : Fin 3) * 1 ≤ (i 0).val ∧ (i 0).val < win0_3.index _ (0 : Fin 3) * 1 + 1; rw [e0, ev]; omega
    | ⟨1, _⟩ => show win0_3.index _ (1 : Fin 3) * 16 ≤ (i 1).val ∧ (i 1).val < win0_3.index _ (1 : Fin 3) * 16 + 16; rw [e1]; omega
    | ⟨2, _⟩ => show win0_3.index _ (2 : Fin 3) * 64 ≤ (i 2).val ∧ (i 2).val < win0_3.index _ (2 : Fin 3) * 64 + 64; rw [e2]; omega

theorem final4 (c : Dev nD) : (dats (F := Ideal) m 0 c).arrAt 4 cfg0.N = G4 (sidOf m c) :=
  (dats (F := Ideal) m 0 c).arrAt_eq_of_cover 4 (G4 (sidOf m c)) (flushed4_eq m c) fun i => by
    have h0 : (i 0).val < 2 := (i 0).isLt
    have h1 : (i 1).val < 1 := (i 1).isLt
    have h2 : (i 2).val < 16 := (i 2).isLt
    refine ⟨lastOf (i 0).val h0, (flush0_4 _).mpr (by show (64 * (i 0).val + 63) % 64 = 63; omega), ?_⟩
    obtain ⟨-, -, -, -, -, -, -, e0, e1, e2⟩ := idx_out (lastOf (i 0).val h0)
    have ev : (lastOf (i 0).val h0).val / 64 = (i 0).val := by show (64 * (i 0).val + 63) / 64 = (i 0).val; omega
    rw [mem_blk4]
    intro a
    match a with
    | ⟨0, _⟩ => show win0_4.index _ (0 : Fin 3) * 1 ≤ (i 0).val ∧ (i 0).val < win0_4.index _ (0 : Fin 3) * 1 + 1; rw [e0, ev]; omega
    | ⟨1, _⟩ => show win0_4.index _ (1 : Fin 3) * 1 ≤ (i 1).val ∧ (i 1).val < win0_4.index _ (1 : Fin 3) * 1 + 1; rw [e1]; omega
    | ⟨2, _⟩ => show win0_4.index _ (2 : Fin 3) * 16 ≤ (i 2).val ∧ (i 2).val < win0_4.index _ (2 : Fin 3) * 16 + 16; rw [e2]; omega

end Cert.KernelIdeal.Val

end
-- ==== Proof.RefHead.lean ====
/-
  The three statistics the reference computes from the embeddings `x` and the subject ids `sid`, each as the
  composition, in program order, of the operations that compute it:

  * `weights sid` — the one-hot membership weights, a 524288 by 16 array: the comparison of the id column with the
    row of subject numbers, read as 0 or 1;
  * `headCount sid` — the column sums of the weights (the group counts);
  * `headSums x sid` — the transposed weights times the embeddings (the group sums);
  * `headGrams x sid` — for each subject the transposed embeddings times the embeddings scaled row by row by the
    subject's weight column, the sixteen 64 by 64 products stacked along a new leading axis.

  Stated for any float values (the `…F` forms) and used at the extended reals.
-/
import proofs.«103410_j88596585382423_2_alg».proof.Proof.Gen.ReferenceIdeal
import proofs.«103410_j88596585382423_2_alg».proof.Proof.Spec
import Idealize.ShloMosaic.PureOps.Ideal

noncomputable section

namespace Cert.ReferenceIdeal.RefValue

open Cert.ReferenceIdeal Cert.ReferenceIdeal.Gen Idealize.ShloMosaic Idealize.SL.Sem

section
variable {F : FTy → Type} [FloatOps F]

/-- Sixteen 1 by 64 by 64 arrays stacked along the leading axis. -/
def stack16 (u0 u1 u2 u3 u4 u5 u6 u7 u8 u9 u10 u11 u12 u13 u14 u15 : (⟨S1x64x64, .f32⟩ : BufTy).Contents (Elt F)) :
    (⟨S16x64x64, .f32⟩ : BufTy).Contents (Elt F) :=
  concatenate S16x64x64 0 [⟨S1x64x64, u0⟩, ⟨S1x64x64, u1⟩, ⟨S1x64x64, u2⟩, ⟨S1x64x64, u3⟩, ⟨S1x64x64, u4⟩, ⟨S1x64x64, u5⟩, ⟨S1x64x64, u6⟩, ⟨S1x64x64, u7⟩, ⟨S1x64x64, u8⟩, ⟨S1x64x64, u9⟩, ⟨S1x64x64, u10⟩, ⟨S1x64x64, u11⟩, ⟨S1x64x64, u12⟩, ⟨S1x64x64, u13⟩, ⟨S1x64x64, u14⟩, ⟨S1x64x64, u15⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0

/-- The one-hot membership weights: row `n`, column `s` is 1 when row `n`'s id is `s`, else 0. -/
def weights (sid : (⟨S524288, .i32⟩ : BufTy).Contents (Elt F)) : (⟨S524288x16, .f32⟩ : BufTy).Contents (Elt F) :=
  uitofp .f32 (cmpi .eq (broadcastInDim S524288x16 ![0, 1] bcast_S524288x1_S524288x16_0_1 (broadcastInDim S524288x1 ![0] bcast_S524288_S524288x1_0 (sid))) (broadcastInDim S524288x16 ![0, 1] bcast_S1x16_S524288x16_0_1 (broadcastInDim S1x16 ![1] bcast_S16_S1x16_1 ((iotaInDim S16 32 0 : (⟨S16, .i32⟩ : BufTy).Contents (Elt F))))))

/-- The group counts: the column sums of the weights, from zero. -/
def headCountF (sid : (⟨S524288, .i32⟩ : BufTy).Contents (Elt F)) : (⟨S16, .f32⟩ : BufTy).Contents (Elt F) :=
  Host.reduceAdd (weights (sid)) ((constant S_ .f32 0x00000000#32 : (⟨S_, .f32⟩ : BufTy).Contents (Elt F))) reducesTo_S524288x16_S16_d0 h_S_

/-- The group sums: the transposed weights times the embeddings. -/
def headSumsF (x : (⟨S524288x64, .f32⟩ : BufTy).Contents (Elt F)) (sid : (⟨S524288, .i32⟩ : BufTy).Contents (Elt F)) : (⟨S16x64, .f32⟩ : BufTy).Contents (Elt F) :=
  Host.dotGeneral dot_S16x524288_S524288x64_S16x64_1_0_0_1_n_n none (transpose S16x524288 [1, 0] (weights (sid)) transposes_S524288x16_S16x524288_1_0) (x)

/-- One subject's Gram matrix: the transposed embeddings times the embeddings scaled row by row by the weight
    column at offset `off`. -/
def gramCol (x : (⟨S524288x64, .f32⟩ : BufTy).Contents (Elt F)) (sid : (⟨S524288, .i32⟩ : BufTy).Contents (Elt F)) (off : Fin S524288x16.rank → Nat)
    (h : S524288x16.Slices off S524288x1) : (⟨S64x64, .f32⟩ : BufTy).Contents (Elt F) :=
  Host.dotGeneral dot_S64x524288_S524288x64_S64x64_1_0_0_1_n_n none (transpose S64x524288 [1, 0] (x) transposes_S524288x64_S64x524288_1_0) (mulf (x) (broadcastInDim S524288x64 ![0, 1] bcast_S524288x1_S524288x64_0_1 (extractStridedSlice S524288x1 off (weights (sid)) h)))

/-- The sixteen Gram matrices stacked along a new leading axis. -/
def headGramsF (x : (⟨S524288x64, .f32⟩ : BufTy).Contents (Elt F)) (sid : (⟨S524288, .i32⟩ : BufTy).Contents (Elt F)) : (⟨S16x64x64, .f32⟩ : BufTy).Contents (Elt F) :=
  stack16 (broadcastInDim S1x64x64 ![1, 2] bcast_S64x64_S1x64x64_1_2 (gramCol x sid ![0, 0] slices_S524288x16_S524288x1_0_0))
    (broadcastInDim S1x64x64 ![1, 2] bcast_S64x64_S1x64x64_1_2 (gramCol x sid ![0, 1] slices_S524288x16_S524288x1_0_1))
    (broadcastInDim S1x64x64 ![1, 2] bcast_S64x64_S1x64x64_1_2 (gramCol x sid ![0, 2] slices_S524288x16_S524288x1_0_2))
    (broadcastInDim S1x64x64 ![1, 2] bcast_S64x64_S1x64x64_1_2 (gramCol x sid ![0, 3] slices_S524288x16_S524288x1_0_3))
    (broadcastInDim S1x64x64 ![1, 2] bcast_S64x64_S1x64x64_1_2 (gramCol x sid ![0, 4] slices_S524288x16_S524288x1_0_4))
    (broadcastInDim S1x64x64 ![1, 2] bcast_S64x64_S1x64x64_1_2 (gramCol x sid ![0, 5] slices_S524288x16_S524288x1_0_5))
    (broadcastInDim S1x64x64 ![1, 2] bcast_S64x64_S1x64x64_1_2 (gramCol x sid ![0, 6] slices_S524288x16_S524288x1_0_6))
    (broadcastInDim S1x64x64 ![1, 2] bcast_S64x64_S1x64x64_1_2 (gramCol x sid ![0, 7] slices_S524288x16_S524288x1_0_7))
    (broadcastInDim S1x64x64 ![1, 2] bcast_S64x64_S1x64x64_1_2 (gramCol x sid ![0, 8] slices_S524288x16_S524288x1_0_8))
    (broadcastInDim S1x64x64 ![1, 2] bcast_S64x64_S1x64x64_1_2 (gramCol x sid ![0, 9] slices_S524288x16_S524288x1_0_9))
    (broadcastInDim S1x64x64 ![1, 2] bcast_S64x64_S1x64x64_1_2 (gramCol x sid ![0, 10] slices_S524288x16_S524288x1_0_10))
    (broadcastInDim S1x64x64 ![1, 2] bcast_S64x64_S1x64x64_1_2 (gramCol x sid ![0, 11] slices_S524288x16_S524288x1_0_11))
    (broadcastInDim S1x64x64 ![1, 2] bcast_S64x64_S1x64x64_1_2 (gramCol x sid ![0, 12] slices_S524288x16_S524288x1_0_12))
    (broadcastInDim S1x64x64 ![1, 2] bcast_S64x64_S1x64x64_1_2 (gramCol x sid ![0, 13] slices_S524288x16_S524288x1_0_13))
    (broadcastInDim S1x64x64 ![1, 2] bcast_S64x64_S1x64x64_1_2 (gramCol x sid ![0, 14] slices_S524288x16_S524288x1_0_14))
    (broadcastInDim S1x64x64 ![1, 2] bcast_S64x64_S1x64x64_1_2 (gramCol x sid ![0, 15] slices_S524288x16_S524288x1_0_15))

end

/-- The group counts at the extended reals. -/
def headCount (sid : Cert.Spec.Ids) : FVec Ideal S16 .f32 := headCountF (F := Ideal) sid

/-- The group sums at the extended reals. -/
def headSums (x : Cert.Spec.Emb) (sid : Cert.Spec.Ids) : FVec Ideal S16x64 .f32 := headSumsF (F := Ideal) x sid

/-- The stacked Gram matrices at the extended reals. -/
def headGrams (x : Cert.Spec.Emb) (sid : Cert.Spec.Ids) : FVec Ideal S16x64x64 .f32 := headGramsF (F := Ideal) x sid

end Cert.ReferenceIdeal.RefValue

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«103410_j88596585382423_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.RefApply.lean ====
/-
  The three statistics of the reference read entry by entry, as the plain sums over the rows:

  * a weight is 1 when the row's id word is the subject's word, else 0;
  * a count is the sum of the subject's weights;
  * a group sum at (s, d) is the sum over the rows of weight times coordinate d;
  * a Gram entry at (s, a, b) is the sum over the rows of x n a * (x n b * weight).

  Each is the reading of the layout operations at an index (the broadcasts, the transposes, the column slice, the
  stacking of the sixteen matrices), the host sum from zero and the host contraction as exact sums over the extended
  reals, and the conversion of a one-bit comparison as 0 or 1.
-/
import proofs.«103410_j88596585382423_2_alg».proof.Proof.RefHead
import proofs.«103410_j88596585382423_2_alg».proof.Proof.LibBroadcastInDim
import proofs.«103410_j88596585382423_2_alg».proof.Proof.LibDotSums
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

/-- The unsigned reading of the one-bit comparison of two words: 1 when they are equal, else 0. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h]; subst h; simp [IntOp.cmpi]
  · rw [if_neg h]
    have hb : (a == b) = false := by simpa using h
    simp [IntOp.cmpi, hb]

/-- A weight at row `n`, column `s`. -/
theorem weights_apply (sid : Cert.Spec.Ids) (n : Fin 524288) (s : Fin 16) :
    weights (F := Ideal) sid (ix2 n s) = Cert.Spec.oneHot sid n s := by
  have e1 : broadcastInDim S524288x16 ![0, 1] bcast_S524288x1_S524288x16_0_1
      (broadcastInDim S524288x1 ![0] bcast_S524288_S524288x1_0 sid) (ix2 n s) = sid (ix1 n) :=
    (Cert.BroadcastInDim.rows_apply _ _ n s).trans (Cert.BroadcastInDim.column_apply sid _ n 0)
  have e2 : broadcastInDim S524288x16 ![0, 1] bcast_S1x16_S524288x16_0_1
      (broadcastInDim S1x16 ![1] bcast_S16_S1x16_1 (iotaInDim S16 32 0)) (ix2 n s) = BitVec.ofNat 32 s.val := by
    refine (broadcastInDim_apply ![0, 1] bcast_S1x16_S524288x16_0_1 _ (ix2 n s) (ix2 (0 : Fin 1) s) fun ax => ?_).trans ?_
    · match ax with
      | ⟨0, _⟩ => rfl
      | ⟨1, _⟩ => rfl
    · refine (broadcastInDim_apply ![1] bcast_S16_S1x16_1 _ (ix2 (0 : Fin 1) s) (ix1 s) fun ax => ?_).trans rfl
      match ax with
      | ⟨0, _⟩ => rfl
  show FloatOps.uitofp (F := Ideal) .f32 (IntOp.cmpi .eq
      (broadcastInDim S524288x16 ![0, 1] bcast_S524288x1_S524288x16_0_1
        (broadcastInDim S524288x1 ![0] bcast_S524288_S524288x1_0 sid) (ix2 n s))
      (broadcastInDim S524288x16 ![0, 1] bcast_S1x16_S524288x16_0_1
        (broadcastInDim S1x16 ![1] bcast_S16_S1x16_1 (iotaInDim S16 32 0)) (ix2 n s))) = _
  rw [e1, e2, uitofp_cmpi_eq]
  rfl

/-- A count is the sum of the subject's weights. -/
theorem headCount_apply (sid : Cert.Spec.Ids) (s : Fin 16) :
    headCount sid (ix1 s) = Cert.Spec.count sid s := by
  have hR : S524288x16.Reduces [0] S16 := by decide
  show Ideal.hostReduceAdd reducesTo_S524288x16_S16_d0 (weights (F := Ideal) sid) (Ideal.ofBits .f32 0x00000000#32) (ix1 s) = _
  rw [Ideal.hostReduceAdd_single reducesTo_S524288x16_S16_d0 hR, Ideal.ofBits_zero_f32, zero_add]
  refine Finset.sum_congr rfl fun k _ => ?_
  have hk : hR.lift (ix1 s) k = ix2 k s := funext fun c => Fin.ext (by
    match c with
    | ⟨0, _⟩ => rfl
    | ⟨1, _⟩ => rfl)
  rw [hk]
  exact weights_apply sid k s

/-- A group sum at (s, d). -/
theorem headSums_apply (x : Cert.Spec.Emb) (sid : Cert.Spec.Ids) (s : Fin 16) (d : Fin 64) :
    headSums x sid (ix2 s d) = Cert.Spec.groupSum x sid s d := by
  show FloatOps.dotGeneral dot_S16x524288_S524288x64_S16x64_1_0_0_1_n_n none .single
      (transpose S16x524288 [1, 0] (weights (F := Ideal) sid) transposes_S524288x16_S16x524288_1_0) x (ix2 s d) = _
  rw [Cert.DotSums.dotGeneral_ix2 dot_S16x524288_S524288x64_S16x64_1_0_0_1_n_n none .single rfl rfl rfl rfl rfl rfl rfl rfl]
  refine Finset.sum_congr rfl fun k _ => ?_
  have ht : transpose S16x524288 [1, 0] (weights (F := Ideal) sid) transposes_S524288x16_S16x524288_1_0 (ix2 s k)
      = weights (F := Ideal) sid (ix2 k s) :=
    transpose_apply [1, 0] _ transposes_S524288x16_S16x524288_1_0 (ix2 s k) (ix2 k s) fun b => by
      match b with
      | ⟨0, _⟩ => rfl
      | ⟨1, _⟩ => rfl
  rw [ht, weights_apply]

/-- A column slice of a 524288 by 16 array at (n, 0): the array at (n, k). -/
theorem slice_apply {α : Type} (W : S524288x16.Idx → α) (k : Fin 16) (h : S524288x16.Slices ![0, k.val] S524288x1)
    (n : Fin 524288) : extractStridedSlice S524288x1 ![0, k.val] W h (ix2 n (0 : Fin 1)) = W (ix2 n k) := by
  refine extractStridedSlice_apply ![0, k.val] W h (ix2 n (0 : Fin 1)) (ix2 n k) fun c => ?_
  match c with
  | ⟨0, _⟩ => exact (Nat.zero_add _).symm
  | ⟨1, _⟩ => rfl

/-- The transpose of a 524288 by 64 array at (a, n): the array at (n, a). -/
theorem transpose_rows_apply {α : Type} (x : S524288x64.Idx → α) (a : Fin 64) (n : Fin 524288) :
    transpose S64x524288 [1, 0] x transposes_S524288x64_S64x524288_1_0 (ix2 a n) = x (ix2 n a) :=
  transpose_apply [1, 0] x transposes_S524288x64_S64x524288_1_0 (ix2 a n) (ix2 n a) fun c => by
    match c with
    | ⟨0, _⟩ => rfl
    | ⟨1, _⟩ => rfl

/-- A 64 by 64 array under a new leading unit axis, at (0, a, b): the array at (a, b). -/
theorem lead_apply {α : Type} (g : S64x64.Idx → α) (a b : Fin 64) :
    broadcastInDim S1x64x64 ![1, 2] bcast_S64x64_S1x64x64_1_2 g (ix3 (0 : Fin 1) a b) = g (ix2 a b) :=
  broadcastInDim_apply ![1, 2] bcast_S64x64_S1x64x64_1_2 g (ix3 (0 : Fin 1) a b) (ix2 a b) fun c => by
    match c with
    | ⟨0, _⟩ => rfl
    | ⟨1, _⟩ => rfl

/-- The row scaling at (n, b): the row's entry times the subject's weight. -/
theorem scaled_apply (x : Cert.Spec.Emb) (sid : Cert.Spec.Ids) (k : Fin 16)
    (h : S524288x16.Slices ![0, k.val] S524288x1) (n : Fin 524288) (b : Fin 64) :
    mulf x (broadcastInDim S524288x64 ![0, 1] bcast_S524288x1_S524288x64_0_1
        (extractStridedSlice S524288x1 ![0, k.val] (weights (F := Ideal) sid) h)) (ix2 n b)
      = x (ix2 n b) * Cert.Spec.oneHot sid n k := by
  show x (ix2 n b) * broadcastInDim S524288x64 ![0, 1] bcast_S524288x1_S524288x64_0_1
        (extractStridedSlice S524288x1 ![0, k.val] (weights (F := Ideal) sid) h) (ix2 n b) = _
  rw [Cert.BroadcastInDim.rows_apply (extractStridedSlice S524288x1 ![0, k.val] (weights (F := Ideal) sid) h)
      bcast_S524288x1_S524288x64_0_1 n b,
    slice_apply (weights (F := Ideal) sid) k h n, weights_apply]

/-- One subject's Gram matrix at (a, b), for the weight column at offset (0, k). -/
theorem gramCol_apply (x : Cert.Spec.Emb) (sid : Cert.Spec.Ids) (k : Fin 16)
    (h : S524288x16.Slices ![0, k.val] S524288x1) (a b : Fin 64) :
    gramCol (F := Ideal) x sid ![0, k.val] h (ix2 a b) = Cert.Spec.gram x sid k a b := by
  unfold gramCol
  rw [Host.dotGeneral,
    Cert.DotSums.dotGeneral_ix2 dot_S64x524288_S524288x64_S64x64_1_0_0_1_n_n none .single rfl rfl rfl rfl rfl rfl rfl rfl]
  refine Finset.sum_congr rfl fun n _ => ?_
  rw [transpose_rows_apply x a n, scaled_apply x sid k h n b]

/-- Sixteen stacked 1 by 64 by 64 arrays at (s, a, b): array `s` at (0, a, b). -/
theorem stack16_apply (u : Fin 16 → FVec Ideal S1x64x64 .f32) (s : Fin 16) (a b : Fin 64) :
    stack16 (F := Ideal) (u 0) (u 1) (u 2) (u 3) (u 4) (u 5) (u 6) (u 7) (u 8) (u 9) (u 10) (u 11) (u 12) (u 13) (u 14) (u 15)
      (ix3 s a b) = u s (ix3 (0 : Fin 1) a b) := by
  unfold stack16
  exact concatenate_ofFn_unit_apply (t := S16x64x64) (s₁ := S1x64x64) (0 : Fin 3) u _ rfl rfl (ix3 s a b) s rfl
    (ix3 (0 : Fin 1) a b) fun c hc => by
      match c with
      | ⟨0, _⟩ => exact absurd rfl hc
      | ⟨1, _⟩ => rfl
      | ⟨2, _⟩ => rfl

/-- Every one of the sixteen weight columns is a column slice of the weights. -/
theorem slicesAt : ∀ k : Fin 16, S524288x16.Slices ![0, k.val] S524288x1 := by decide

/-- Subject `k`'s Gram matrix under a leading unit axis. -/
def piece (x : Cert.Spec.Emb) (sid : Cert.Spec.Ids) (k : Fin 16) : FVec Ideal S1x64x64 .f32 :=
  broadcastInDim S1x64x64 ![1, 2] bcast_S64x64_S1x64x64_1_2 (gramCol (F := Ideal) x sid ![0, k.val] (slicesAt k))

/-- The stacked Gram matrices are the stack of the sixteen pieces. -/
theorem headGrams_eq (x : Cert.Spec.Emb) (sid : Cert.Spec.Ids) :
    headGrams x sid = stack16 (F := Ideal) (piece x sid 0) (piece x sid 1) (piece x sid 2) (piece x sid 3) (piece x sid 4)
      (piece x sid 5) (piece x sid 6) (piece x sid 7) (piece x sid 8) (piece x sid 9) (piece x sid 10) (piece x sid 11)
      (piece x sid 12) (piece x sid 13) (piece x sid 14) (piece x sid 15) := rfl

/-- A Gram entry at (s, a, b). -/
theorem headGrams_apply (x : Cert.Spec.Emb) (sid : Cert.Spec.Ids) (s : Fin 16) (a b : Fin 64) :
    headGrams x sid (ix3 s a b) = Cert.Spec.gram x sid s a b := by
  rw [headGrams_eq, stack16_apply (piece x sid) s a b]
  unfold piece
  rw [lead_apply, gramCol_apply]

end Cert.ReferenceIdeal.RefValue

end
-- ==== Proof.KiAlgHeads.lean ====
/-
  The kernel's three output arrays, summed over the two halves of the rows, are the three arrays the reference
  computes before its closing arithmetic: entry by entry both are the count, the group sum and the Gram entry of
  the specification — the kernel's as a sum over halves, blocks and rows of a block, the reference's as one sum over
  all rows, and the row sum splits along the halves and blocks.
-/
import proofs.«103410_j88596585382423_2_alg».proof.Proof.KiTailHalves
import proofs.«103410_j88596585382423_2_alg».proof.Proof.KiValFinal
import proofs.«103410_j88596585382423_2_alg».proof.Proof.RefApply
import proofs.«103410_j88596585382423_2_alg».proof.Proof.KiSum

set_option maxRecDepth 16384

noncomputable section

open scoped BigOperators

namespace Cert.KernelIdeal.Alg

open Idealize.ShloMosaic Idealize.ShloMosaic.ValueIdx
open Cert.KernelIdeal.Tail Cert.KernelIdeal.Val Cert.Spec Cert.ReferenceIdeal.RefValue

/-- The Gram arrays. -/
theorem headsG (x : Cert.Spec.Emb) (sid : Cert.Spec.Ids) : halvesG (G2 x sid) = headGrams x sid := by
  funext j
  obtain ⟨s, a, b, rfl⟩ : ∃ (s : Fin 16) (a b : Fin 64), j = ix3 s a b := ⟨j 0, j 1, j 2, eq_ix3 j⟩
  rw [halvesG_apply, G2_apply, G2_apply, headGrams_apply, gram_split, Fin.sum_univ_two]

/-- The group sums. -/
theorem headsS (x : Cert.Spec.Emb) (sid : Cert.Spec.Ids) : halvesS (G3 x sid) = headSums x sid := by
  funext j
  obtain ⟨s, d, rfl⟩ : ∃ (s : Fin 16) (d : Fin 64), j = ix2 s d := ⟨j 0, j 1, eq_ix2 j⟩
  rw [halvesS_apply, G3_apply, G3_apply, headSums_apply, groupSum_split, Fin.sum_univ_two]

/-- The counts. -/
theorem headsN (sid : Cert.Spec.Ids) : halvesN (G4 sid) = headCount sid := by
  funext j
  obtain ⟨s, rfl⟩ : ∃ (s : Fin 16), j = ix1 s := ⟨j 0, eq_ix1 j⟩
  rw [halvesN_apply, G4_apply, G4_apply, headCount_apply, count_split, Fin.sum_univ_two]

end Cert.KernelIdeal.Alg

end
-- ==== Proof.RefTail.lean ====
/-
  The closing arithmetic of the reference, as one function `tail` of the three statistics it is applied to: the
  stacked Gram matrices `g`, the group sums `s` and the group counts `n`. It is the composition, in program order,
  of the operations that compute the means, the regularised covariances, the pairwise squared Frobenius distances,
  their square roots over the valid pairs and the final mean. It is stated for any float values and used at the
  extended reals.
-/
import proofs.«103410_j88596585382423_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.SL.Sem

section
variable {F : FTy → Type} [FloatOps F]

/-- Two index columns side by side: the 120 by 2 table of pairs. -/
def pairCols (a b : IVec S120x1 32) : IVec S120x2 32 :=
  concatenate S120x2 1 [⟨S120x1, a⟩, ⟨S120x1, b⟩] concatenates_S120x1_S120x1_S120x2_d1

/-- The group means: each group sum divided by the larger of the count and one. -/
def means (s : (⟨S16x64, .f32⟩ : BufTy).Contents (Elt F)) (n : (⟨S16, .f32⟩ : BufTy).Contents (Elt F)) :
    (⟨S16x64, .f32⟩ : BufTy).Contents (Elt F) :=
  Host.divf (s) (broadcastInDim S16x64 ![0, 1] bcast_S16x1_S16x64_0_1 (broadcastInDim S16x1 ![0] bcast_S16_S16x1_0 (maximumf (n) (broadcastInDim S16 ![] bcast_S_S16 ((constant S_ .f32 0x3F800000#32 : (⟨S_, .f32⟩ : BufTy).Contents (Elt F)))))))

/-- The regularised covariances: the Gram matrix less count times the outer product of the mean, over the larger of count less one and one, plus 1e-4 on the diagonal. -/
def covReg (g : (⟨S16x64x64, .f32⟩ : BufTy).Contents (Elt F)) (mu : (⟨S16x64, .f32⟩ : BufTy).Contents (Elt F)) (n : (⟨S16, .f32⟩ : BufTy).Contents (Elt F)) :
    (⟨S16x64x64, .f32⟩ : BufTy).Contents (Elt F) :=
  addf (Host.divf (subf (g) (mulf (broadcastInDim S16x64x64 ![0, 1, 2] bcast_S16x64x1_S16x64x64_0_1_2 (mulf (broadcastInDim S16x64x1 ![0, 1, 2] bcast_S16x1x1_S16x64x1_0_1_2 (broadcastInDim S16x1x1 ![0] bcast_S16_S16x1x1_0 (n))) (broadcastInDim S16x64x1 ![0, 1] bcast_S16x64_S16x64x1_0_1 (mu)))) (broadcastInDim S16x64x64 ![0, 1, 2] bcast_S16x1x64_S16x64x64_0_1_2 (broadcastInDim S16x1x64 ![0, 2] bcast_S16x64_S16x1x64_0_2 (mu))))) (broadcastInDim S16x64x64 ![0, 1, 2] bcast_S16x1x1_S16x64x64_0_1_2 (broadcastInDim S16x1x1 ![0] bcast_S16_S16x1x1_0 (maximumf (subf (n) (broadcastInDim S16 ![] bcast_S_S16 ((constant S_ .f32 0x3F800000#32 : (⟨S_, .f32⟩ : BufTy).Contents (Elt F))))) (broadcastInDim S16 ![] bcast_S_S16 ((constant S_ .f32 0x3F800000#32 : (⟨S_, .f32⟩ : BufTy).Contents (Elt F)))))))) (broadcastInDim S16x64x64 ![0, 1, 2] bcast_S1x64x64_S16x64x64_0_1_2 (broadcastInDim S1x64x64 ![1, 2] bcast_S64x64_S1x64x64_1_2 (mulf (broadcastInDim S64x64 ![] bcast_S_S64x64 ((constant S_ .f32 0x38D1B717#32 : (⟨S_, .f32⟩ : BufTy).Contents (Elt F)))) (uitofp .f32 (cmpi .eq (addi ((iotaInDim S64x64 32 0 : (⟨S64x64, .i32⟩ : BufTy).Contents (Elt F))) (broadcastInDim S64x64 ![] bcast_S_S64x64 ((constantI S_ 32 0#32 : (⟨S_, .i32⟩ : BufTy).Contents (Elt F))))) ((iotaInDim S64x64 32 1 : (⟨S64x64, .i32⟩ : BufTy).Contents (Elt F))))))))

/-- All pairwise differences of the covariance matrices. -/
def covDiff (cv : (⟨S16x64x64, .f32⟩ : BufTy).Contents (Elt F)) :
    (⟨S16x16x64x64, .f32⟩ : BufTy).Contents (Elt F) :=
  subf (broadcastInDim S16x16x64x64 ![0, 1, 2, 3] bcast_S16x1x64x64_S16x16x64x64_0_1_2_3 (broadcastInDim S16x1x64x64 ![0, 2, 3] bcast_S16x64x64_S16x1x64x64_0_2_3 (cv))) (broadcastInDim S16x16x64x64 ![0, 1, 2, 3] bcast_S1x16x64x64_S16x16x64x64_0_1_2_3 (broadcastInDim S1x16x64x64 ![1, 2, 3] bcast_S16x64x64_S1x16x64x64_1_2_3 (cv)))

/-- Which groups have at least two rows. -/
def valid (n : (⟨S16, .f32⟩ : BufTy).Contents (Elt F)) :
    (⟨S16, .i1⟩ : BufTy).Contents (Elt F) :=
  cmpf .oge (n) (broadcastInDim S16 ![] bcast_S_S16 ((constant S_ .f32 0x40000000#32 : (⟨S_, .f32⟩ : BufTy).Contents (Elt F))))

/-- For each of the 120 pairs i < j, whether both groups are valid. -/
def pairValid (v : (⟨S16, .i1⟩ : BufTy).Contents (Elt F)) :
    (⟨S120, .i1⟩ : BufTy).Contents (Elt F) :=
  andi (Host.gather gather_S16_S120x1_S120_n_0_n_n_0_1_1 (v) (broadcastInDim S120x1 ![0] bcast_S120_S120x1_0 (select ((constantI S120 1 0#1 : (⟨S120, .i1⟩ : BufTy).Contents (Elt F))) (addi ((fun i => lit0 (S120.rowMajor i) : (⟨S120, .i32⟩ : BufTy).Contents (Elt F))) (broadcastInDim S120 ![] bcast_S_S120 ((constantI S_ 32 16#32 : (⟨S_, .i32⟩ : BufTy).Contents (Elt F))))) ((fun i => lit0 (S120.rowMajor i) : (⟨S120, .i32⟩ : BufTy).Contents (Elt F)))))) (Host.gather gather_S16_S120x1_S120_n_0_n_n_0_1_1 (v) (broadcastInDim S120x1 ![0] bcast_S120_S120x1_0 (select ((constantI S120 1 0#1 : (⟨S120, .i1⟩ : BufTy).Contents (Elt F))) (addi ((fun i => lit1 (S120.rowMajor i) : (⟨S120, .i32⟩ : BufTy).Contents (Elt F))) (broadcastInDim S120 ![] bcast_S_S120 ((constantI S_ 32 16#32 : (⟨S_, .i32⟩ : BufTy).Contents (Elt F))))) ((fun i => lit1 (S120.rowMajor i) : (⟨S120, .i32⟩ : BufTy).Contents (Elt F))))))

/-- The number of valid pairs. -/
def pairCount (pv : (⟨S120, .i1⟩ : BufTy).Contents (Elt F)) :
    (⟨S_, .f32⟩ : BufTy).Contents (Elt F) :=
  Host.reduceAdd (uitofp .f32 (pv)) ((constant S_ .f32 0x00000000#32 : (⟨S_, .f32⟩ : BufTy).Contents (Elt F))) reducesTo_S120_S_d0 h_S_

/-- The closing arithmetic as one function of the Gram matrices, the group sums and the counts: the mean over the valid pairs of the Frobenius distance of the regularised covariances, zero when no pair is valid. -/
def tailF (g : (⟨S16x64x64, .f32⟩ : BufTy).Contents (Elt F)) (s : (⟨S16x64, .f32⟩ : BufTy).Contents (Elt F)) (n : (⟨S16, .f32⟩ : BufTy).Contents (Elt F)) :
    (⟨S_, .f32⟩ : BufTy).Contents (Elt F) :=
  select (cmpf .ogt (pairCount (pairValid (valid (n)))) ((constant S_ .f32 0x00000000#32 : (⟨S_, .f32⟩ : BufTy).Contents (Elt F)))) (Host.divf (Host.reduceAdd (select (pairValid (valid (n))) (Host.sqrt (select (pairValid (valid (n))) (Host.gather gather_S16x16_S120x2_S120_n_01_n_n_01_1_11 (Host.reduceAdd (mulf (covDiff (covReg (g) (means (s) (n)) (n))) (covDiff (covReg (g) (means (s) (n)) (n)))) ((constant S_ .f32 0x00000000#32 : (⟨S_, .f32⟩ : BufTy).Contents (Elt F))) reducesTo_S16x16x64x64_S16x16_d2_3 h_S_) (pairCols (broadcastInDim S120x1 ![0] bcast_S120_S120x1_0 (select ((constantI S120 1 0#1 : (⟨S120, .i1⟩ : BufTy).Contents (Elt F))) (addi ((fun i => lit0 (S120.rowMajor i) : (⟨S120, .i32⟩ : BufTy).Contents (Elt F))) (broadcastInDim S120 ![] bcast_S_S120 ((constantI S_ 32 16#32 : (⟨S_, .i32⟩ : BufTy).Contents (Elt F))))) ((fun i => lit0 (S120.rowMajor i) : (⟨S120, .i32⟩ : BufTy).Contents (Elt F))))) (broadcastInDim S120x1 ![0] bcast_S120_S120x1_0 (select ((constantI S120 1 0#1 : (⟨S120, .i1⟩ : BufTy).Contents (Elt F))) (addi ((fun i => lit1 (S120.rowMajor i) : (⟨S120, .i32⟩ : BufTy).Contents (Elt F))) (broadcastInDim S120 ![] bcast_S_S120 ((constantI S_ 32 16#32 : (⟨S_, .i32⟩ : BufTy).Contents (Elt F))))) ((fun i => lit1 (S120.rowMajor i) : (⟨S120, .i32⟩ : BufTy).Contents (Elt F))))))) (broadcastInDim S120 ![] bcast_S_S120 (id ((constant S_ .f32 0x3F800000#32 : (⟨S_, .f32⟩ : BufTy).Contents (Elt F))))))) (broadcastInDim S120 ![] bcast_S_S120 (id ((constant S_ .f32 0x00000000#32 : (⟨S_, .f32⟩ : BufTy).Contents (Elt F)))))) ((constant S_ .f32 0x00000000#32 : (⟨S_, .f32⟩ : BufTy).Contents (Elt F))) reducesTo_S120_S_d0 h_S_) (maximumf (pairCount (pairValid (valid (n)))) ((constant S_ .f32 0x3F800000#32 : (⟨S_, .f32⟩ : BufTy).Contents (Elt F))))) ((constant S_ .f32 0x00000000#32 : (⟨S_, .f32⟩ : BufTy).Contents (Elt F)))

end

/-- The closing arithmetic at the extended reals. -/
def tail (g : FVec Ideal S16x64x64 .f32) (s : FVec Ideal S16x64 .f32) (n : FVec Ideal S16 .f32) : FVec Ideal S_ .f32 :=
  tailF (F := Ideal) g s n

end Cert.ReferenceIdeal.RefValue

end
-- ==== Proof.KiTailBridge.lean ====
/-
  The kernel's closing arithmetic is the reference's. Both are the same operations applied in the same order to the
  same arguments; the two programs spell the shapes, the shape facts and the two constant tables of pair indices under
  their own names, which unfold to the same literals (the tables are compared entry by entry). The equation is proved
  intermediate function by intermediate function: the pair columns, the means, the regularised covariances, their
  pairwise differences, the valid groups, the valid pairs, their number, and then the whole.
-/
import proofs.«103410_j88596585382423_2_alg».proof.Proof.KiTailDefs
import proofs.«103410_j88596585382423_2_alg».proof.Proof.RefTail

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

/-- The first table of pair indices is the same table in both programs. -/
theorem lit0_eq : Cert.KernelIdeal.lit0 = Cert.ReferenceIdeal.lit0 := by
  funext i; revert i; decide

/-- The second table of pair indices is the same table in both programs. -/
theorem lit1_eq : Cert.KernelIdeal.lit1 = Cert.ReferenceIdeal.lit1 := by
  funext i; revert i; decide

theorem pairCols_eq (a b : IVec S120x1 32) : pairCols a b = Cert.ReferenceIdeal.RefValue.pairCols a b := rfl

theorem means_eq (s : FVec Ideal S16x64 .f32) (n : FVec Ideal S16 .f32) :
    means (F := Ideal) s n = Cert.ReferenceIdeal.RefValue.means (F := Ideal) s n := rfl

theorem covReg_eq (g : FVec Ideal S16x64x64 .f32) (mu : FVec Ideal S16x64 .f32) (n : FVec Ideal S16 .f32) :
    covReg (F := Ideal) g mu n = Cert.ReferenceIdeal.RefValue.covReg (F := Ideal) g mu n := rfl

theorem covDiff_eq (cv : FVec Ideal S16x64x64 .f32) :
    covDiff (F := Ideal) cv = Cert.ReferenceIdeal.RefValue.covDiff (F := Ideal) cv := rfl

theorem valid_eq (n : FVec Ideal S16 .f32) : valid (F := Ideal) n = Cert.ReferenceIdeal.RefValue.valid (F := Ideal) n := rfl

theorem pairValid_eq (v : IVec S16 1) : pairValid (F := Ideal) v = Cert.ReferenceIdeal.RefValue.pairValid (F := Ideal) v := by
  unfold pairValid Cert.ReferenceIdeal.RefValue.pairValid
  rw [lit0_eq, lit1_eq]
  rfl

theorem pairCount_eq (pv : IVec S120 1) : pairCount (F := Ideal) pv = Cert.ReferenceIdeal.RefValue.pairCount (F := Ideal) pv := rfl

/-- The kernel's closing arithmetic is the reference's. -/
theorem closing_eq_tail (g : FVec Ideal S16x64x64 .f32) (s : FVec Ideal S16x64 .f32) (n : FVec Ideal S16 .f32) :
    closing g s n = Cert.ReferenceIdeal.RefValue.tail g s n := by
  unfold closing Cert.ReferenceIdeal.RefValue.tail closingF Cert.ReferenceIdeal.RefValue.tailF
  simp only [means_eq, covReg_eq, covDiff_eq, valid_eq, pairValid_eq, pairCount_eq, pairCols_eq, lit0_eq, lit1_eq]
  rfl

end Cert.KernelIdeal.Tail

end
-- ==== Proof.RefRun.lean ====
/-
  The reference program's @main as the list of its 208 host operations (the three calls of the outlined
  select functions listed at their call sites over the calls' own buffers), and its run read back: every weakly fair
  execution terminates with the result at `tail` of the three statistics `headGrams`, `headSums`, `headCount` of
  the argument arrays' launch contents, and the argument arrays unchanged.
-/
import proofs.«103410_j88596585382423_2_alg».proof.Proof.RefTail
import proofs.«103410_j88596585382423_2_alg».proof.Proof.RefHead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]

/-- @main's 208 operations, in order. -/
abbrev ops : List (HloOp τ sig (Elt F)) :=
  [ nullary main_c (fun i => lit0 (S120.rowMajor i)),
    nullary main_c_0 (constantI S120 1 0#1),
    nullary main_c_1 (fun i => lit1 (S120.rowMajor i)),
    nullary main_c_2 (constantI S120 1 0#1),
    nullary main_c_3 (constantI S120 1 0#1),
    nullary main_c_4 (constantI S120 1 0#1),
    unary main_arg1 main_v0 (broadcastInDim S524288x1 ![0] bcast_S524288_S524288x1_0 : (⟨S524288, .i32⟩ : BufTy).Contents (Elt F) → (⟨S524288x1, .i32⟩ : BufTy).Contents (Elt F)),
    nullary main_v1 (iotaInDim S16 32 0),
    unary main_v1 main_v2 (broadcastInDim S1x16 ![1] bcast_S16_S1x16_1 : (⟨S16, .i32⟩ : BufTy).Contents (Elt F) → (⟨S1x16, .i32⟩ : BufTy).Contents (Elt F)),
    unary main_v0 main_v3 (broadcastInDim S524288x16 ![0, 1] bcast_S524288x1_S524288x16_0_1 : (⟨S524288x1, .i32⟩ : BufTy).Contents (Elt F) → (⟨S524288x16, .i32⟩ : BufTy).Contents (Elt F)),
    unary main_v2 main_v4 (broadcastInDim S524288x16 ![0, 1] bcast_S1x16_S524288x16_0_1 : (⟨S1x16, .i32⟩ : BufTy).Contents (Elt F) → (⟨S524288x16, .i32⟩ : BufTy).Contents (Elt F)),
    binary main_v3 main_v4 main_v5 (cmpi .eq : (⟨S524288x16, .i32⟩ : BufTy).Contents (Elt F) → (⟨S524288x16, .i32⟩ : BufTy).Contents (Elt F) → (⟨S524288x16, .i1⟩ : BufTy).Contents (Elt F)),
    unary main_v5 main_v6 (uitofp .f32 : (⟨S524288x16, .i1⟩ : BufTy).Contents (Elt F) → (⟨S524288x16, .f32⟩ : BufTy).Contents (Elt F)),
    nullary main_cst (constant S_ .f32 0x00000000#32),
    binary main_v6 main_cst main_v7 ((fun x v => Host.reduceAdd x v reducesTo_S524288x16_S16_d0 h_S_) : (⟨S524288x16, .f32⟩ : BufTy).Contents (Elt F) → (⟨S_, .f32⟩ : BufTy).Contents (Elt F) → (⟨S16, .f32⟩ : BufTy).Contents (Elt F)),
    unary main_v6 main_v8 ((transpose S16x524288 [1, 0] · transposes_S524288x16_S16x524288_1_0) : (⟨S524288x16, .f32⟩ : BufTy).Contents (Elt F) → (⟨S16x524288, .f32⟩ : BufTy).Contents (Elt F)),
    binary main_v8 main_arg0 main_v9 ((fun l r => Host.dotGeneral dot_S16x524288_S524288x64_S16x64_1_0_0_1_n_n none l r) : (⟨S16x524288, .f32⟩ : BufTy).Contents (Elt F) → (⟨S524288x64, .f32⟩ : BufTy).Contents (Elt F) → (⟨S16x64, .f32⟩ : BufTy).Contents (Elt F)),
    nullary main_cst_5 (constant S_ .f32 0x3F800000#32),
    unary main_cst_5 main_v10 (broadcastInDim S16 ![] bcast_S_S16 : (⟨S_, .f32⟩ : BufTy).Contents (Elt F) → (⟨S16, .f32⟩ : BufTy).Contents (Elt F)),
    binary main_v7 main_v10 main_v11 (maximumf : (⟨S16, .f32⟩ : BufTy).Contents (Elt F) → (⟨S16, .f32⟩ : BufTy).Contents (Elt F) → (⟨S16, .f32⟩ : BufTy).Contents (Elt F)),
    unary main_v11 main_v12 (broadcastInDim S16x1 ![0] bcast_S16_S16x1_0 : (⟨S16, .f32⟩ : BufTy).Contents (Elt F) → (⟨S16x1, .f32⟩ : BufTy).Contents (Elt F)),
    unary main_v12 main_v13 (broadcastInDim S16x64 ![0, 1] bcast_S16x1_S16x64_0_1 : (⟨S16x1, .f32⟩ : BufTy).Contents (Elt F) → (⟨S16x64, .f32⟩ : BufTy).Contents (Elt F)),
    binary main_v9 main_v13 main_v14 (Host.divf : (⟨S16x64, .f32⟩ : BufTy).Contents (Elt F) → (⟨S16x64, .f32⟩ : BufTy).Contents (Elt F) → (⟨S16x64, .f32⟩ : BufTy).Contents (Elt F)),
    unary main_arg0 main_v15 ((transpose S64x524288 [1, 0] · transposes_S524288x64_S64x524288_1_0) : (⟨S524288x64, .f32⟩ : BufTy).Contents (Elt F) → (⟨S64x524288, .f32⟩ : BufTy).Contents (Elt F)),
    unary main_v6 main_v16 ((extractStridedSlice S524288x1 ![0, 0] · slices_S524288x16_S524288x1_0_0) : (⟨S524288x16, .f32⟩ : BufTy).Contents (Elt F) → (⟨S524288x1, .f32⟩ : BufTy).Contents (Elt F)),
    unary main_v16 main_v17 (broadcastInDim S524288x64 ![0, 1] bcast_S524288x1_S524288x64_0_1 : (⟨S524288x1, .f32⟩ : BufTy).Contents (Elt F) → (⟨S524288x64, .f32⟩ : BufTy).Contents (Elt F)),
    binary main_arg0 main_v17 main_v18 (mulf : (⟨S524288x64, .f32⟩ : BufTy).Contents (Elt F) → (⟨S524288x64, .f32⟩ : BufTy).Contents (Elt F) → (⟨S524288x64, .f32⟩ : BufTy).Contents (Elt F)),
    binary main_v15 main_v18 main_v19 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v20 ((transpose S64x524288 [1, 0] · transposes_S524288x64_S64x524288_1_0) : (⟨S524288x64, .f32⟩ : BufTy).Contents (Elt F) → (⟨S64x524288, .f32⟩ : BufTy).Contents (Elt F)),
    unary main_v6 main_v21 ((extractStridedSlice S524288x1 ![0, 1] · slices_S524288x16_S524288x1_0_1) : (⟨S524288x16, .f32⟩ : BufTy).Contents (Elt F) → (⟨S524288x1, .f32⟩ : BufTy).Contents (Elt F)),
    unary main_v21 main_v22 (broadcastInDim S524288x64 ![0, 1] bcast_S524288x1_S524288x64_0_1 : (⟨S524288x1, .f32⟩ : BufTy).Contents (Elt F) → (⟨S524288x64, .f32⟩ : BufTy).Contents (Elt F)),
    binary main_arg0 main_v22 main_v23 (mulf : (⟨S524288x64, .f32⟩ : BufTy).Contents (Elt F) → (⟨S524288x64, .f32⟩ : BufTy).Contents (Elt F) → (⟨S524288x64, .f32⟩ : BufTy).Contents (Elt F)),
    binary main_v20 main_v23 main_v24 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v25 ((transpose S64x524288 [1, 0] · transposes_S524288x64_S64x524288_1_0) : (⟨S524288x64, .f32⟩ : BufTy).Contents (Elt F) → (⟨S64x524288, .f32⟩ : BufTy).Contents (Elt F)),
    unary main_v6 main_v26 ((extractStridedSlice S524288x1 ![0, 2] · slices_S524288x16_S524288x1_0_2) : (⟨S524288x16, .f32⟩ : BufTy).Contents (Elt F) → (⟨S524288x1, .f32⟩ : BufTy).Contents (Elt F)),
    unary main_v26 main_v27 (broadcastInDim S524288x64 ![0, 1] bcast_S524288x1_S524288x64_0_1 : (⟨S524288x1, .f32⟩ : BufTy).Contents (Elt F) → (⟨S524288x64, .f32⟩ : BufTy).Contents (Elt F)),
    binary main_arg0 main_v27 main_v28 (mulf : (⟨S524288x64, .f32⟩ : BufTy).Contents (Elt F) → (⟨S524288x64, .f32⟩ : BufTy).Contents (Elt F) → (⟨S524288x64, .f32⟩ : BufTy).Contents (Elt F)),
    binary main_v25 main_v28 main_v29 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v30 ((transpose S64x524288 [1, 0] · transposes_S524288x64_S64x524288_1_0) : (⟨S524288x64, .f32⟩ : BufTy).Contents (Elt F) → (⟨S64x524288, .f32⟩ : BufTy).Contents (Elt F)),
    unary main_v6 main_v31 ((extractStridedSlice S524288x1 ![0, 3] · slices_S524288x16_S524288x1_0_3) : (⟨S524288x16, .f32⟩ : BufTy).Contents (Elt F) → (⟨S524288x1, .f32⟩ : BufTy).Contents (Elt F)),
    unary main_v31 main_v32 (broadcastInDim S524288x64 ![0, 1] bcast_S524288x1_S524288x64_0_1 : (⟨S524288x1, .f32⟩ : BufTy).Contents (Elt F) → (⟨S524288x64, .f32⟩ : BufTy).Contents (Elt F)),
    binary main_arg0 main_v32 main_v33 (mulf : (⟨S524288x64, .f32⟩ : BufTy).Contents (Elt F) → (⟨S524288x64, .f32⟩ : BufTy).Contents (Elt F) → (⟨S524288x64, .f32⟩ : BufTy).Contents (Elt F)),
    binary main_v30 main_v33 main_v34 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v35 ((transpose S64x524288 [1, 0] · transposes_S524288x64_S64x524288_1_0) : (⟨S524288x64, .f32⟩ : BufTy).Contents (Elt F) → (⟨S64x524288, .f32⟩ : BufTy).Contents (Elt F)),
    unary main_v6 main_v36 ((extractStridedSlice S524288x1 ![0, 4] · slices_S524288x16_S524288x1_0_4) : (⟨S524288x16, .f32⟩ : BufTy).Contents (Elt F) → (⟨S524288x1, .f32⟩ : BufTy).Contents (Elt F)),
    unary main_v36 main_v37 (broadcastInDim S524288x64 ![0, 1] bcast_S524288x1_S524288x64_0_1 : (⟨S524288x1, .f32⟩ : BufTy).Contents (Elt F) → (⟨S524288x64, .f32⟩ : BufTy).Contents (Elt F)),
    binary main_arg0 main_v37 main_v38 (mulf : (⟨S524288x64, .f32⟩ : BufTy).Contents (Elt F) → (⟨S524288x64, .f32⟩ : BufTy).Contents (Elt F) → (⟨S524288x64, .f32⟩ : BufTy).Contents (Elt F)),
    binary main_v35 main_v38 main_v39 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v40 ((transpose S64x524288 [1, 0] · transposes_S524288x64_S64x524288_1_0) : (⟨S524288x64, .f32⟩ : BufTy).Contents (Elt F) → (⟨S64x524288, .f32⟩ : BufTy).Contents (Elt F)),
    unary main_v6 main_v41 ((extractStridedSlice S524288x1 ![0, 5] · slices_S524288x16_S524288x1_0_5) : (⟨S524288x16, .f32⟩ : BufTy).Contents (Elt F) → (⟨S524288x1, .f32⟩ : BufTy).Contents (Elt F)),
    unary main_v41 main_v42 (broadcastInDim S524288x64 ![0, 1] bcast_S524288x1_S524288x64_0_1 : (⟨S524288x1, .f32⟩ : BufTy).Contents (Elt F) → (⟨S524288x64, .f32⟩ : BufTy).Contents (Elt F)),
    binary main_arg0 main_v42 main_v43 (mulf : (⟨S524288x64, .f32⟩ : BufTy).Contents (Elt F) → (⟨S524288x64, .f32⟩ : BufTy).Contents (Elt F) → (⟨S524288x64, .f32⟩ : BufTy).Contents (Elt F)),
    binary main_v40 main_v43 main_v44 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v45 ((transpose S64x524288 [1, 0] · transposes_S524288x64_S64x524288_1_0) : (⟨S524288x64, .f32⟩ : BufTy).Contents (Elt F) → (⟨S64x524288, .f32⟩ : BufTy).Contents (Elt F)),
    unary main_v6 main_v46 ((extractStridedSlice S524288x1 ![0, 6] · slices_S524288x16_S524288x1_0_6) : (⟨S524288x16, .f32⟩ : BufTy).Contents (Elt F) → (⟨S524288x1, .f32⟩ : BufTy).Contents (Elt F)),
    unary main_v46 main_v47 (broadcastInDim S524288x64 ![0, 1] bcast_S524288x1_S524288x64_0_1 : (⟨S524288x1, .f32⟩ : BufTy).Contents (Elt F) → (⟨S524288x64, .f32⟩ : BufTy).Contents (Elt F)),
    binary main_arg0 main_v47 main_v48 (mulf : (⟨S524288x64, .f32⟩ : BufTy).Contents (Elt F) → (⟨S524288x64, .f32⟩ : BufTy).Contents (Elt F) → (⟨S524288x64, .f32⟩ : BufTy).Contents (Elt F)),
    binary main_v45 main_v48 main_v49 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v50 ((transpose S64x524288 [1, 0] · transposes_S524288x64_S64x524288_1_0) : (⟨S524288x64, .f32⟩ : BufTy).Contents (Elt F) → (⟨S64x524288, .f32⟩ : BufTy).Contents (Elt F)),
    unary main_v6 main_v51 ((extractStridedSlice S524288x1 ![0, 7] · slices_S524288x16_S524288x1_0_7) : (⟨S524288x16, .f32⟩ : BufTy).Contents (Elt F) → (⟨S524288x1, .f32⟩ : BufTy).Contents (Elt F)),
    unary main_v51 main_v52 (broadcastInDim S524288x64 ![0, 1] bcast_S524288x1_S524288x64_0_1 : (⟨S524288x1, .f32⟩ : BufTy).Contents (Elt F) → (⟨S524288x64, .f32⟩ : BufTy).Contents (Elt F)),
    binary main_arg0 main_v52 main_v53 (mulf : (⟨S524288x64, .f32⟩ : BufTy).Contents (Elt F) → (⟨S524288x64, .f32⟩ : BufTy).Contents (Elt F) → (⟨S524288x64, .f32⟩ : BufTy).Contents (Elt F)),
    binary main_v50 main_v53 main_v54 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v55 ((transpose S64x524288 [1, 0] · transposes_S524288x64_S64x524288_1_0) : (⟨S524288x64, .f32⟩ : BufTy).Contents (Elt F) → (⟨S64x524288, .f32⟩ : BufTy).Contents (Elt F)),
    unary main_v6 main_v56 ((extractStridedSlice S524288x1 ![0, 8] · slices_S524288x16_S524288x1_0_8) : (⟨S524288x16, .f32⟩ : BufTy).Contents (Elt F) → (⟨S524288x1, .f32⟩ : BufTy).Contents (Elt F)),
    unary main_v56 main_v57 (broadcastInDim S524288x64 ![0, 1] bcast_S524288x1_S524288x64_0_1 : (⟨S524288x1, .f32⟩ : BufTy).Contents (Elt F) → (⟨S524288x64, .f32⟩ : BufTy).Contents (Elt F)),
    binary main_arg0 main_v57 main_v58 (mulf : (⟨S524288x64, .f32⟩ : BufTy).Contents (Elt F) → (⟨S524288x64, .f32⟩ : BufTy).Contents (Elt F) → (⟨S524288x64, .f32⟩ : BufTy).Contents (Elt F)),
    binary main_v55 main_v58 main_v59 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v60 ((transpose S64x524288 [1, 0] · transposes_S524288x64_S64x524288_1_0) : (⟨S524288x64, .f32⟩ : BufTy).Contents (Elt F) → (⟨S64x524288, .f32⟩ : BufTy).Contents (Elt F)),
    unary main_v6 main_v61 ((extractStridedSlice S524288x1 ![0, 9] · slices_S524288x16_S524288x1_0_9) : (⟨S524288x16, .f32⟩ : BufTy).Contents (Elt F) → (⟨S524288x1, .f32⟩ : BufTy).Contents (Elt F)),
    unary main_v61 main_v62 (broadcastInDim S524288x64 ![0, 1] bcast_S524288x1_S524288x64_0_1 : (⟨S524288x1, .f32⟩ : BufTy).Contents (Elt F) → (⟨S524288x64, .f32⟩ : BufTy).Contents (Elt F)),
    binary main_arg0 main_v62 main_v63 (mulf : (⟨S524288x64, .f32⟩ : BufTy).Contents (Elt F) → (⟨S524288x64, .f32⟩ : BufTy).Contents (Elt F) → (⟨S524288x64, .f32⟩ : BufTy).Contents (Elt F)),
    binary main_v60 main_v63 main_v64 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v65 ((transpose S64x524288 [1, 0] · transposes_S524288x64_S64x524288_1_0) : (⟨S524288x64, .f32⟩ : BufTy).Contents (Elt F) → (⟨S64x524288, .f32⟩ : BufTy).Contents (Elt F)),
    unary main_v6 main_v66 ((extractStridedSlice S524288x1 ![0, 10] · slices_S524288x16_S524288x1_0_10) : (⟨S524288x16, .f32⟩ : BufTy).Contents (Elt F) → (⟨S524288x1, .f32⟩ : BufTy).Contents (Elt F)),
    unary main_v66 main_v67 (broadcastInDim S524288x64 ![0, 1] bcast_S524288x1_S524288x64_0_1 : (⟨S524288x1, .f32⟩ : BufTy).Contents (Elt F) → (⟨S524288x64, .f32⟩ : BufTy).Contents (Elt F)),
    binary main_arg0 main_v67 main_v68 (mulf : (⟨S524288x64, .f32⟩ : BufTy).Contents (Elt F) → (⟨S524288x64, .f32⟩ : BufTy).Contents (Elt F) → (⟨S524288x64, .f32⟩ : BufTy).Contents (Elt F)),
    binary main_v65 main_v68 main_v69 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v70 ((transpose S64x524288 [1, 0] · transposes_S524288x64_S64x524288_1_0) : (⟨S524288x64, .f32⟩ : BufTy).Contents (Elt F) → (⟨S64x524288, .f32⟩ : BufTy).Contents (Elt F)),
    unary main_v6 main_v71 ((extractStridedSlice S524288x1 ![0, 11] · slices_S524288x16_S524288x1_0_11) : (⟨S524288x16, .f32⟩ : BufTy).Contents (Elt F) → (⟨S524288x1, .f32⟩ : BufTy).Contents (Elt F)),
    unary main_v71 main_v72 (broadcastInDim S524288x64 ![0, 1] bcast_S524288x1_S524288x64_0_1 : (⟨S524288x1, .f32⟩ : BufTy).Contents (Elt F) → (⟨S524288x64, .f32⟩ : BufTy).Contents (Elt F)),
    binary main_arg0 main_v72 main_v73 (mulf : (⟨S524288x64, .f32⟩ : BufTy).Contents (Elt F) → (⟨S524288x64, .f32⟩ : BufTy).Contents (Elt F) → (⟨S524288x64, .f32⟩ : BufTy).Contents (Elt F)),
    binary main_v70 main_v73 main_v74 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v75 ((transpose S64x524288 [1, 0] · transposes_S524288x64_S64x524288_1_0) : (⟨S524288x64, .f32⟩ : BufTy).Contents (Elt F) → (⟨S64x524288, .f32⟩ : BufTy).Contents (Elt F)),
    unary main_v6 main_v76 ((extractStridedSlice S524288x1 ![0, 12] · slices_S524288x16_S524288x1_0_12) : (⟨S524288x16, .f32⟩ : BufTy).Contents (Elt F) → (⟨S524288x1, .f32⟩ : BufTy).Contents (Elt F)),
    unary main_v76 main_v77 (broadcastInDim S524288x64 ![0, 1] bcast_S524288x1_S524288x64_0_1 : (⟨S524288x1, .f32⟩ : BufTy).Contents (Elt F) → (⟨S524288x64, .f32⟩ : BufTy).Contents (Elt F)),
    binary main_arg0 main_v77 main_v78 (mulf : (⟨S524288x64, .f32⟩ : BufTy).Contents (Elt F) → (⟨S524288x64, .f32⟩ : BufTy).Contents (Elt F) → (⟨S524288x64, .f32⟩ : BufTy).Contents (Elt F)),
    binary main_v75 main_v78 main_v79 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v80 ((transpose S64x524288 [1, 0] · transposes_S524288x64_S64x524288_1_0) : (⟨S524288x64, .f32⟩ : BufTy).Contents (Elt F) → (⟨S64x524288, .f32⟩ : BufTy).Contents (Elt F)),
    unary main_v6 main_v81 ((extractStridedSlice S524288x1 ![0, 13] · slices_S524288x16_S524288x1_0_13) : (⟨S524288x16, .f32⟩ : BufTy).Contents (Elt F) → (⟨S524288x1, .f32⟩ : BufTy).Contents (Elt F)),
    unary main_v81 main_v82 (broadcastInDim S524288x64 ![0, 1] bcast_S524288x1_S524288x64_0_1 : (⟨S524288x1, .f32⟩ : BufTy).Contents (Elt F) → (⟨S524288x64, .f32⟩ : BufTy).Contents (Elt F)),
    binary main_arg0 main_v82 main_v83 (mulf : (⟨S524288x64, .f32⟩ : BufTy).Contents (Elt F) → (⟨S524288x64, .f32⟩ : BufTy).Contents (Elt F) → (⟨S524288x64, .f32⟩ : BufTy).Contents (Elt F)),
    binary main_v80 main_v83 main_v84 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v85 ((transpose S64x524288 [1, 0] · transposes_S524288x64_S64x524288_1_0) : (⟨S524288x64, .f32⟩ : BufTy).Contents (Elt F) → (⟨S64x524288, .f32⟩ : BufTy).Contents (Elt F)),
    unary main_v6 main_v86 ((extractStridedSlice S524288x1 ![0, 14] · slices_S524288x16_S524288x1_0_14) : (⟨S524288x16, .f32⟩ : BufTy).Contents (Elt F) → (⟨S524288x1, .f32⟩ : BufTy).Contents (Elt F)),
    unary main_v86 main_v87 (broadcastInDim S524288x64 ![0, 1] bcast_S524288x1_S524288x64_0_1 : (⟨S524288x1, .f32⟩ : BufTy).Contents (Elt F) → (⟨S524288x64, .f32⟩ : BufTy).Contents (Elt F)),
    binary main_arg0 main_v87 main_v88 (mulf : (⟨S524288x64, .f32⟩ : BufTy).Contents (Elt F) → (⟨S524288x64, .f32⟩ : BufTy).Contents (Elt F) → (⟨S524288x64, .f32⟩ : BufTy).Contents (Elt F)),
    binary main_v85 main_v88 main_v89 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_arg0 main_v90 ((transpose S64x524288 [1, 0] · transposes_S524288x64_S64x524288_1_0) : (⟨S524288x64, .f32⟩ : BufTy).Contents (Elt F) → (⟨S64x524288, .f32⟩ : BufTy).Contents (Elt F)),
    unary main_v6 main_v91 ((extractStridedSlice S524288x1 ![0, 15] · slices_S524288x16_S524288x1_0_15) : (⟨S524288x16, .f32⟩ : BufTy).Contents (Elt F) → (⟨S524288x1, .f32⟩ : BufTy).Contents (Elt F)),
    unary main_v91 main_v92 (broadcastInDim S524288x64 ![0, 1] bcast_S524288x1_S524288x64_0_1 : (⟨S524288x1, .f32⟩ : BufTy).Contents (Elt F) → (⟨S524288x64, .f32⟩ : BufTy).Contents (Elt F)),
    binary main_arg0 main_v92 main_v93 (mulf : (⟨S524288x64, .f32⟩ : BufTy).Contents (Elt F) → (⟨S524288x64, .f32⟩ : BufTy).Contents (Elt F) → (⟨S524288x64, .f32⟩ : BufTy).Contents (Elt F)),
    binary main_v90 main_v93 main_v94 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_v19 main_v95 (broadcastInDim S1x64x64 ![1, 2] bcast_S64x64_S1x64x64_1_2 : (⟨S64x64, .f32⟩ : BufTy).Contents (Elt F) → (⟨S1x64x64, .f32⟩ : BufTy).Contents (Elt F)),
    unary main_v24 main_v96 (broadcastInDim S1x64x64 ![1, 2] bcast_S64x64_S1x64x64_1_2 : (⟨S64x64, .f32⟩ : BufTy).Contents (Elt F) → (⟨S1x64x64, .f32⟩ : BufTy).Contents (Elt F)),
    unary main_v29 main_v97 (broadcastInDim S1x64x64 ![1, 2] bcast_S64x64_S1x64x64_1_2 : (⟨S64x64, .f32⟩ : BufTy).Contents (Elt F) → (⟨S1x64x64, .f32⟩ : BufTy).Contents (Elt F)),
    unary main_v34 main_v98 (broadcastInDim S1x64x64 ![1, 2] bcast_S64x64_S1x64x64_1_2 : (⟨S64x64, .f32⟩ : BufTy).Contents (Elt F) → (⟨S1x64x64, .f32⟩ : BufTy).Contents (Elt F)),
    unary main_v39 main_v99 (broadcastInDim S1x64x64 ![1, 2] bcast_S64x64_S1x64x64_1_2 : (⟨S64x64, .f32⟩ : BufTy).Contents (Elt F) → (⟨S1x64x64, .f32⟩ : BufTy).Contents (Elt F)),
    unary main_v44 main_v100 (broadcastInDim S1x64x64 ![1, 2] bcast_S64x64_S1x64x64_1_2 : (⟨S64x64, .f32⟩ : BufTy).Contents (Elt F) → (⟨S1x64x64, .f32⟩ : BufTy).Contents (Elt F)),
    unary main_v49 main_v101 (broadcastInDim S1x64x64 ![1, 2] bcast_S64x64_S1x64x64_1_2 : (⟨S64x64, .f32⟩ : BufTy).Contents (Elt F) → (⟨S1x64x64, .f32⟩ : BufTy).Contents (Elt F)),
    unary main_v54 main_v102 (broadcastInDim S1x64x64 ![1, 2] bcast_S64x64_S1x64x64_1_2 : (⟨S64x64, .f32⟩ : BufTy).Contents (Elt F) → (⟨S1x64x64, .f32⟩ : BufTy).Contents (Elt F)),
    unary main_v59 main_v103 (broadcastInDim S1x64x64 ![1, 2] bcast_S64x64_S1x64x64_1_2 : (⟨S64x64, .f32⟩ : BufTy).Contents (Elt F) → (⟨S1x64x64, .f32⟩ : BufTy).Contents (Elt F)),
    unary main_v64 main_v104 (broadcastInDim S1x64x64 ![1, 2] bcast_S64x64_S1x64x64_1_2 : (⟨S64x64, .f32⟩ : BufTy).Contents (Elt F) → (⟨S1x64x64, .f32⟩ : BufTy).Contents (Elt F)),
    unary main_v69 main_v105 (broadcastInDim S1x64x64 ![1, 2] bcast_S64x64_S1x64x64_1_2 : (⟨S64x64, .f32⟩ : BufTy).Contents (Elt F) → (⟨S1x64x64, .f32⟩ : BufTy).Contents (Elt F)),
    unary main_v74 main_v106 (broadcastInDim S1x64x64 ![1, 2] bcast_S64x64_S1x64x64_1_2 : (⟨S64x64, .f32⟩ : BufTy).Contents (Elt F) → (⟨S1x64x64, .f32⟩ : BufTy).Contents (Elt F)),
    unary main_v79 main_v107 (broadcastInDim S1x64x64 ![1, 2] bcast_S64x64_S1x64x64_1_2 : (⟨S64x64, .f32⟩ : BufTy).Contents (Elt F) → (⟨S1x64x64, .f32⟩ : BufTy).Contents (Elt F)),
    unary main_v84 main_v108 (broadcastInDim S1x64x64 ![1, 2] bcast_S64x64_S1x64x64_1_2 : (⟨S64x64, .f32⟩ : BufTy).Contents (Elt F) → (⟨S1x64x64, .f32⟩ : BufTy).Contents (Elt F)),
    unary main_v89 main_v109 (broadcastInDim S1x64x64 ![1, 2] bcast_S64x64_S1x64x64_1_2 : (⟨S64x64, .f32⟩ : BufTy).Contents (Elt F) → (⟨S1x64x64, .f32⟩ : BufTy).Contents (Elt F)),
    unary main_v94 main_v110 (broadcastInDim S1x64x64 ![1, 2] bcast_S64x64_S1x64x64_1_2 : (⟨S64x64, .f32⟩ : BufTy).Contents (Elt F) → (⟨S1x64x64, .f32⟩ : BufTy).Contents (Elt F)),
    nary ![main_v95, main_v96, main_v97, main_v98, main_v99, main_v100, main_v101, main_v102, main_v103, main_v104, main_v105, main_v106, main_v107, main_v108, main_v109, main_v110] main_v111 (fun u => stack16 (u 0) (u 1) (u 2) (u 3) (u 4) (u 5) (u 6) (u 7) (u 8) (u 9) (u 10) (u 11) (u 12) (u 13) (u 14) (u 15)),
    nullary main_cst_6 (constant S_ .f32 0x3F800000#32),
    unary main_cst_6 main_v112 (broadcastInDim S16 ![] bcast_S_S16 : (⟨S_, .f32⟩ : BufTy).Contents (Elt F) → (⟨S16, .f32⟩ : BufTy).Contents (Elt F)),
    binary main_v7 main_v112 main_v113 (subf : (⟨S16, .f32⟩ : BufTy).Contents (Elt F) → (⟨S16, .f32⟩ : BufTy).Contents (Elt F) → (⟨S16, .f32⟩ : BufTy).Contents (Elt F)),
    nullary main_cst_7 (constant S_ .f32 0x3F800000#32),
    unary main_cst_7 main_v114 (broadcastInDim S16 ![] bcast_S_S16 : (⟨S_, .f32⟩ : BufTy).Contents (Elt F) → (⟨S16, .f32⟩ : BufTy).Contents (Elt F)),
    binary main_v113 main_v114 main_v115 (maximumf : (⟨S16, .f32⟩ : BufTy).Contents (Elt F) → (⟨S16, .f32⟩ : BufTy).Contents (Elt F) → (⟨S16, .f32⟩ : BufTy).Contents (Elt F)),
    unary main_v115 main_v116 (broadcastInDim S16x1x1 ![0] bcast_S16_S16x1x1_0 : (⟨S16, .f32⟩ : BufTy).Contents (Elt F) → (⟨S16x1x1, .f32⟩ : BufTy).Contents (Elt F)),
    unary main_v7 main_v117 (broadcastInDim S16x1x1 ![0] bcast_S16_S16x1x1_0 : (⟨S16, .f32⟩ : BufTy).Contents (Elt F) → (⟨S16x1x1, .f32⟩ : BufTy).Contents (Elt F)),
    unary main_v14 main_v118 (broadcastInDim S16x64x1 ![0, 1] bcast_S16x64_S16x64x1_0_1 : (⟨S16x64, .f32⟩ : BufTy).Contents (Elt F) → (⟨S16x64x1, .f32⟩ : BufTy).Contents (Elt F)),
    unary main_v117 main_v119 (broadcastInDim S16x64x1 ![0, 1, 2] bcast_S16x1x1_S16x64x1_0_1_2 : (⟨S16x1x1, .f32⟩ : BufTy).Contents (Elt F) → (⟨S16x64x1, .f32⟩ : BufTy).Contents (Elt F)),
    binary main_v119 main_v118 main_v120 (mulf : (⟨S16x64x1, .f32⟩ : BufTy).Contents (Elt F) → (⟨S16x64x1, .f32⟩ : BufTy).Contents (Elt F) → (⟨S16x64x1, .f32⟩ : BufTy).Contents (Elt F)),
    unary main_v14 main_v121 (broadcastInDim S16x1x64 ![0, 2] bcast_S16x64_S16x1x64_0_2 : (⟨S16x64, .f32⟩ : BufTy).Contents (Elt F) → (⟨S16x1x64, .f32⟩ : BufTy).Contents (Elt F)),
    unary main_v120 main_v122 (broadcastInDim S16x64x64 ![0, 1, 2] bcast_S16x64x1_S16x64x64_0_1_2 : (⟨S16x64x1, .f32⟩ : BufTy).Contents (Elt F) → (⟨S16x64x64, .f32⟩ : BufTy).Contents (Elt F)),
    unary main_v121 main_v123 (broadcastInDim S16x64x64 ![0, 1, 2] bcast_S16x1x64_S16x64x64_0_1_2 : (⟨S16x1x64, .f32⟩ : BufTy).Contents (Elt F) → (⟨S16x64x64, .f32⟩ : BufTy).Contents (Elt F)),
    binary main_v122 main_v123 main_v124 (mulf : (⟨S16x64x64, .f32⟩ : BufTy).Contents (Elt F) → (⟨S16x64x64, .f32⟩ : BufTy).Contents (Elt F) → (⟨S16x64x64, .f32⟩ : BufTy).Contents (Elt F)),
    binary main_v111 main_v124 main_v125 (subf : (⟨S16x64x64, .f32⟩ : BufTy).Contents (Elt F) → (⟨S16x64x64, .f32⟩ : BufTy).Contents (Elt F) → (⟨S16x64x64, .f32⟩ : BufTy).Contents (Elt F)),
    unary main_v116 main_v126 (broadcastInDim S16x64x64 ![0, 1, 2] bcast_S16x1x1_S16x64x64_0_1_2 : (⟨S16x1x1, .f32⟩ : BufTy).Contents (Elt F) → (⟨S16x64x64, .f32⟩ : BufTy).Contents (Elt F)),
    binary main_v125 main_v126 main_v127 (Host.divf : (⟨S16x64x64, .f32⟩ : BufTy).Contents (Elt F) → (⟨S16x64x64, .f32⟩ : BufTy).Contents (Elt F) → (⟨S16x64x64, .f32⟩ : BufTy).Contents (Elt F)),
    nullary main_v128 (iotaInDim S64x64 32 0),
    nullary main_v129 (iotaInDim S64x64 32 1),
    nullary main_c_8 (constantI S_ 32 0#32),
    unary main_c_8 main_v130 (broadcastInDim S64x64 ![] bcast_S_S64x64 : (⟨S_, .i32⟩ : BufTy).Contents (Elt F) → (⟨S64x64, .i32⟩ : BufTy).Contents (Elt F)),
    binary main_v128 main_v130 main_v131 (addi : (⟨S64x64, .i32⟩ : BufTy).Contents (Elt F) → (⟨S64x64, .i32⟩ : BufTy).Contents (Elt F) → (⟨S64x64, .i32⟩ : BufTy).Contents (Elt F)),
    binary main_v131 main_v129 main_v132 (cmpi .eq : (⟨S64x64, .i32⟩ : BufTy).Contents (Elt F) → (⟨S64x64, .i32⟩ : BufTy).Contents (Elt F) → (⟨S64x64, .i1⟩ : BufTy).Contents (Elt F)),
    unary main_v132 main_v133 (uitofp .f32 : (⟨S64x64, .i1⟩ : BufTy).Contents (Elt F) → (⟨S64x64, .f32⟩ : BufTy).Contents (Elt F)),
    nullary main_cst_9 (constant S_ .f32 0x38D1B717#32),
    unary main_cst_9 main_v134 (broadcastInDim S64x64 ![] bcast_S_S64x64 : (⟨S_, .f32⟩ : BufTy).Contents (Elt F) → (⟨S64x64, .f32⟩ : BufTy).Contents (Elt F)),
    binary main_v134 main_v133 main_v135 (mulf : (⟨S64x64, .f32⟩ : BufTy).Contents (Elt F) → (⟨S64x64, .f32⟩ : BufTy).Contents (Elt F) → (⟨S64x64, .f32⟩ : BufTy).Contents (Elt F)),
    unary main_v135 main_v136 (broadcastInDim S1x64x64 ![1, 2] bcast_S64x64_S1x64x64_1_2 : (⟨S64x64, .f32⟩ : BufTy).Contents (Elt F) → (⟨S1x64x64, .f32⟩ : BufTy).Contents (Elt F)),
    unary main_v136 main_v137 (broadcastInDim S16x64x64 ![0, 1, 2] bcast_S1x64x64_S16x64x64_0_1_2 : (⟨S1x64x64, .f32⟩ : BufTy).Contents (Elt F) → (⟨S16x64x64, .f32⟩ : BufTy).Contents (Elt F)),
    binary main_v127 main_v137 main_v138 (addf : (⟨S16x64x64, .f32⟩ : BufTy).Contents (Elt F) → (⟨S16x64x64, .f32⟩ : BufTy).Contents (Elt F) → (⟨S16x64x64, .f32⟩ : BufTy).Contents (Elt F)),
    unary main_v138 main_v139 (broadcastInDim S16x1x64x64 ![0, 2, 3] bcast_S16x64x64_S16x1x64x64_0_2_3 : (⟨S16x64x64, .f32⟩ : BufTy).Contents (Elt F) → (⟨S16x1x64x64, .f32⟩ : BufTy).Contents (Elt F)),
    unary main_v138 main_v140 (broadcastInDim S1x16x64x64 ![1, 2, 3] bcast_S16x64x64_S1x16x64x64_1_2_3 : (⟨S16x64x64, .f32⟩ : BufTy).Contents (Elt F) → (⟨S1x16x64x64, .f32⟩ : BufTy).Contents (Elt F)),
    unary main_v139 main_v141 (broadcastInDim S16x16x64x64 ![0, 1, 2, 3] bcast_S16x1x64x64_S16x16x64x64_0_1_2_3 : (⟨S16x1x64x64, .f32⟩ : BufTy).Contents (Elt F) → (⟨S16x16x64x64, .f32⟩ : BufTy).Contents (Elt F)),
    unary main_v140 main_v142 (broadcastInDim S16x16x64x64 ![0, 1, 2, 3] bcast_S1x16x64x64_S16x16x64x64_0_1_2_3 : (⟨S1x16x64x64, .f32⟩ : BufTy).Contents (Elt F) → (⟨S16x16x64x64, .f32⟩ : BufTy).Contents (Elt F)),
    binary main_v141 main_v142 main_v143 (subf : (⟨S16x16x64x64, .f32⟩ : BufTy).Contents (Elt F) → (⟨S16x16x64x64, .f32⟩ : BufTy).Contents (Elt F) → (⟨S16x16x64x64, .f32⟩ : BufTy).Contents (Elt F)),
    binary main_v143 main_v143 main_v144 (mulf : (⟨S16x16x64x64, .f32⟩ : BufTy).Contents (Elt F) → (⟨S16x16x64x64, .f32⟩ : BufTy).Contents (Elt F) → (⟨S16x16x64x64, .f32⟩ : BufTy).Contents (Elt F)),
    nullary main_cst_10 (constant S_ .f32 0x00000000#32),
    binary main_v144 main_cst_10 main_v145 ((fun x v => Host.reduceAdd x v reducesTo_S16x16x64x64_S16x16_d2_3 h_S_) : (⟨S16x16x64x64, .f32⟩ : BufTy).Contents (Elt F) → (⟨S_, .f32⟩ : BufTy).Contents (Elt F) → (⟨S16x16, .f32⟩ : BufTy).Contents (Elt F)),
    nullary main_cst_11 (constant S_ .f32 0x40000000#32),
    unary main_cst_11 main_v146 (broadcastInDim S16 ![] bcast_S_S16 : (⟨S_, .f32⟩ : BufTy).Contents (Elt F) → (⟨S16, .f32⟩ : BufTy).Contents (Elt F)),
    binary main_v7 main_v146 main_v147 (cmpf .oge : (⟨S16, .f32⟩ : BufTy).Contents (Elt F) → (⟨S16, .f32⟩ : BufTy).Contents (Elt F) → (⟨S16, .i1⟩ : BufTy).Contents (Elt F)),
    nullary main_c_12 (constantI S_ 32 16#32),
    unary main_c_12 main_v148 (broadcastInDim S120 ![] bcast_S_S120 : (⟨S_, .i32⟩ : BufTy).Contents (Elt F) → (⟨S120, .i32⟩ : BufTy).Contents (Elt F)),
    binary main_c main_v148 main_v149 (addi : (⟨S120, .i32⟩ : BufTy).Contents (Elt F) → (⟨S120, .i32⟩ : BufTy).Contents (Elt F) → (⟨S120, .i32⟩ : BufTy).Contents (Elt F)),
    ternary main_c_0 main_v149 main_c main_v150 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v150 main_v151 (broadcastInDim S120x1 ![0] bcast_S120_S120x1_0 : (⟨S120, .i32⟩ : BufTy).Contents (Elt F) → (⟨S120x1, .i32⟩ : BufTy).Contents (Elt F)),
    binary main_v147 main_v151 main_v152 ((fun x i => Host.gather gather_S16_S120x1_S120_n_0_n_n_0_1_1 x i) : (⟨S16, .i1⟩ : BufTy).Contents (Elt F) → (⟨S120x1, .i32⟩ : BufTy).Contents (Elt F) → (⟨S120, .i1⟩ : BufTy).Contents (Elt F)),
    nullary main_c_13 (constantI S_ 32 16#32),
    unary main_c_13 main_v153 (broadcastInDim S120 ![] bcast_S_S120 : (⟨S_, .i32⟩ : BufTy).Contents (Elt F) → (⟨S120, .i32⟩ : BufTy).Contents (Elt F)),
    binary main_c_1 main_v153 main_v154 (addi : (⟨S120, .i32⟩ : BufTy).Contents (Elt F) → (⟨S120, .i32⟩ : BufTy).Contents (Elt F) → (⟨S120, .i32⟩ : BufTy).Contents (Elt F)),
    ternary main_c_2 main_v154 main_c_1 main_v155 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v155 main_v156 (broadcastInDim S120x1 ![0] bcast_S120_S120x1_0 : (⟨S120, .i32⟩ : BufTy).Contents (Elt F) → (⟨S120x1, .i32⟩ : BufTy).Contents (Elt F)),
    binary main_v147 main_v156 main_v157 ((fun x i => Host.gather gather_S16_S120x1_S120_n_0_n_n_0_1_1 x i) : (⟨S16, .i1⟩ : BufTy).Contents (Elt F) → (⟨S120x1, .i32⟩ : BufTy).Contents (Elt F) → (⟨S120, .i1⟩ : BufTy).Contents (Elt F)),
    binary main_v152 main_v157 main_v158 (andi : (⟨S120, .i1⟩ : BufTy).Contents (Elt F) → (⟨S120, .i1⟩ : BufTy).Contents (Elt F) → (⟨S120, .i1⟩ : BufTy).Contents (Elt F)),
    nullary main_c_14 (constantI S_ 32 16#32),
    unary main_c_14 main_v159 (broadcastInDim S120 ![] bcast_S_S120 : (⟨S_, .i32⟩ : BufTy).Contents (Elt F) → (⟨S120, .i32⟩ : BufTy).Contents (Elt F)),
    binary main_c main_v159 main_v160 (addi : (⟨S120, .i32⟩ : BufTy).Contents (Elt F) → (⟨S120, .i32⟩ : BufTy).Contents (Elt F) → (⟨S120, .i32⟩ : BufTy).Contents (Elt F)),
    ternary main_c_3 main_v160 main_c main_v161 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    nullary main_c_15 (constantI S_ 32 16#32),
    unary main_c_15 main_v162 (broadcastInDim S120 ![] bcast_S_S120 : (⟨S_, .i32⟩ : BufTy).Contents (Elt F) → (⟨S120, .i32⟩ : BufTy).Contents (Elt F)),
    binary main_c_1 main_v162 main_v163 (addi : (⟨S120, .i32⟩ : BufTy).Contents (Elt F) → (⟨S120, .i32⟩ : BufTy).Contents (Elt F) → (⟨S120, .i32⟩ : BufTy).Contents (Elt F)),
    ternary main_c_4 main_v163 main_c_1 main_v164 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v161 main_v165 (broadcastInDim S120x1 ![0] bcast_S120_S120x1_0 : (⟨S120, .i32⟩ : BufTy).Contents (Elt F) → (⟨S120x1, .i32⟩ : BufTy).Contents (Elt F)),
    unary main_v164 main_v166 (broadcastInDim S120x1 ![0] bcast_S120_S120x1_0 : (⟨S120, .i32⟩ : BufTy).Contents (Elt F) → (⟨S120x1, .i32⟩ : BufTy).Contents (Elt F)),
    binary main_v165 main_v166 main_v167 pairCols,
    binary main_v145 main_v167 main_v168 ((fun x i => Host.gather gather_S16x16_S120x2_S120_n_01_n_n_01_1_11 x i) : (⟨S16x16, .f32⟩ : BufTy).Contents (Elt F) → (⟨S120x2, .i32⟩ : BufTy).Contents (Elt F) → (⟨S120, .f32⟩ : BufTy).Contents (Elt F)),
    nullary main_cst_16 (constant S_ .f32 0x3F800000#32),
    TRef.unary (.of main_cst_16 : TRef sig ⟨S_, .f32⟩) main_call0.v0 id,
    TRef.unary main_call0.v0 main_call0.v1 (broadcastInDim S120 ![] bcast_S_S120),
    TRef.ternary (.of main_v158 : TRef sig ⟨S120, .i1⟩) (.of main_v168 : TRef sig ⟨S120, .f32⟩) main_call0.v1 main_call0.v2 select,
    unary main_v169 main_v170 (Host.sqrt : (⟨S120, .f32⟩ : BufTy).Contents (Elt F) → (⟨S120, .f32⟩ : BufTy).Contents (Elt F)),
    nullary main_cst_17 (constant S_ .f32 0x00000000#32),
    TRef.unary (.of main_cst_17 : TRef sig ⟨S_, .f32⟩) main_call1.v0 id,
    TRef.unary main_call1.v0 main_call1.v1 (broadcastInDim S120 ![] bcast_S_S120),
    TRef.ternary (.of main_v158 : TRef sig ⟨S120, .i1⟩) (.of main_v170 : TRef sig ⟨S120, .f32⟩) main_call1.v1 main_call1.v2 select,
    nullary main_cst_18 (constant S_ .f32 0x00000000#32),
    binary main_v171 main_cst_18 main_v172 ((fun x v => Host.reduceAdd x v reducesTo_S120_S_d0 h_S_) : (⟨S120, .f32⟩ : BufTy).Contents (Elt F) → (⟨S_, .f32⟩ : BufTy).Contents (Elt F) → (⟨S_, .f32⟩ : BufTy).Contents (Elt F)),
    unary main_v158 main_v173 (uitofp .f32 : (⟨S120, .i1⟩ : BufTy).Contents (Elt F) → (⟨S120, .f32⟩ : BufTy).Contents (Elt F)),
    nullary main_cst_19 (constant S_ .f32 0x00000000#32),
    binary main_v173 main_cst_19 main_v174 ((fun x v => Host.reduceAdd x v reducesTo_S120_S_d0 h_S_) : (⟨S120, .f32⟩ : BufTy).Contents (Elt F) → (⟨S_, .f32⟩ : BufTy).Contents (Elt F) → (⟨S_, .f32⟩ : BufTy).Contents (Elt F)),
    nullary main_cst_20 (constant S_ .f32 0x00000000#32),
    binary main_v174 main_cst_20 main_v175 (cmpf .ogt : (⟨S_, .f32⟩ : BufTy).Contents (Elt F) → (⟨S_, .f32⟩ : BufTy).Contents (Elt F) → (⟨S_, .i1⟩ : BufTy).Contents (Elt F)),
    nullary main_cst_21 (constant S_ .f32 0x3F800000#32),
    binary main_v174 main_cst_21 main_v176 (maximumf : (⟨S_, .f32⟩ : BufTy).Contents (Elt F) → (⟨S_, .f32⟩ : BufTy).Contents (Elt F) → (⟨S_, .f32⟩ : BufTy).Contents (Elt F)),
    binary main_v172 main_v176 main_v177 (Host.divf : (⟨S_, .f32⟩ : BufTy).Contents (Elt F) → (⟨S_, .f32⟩ : BufTy).Contents (Elt F) → (⟨S_, .f32⟩ : BufTy).Contents (Elt F)),
    nullary main_cst_22 (constant S_ .f32 0x00000000#32),
    TRef.ternary (.of main_v175 : TRef sig ⟨S_, .i1⟩) (.of main_v177 : TRef sig ⟨S_, .f32⟩) (.of main_cst_22 : TRef sig ⟨S_, .f32⟩) main_call2.v0 select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., nullary_bufs_sub .., unary_bufs_sub .., unary_bufs_sub .., unary_bufs_sub .., binary_bufs_sub .., unary_bufs_sub .., nullary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., nullary_bufs_sub .., binary_bufs_sub .., binary_bufs_sub .., nullary_bufs_sub .., ternary_bufs_sub ..⟩

set_option maxRecDepth 8192 in
set_option maxHeartbeats 80000000 in
/-- The result buffer after the operations, from any contents `V`: the closing arithmetic of the three statistics of
    the two argument buffers' contents. -/
theorem out_eq (V : Valuation τ sig (Elt F)) :
    after ops V (Proc.devRef .tc main_v178)
      = tailF (headGramsF (V (Proc.devRef .tc main_arg0)) (V (Proc.devRef .tc main_arg1)))
          (headSumsF (V (Proc.devRef .tc main_arg0)) (V (Proc.devRef .tc main_arg1)))
          (headCountF (V (Proc.devRef .tc main_arg1))) := by
  after_results_simp
  try dsimp only [Matrix.cons_val]
  try after_results_simp
  rfl

set_option maxRecDepth 8192 in
set_option maxHeartbeats 80000000 in
/-- No operation writes the first argument buffer. -/
theorem arg0_eq (V : Valuation τ sig (Elt F)) :
    after ops V (Proc.devRef .tc main_arg0) = V (Proc.devRef .tc main_arg0) := by
  after_results_simp

set_option maxRecDepth 8192 in
set_option maxHeartbeats 80000000 in
/-- No operation writes the second argument buffer. -/
theorem arg1_eq (V : Valuation τ sig (Elt F)) :
    after ops V (Proc.devRef .tc main_arg1) = V (Proc.devRef .tc main_arg1) := by
  after_results_simp

end

/-- On every device, from any memory with zero counters: every weakly fair execution of @main terminates with the
    result at the closing arithmetic of the three statistics of the argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v178)
        = tail (headGrams (m ((c.tc : Thread nD τ).loc main_arg0)) (m ((c.tc : Thread nD τ).loc main_arg1)))
            (headSums (m ((c.tc : Thread nD τ).loc main_arg0)) (m ((c.tc : Thread nD τ).loc main_arg1)))
            (headCount (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v178).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.lean ====
/-
  The pairwise covariance-alignment loss: 524288 embeddings of 64 coordinates, each with a subject id; per subject
  s the count n_s, the sum of its rows, and its Gram matrix; from these the per-subject covariances (regularised by
  1e-4 on the diagonal), the squared Frobenius distances between every two subjects' covariances, and the mean of
  their square roots over the pairs of subjects that both have at least two rows.

  The kernel computes the three statistics in one region over a grid of 2 x 64 points: each point reads a block of
  4096 rows and their id words, builds the one-hot weights, and adds the block's counts, group sums and Gram
  products (all sixteen subjects' products at once, through a packed [4096, 1024] operand) into accumulators kept in
  scratch; the accumulators are zeroed at the first step of each half of the rows and written out at the last. The
  host then adds the two halves and applies the closing arithmetic. The reference computes the same three
  statistics by one sum over all rows each (sixteen separate Gram products) and applies the same closing arithmetic.

  At the ideal instance the two results are equal: entry by entry the kernel's statistic is the sum over halves,
  blocks and rows within a block of the reference's term — with the product (x_a * w) * x_b against the reference's
  x_a * (x_b * w) — and the sum over all rows splits along halves and blocks; only commutativity and associativity
  of + and * on the extended reals are used, so the finiteness precondition is never opened. The closing arithmetic
  is one and the same function on both sides and is never unfolded.

  The three frames: the kernel's two programs run through the region's 128 points — a first step of a half, a middle
  step or a last step, the accumulators carried between points as the region's invariant — and the lines after it;
  the reference is a straight line of host operations. The one recorded rewrite of the ideal pass (a narrowing to
  bf16 and back, the identity at the ideal instance) is the rule's own statement.
-/
import proofs.«103410_j88596585382423_2_alg».proof.Defs
import proofs.«103410_j88596585382423_2_alg».proof.Proof.Gen.Kernel
import proofs.«103410_j88596585382423_2_alg».proof.Proof.Gen.KernelIdeal
import proofs.«103410_j88596585382423_2_alg».proof.Proof.Gen.ReferenceIdeal
import proofs.«103410_j88596585382423_2_alg».proof.Proof.Gen.Pre_finite_inputs
import proofs.«103410_j88596585382423_2_alg».proof.Proof.KbMain
import proofs.«103410_j88596585382423_2_alg».proof.Proof.KiAlgTail
import proofs.«103410_j88596585382423_2_alg».proof.Proof.KiAlgHeads
import proofs.«103410_j88596585382423_2_alg».proof.Proof.KiTailBridge
import proofs.«103410_j88596585382423_2_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass's one rewrite: narrowing the weights to bf16 and widening them back is the identity at the ideal
    instance, and the rounding through bf16 at the word level. -/
theorem preserves : Cert.preserves_Kernel_KernelIdeal := IdealRules.truncf_extf.statement _ .f32 .bf16

/-- From memories agreeing on the arguments both idealized programs end with the closing arithmetic of the same
    three statistics. -/
theorem algebraic : Cert.algebraic_KernelIdeal_ReferenceIdeal := by
  intro m ρ m' ρ' _ hagree
  refine ⟨_, Cert.KernelIdeal.Alg.result m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  dsimp only [Cert.KernelIdeal.Alg.arrs]
  rw [Cert.KernelIdeal.Val.final2, Cert.KernelIdeal.Val.final3, Cert.KernelIdeal.Val.final4,
    Cert.KernelIdeal.Alg.headsG, Cert.KernelIdeal.Alg.headsS, Cert.KernelIdeal.Alg.headsN,
    Cert.KernelIdeal.Tail.closing_eq_tail]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
